-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x32 : Shape := ⟨2, ![1000000, 32]⟩
abbrev S128x64 : Shape := ⟨2, ![128, 64]⟩
abbrev S64 : Shape := ⟨1, ![64]⟩
abbrev S32x64 : Shape := ⟨2, ![32, 64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part3 {F : FTy → Type} [FloatOps F] (main_arg1 : IVec S2x1000000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S2x1000000 32 := broadcastInDim S2x1000000 ![] bcast_S_S2x1000000 main_c_20
  let main_v55 : IVec S2x1000000 1 := cmpi .sge main_arg1 main_v54
  let main_c_21 : IVec S_ 1 := constantI S_ 1 1#1
  let main_v56 : IVec S_ 1 := (fun x v => Host.reduce IntOp.andi x v reducesTo_S2x1000000_S_d0_1 h_S_) main_v55 main_c_21
  let main_v57 : IVec S_ 1 := andi main_v53 main_v56
  main_v57

def fn_part2 {F : FTy → Type} [FloatOps F] (main_arg1 : IVec S2x1000000 32) (main_arg8 : FVec F S128x1 .f32) (main_arg9 : FVec F S1 .f32) (main_arg10 : FVec F S64 .f32) (main_arg11 : FVec F S64 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x1000000 32) (main_arg5 : FVec F S128x64 .f32) (main_arg6 : FVec F S32x64 .f32) (main_arg7 : FVec F S64 .f32) (main_arg8 : FVec F S128x1 .f32) (main_arg9 : FVec F S1 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x1000000 32) (main_arg2 : FVec F S1000000x32 .f32) (main_arg3 : FVec F S128x64 .f32) (main_arg4 : FVec F S64 .f32) (main_arg5 : FVec F S128x64 .f32) (main_arg6 : FVec F S32x64 .f32) (main_arg7 : FVec F S64 .f32) (main_arg8 : FVec F S128x1 .f32) (main_arg9 : FVec F S1 .f32) (main_arg10 : FVec F S64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x32 .f32 := Host.absf main_arg2
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x1000000 : Shape := ⟨2, ![2, 1000000]⟩
abbrev S1000000x32 : Shape := ⟨2, ![1000000, 32]⟩
abbrev S128x64 : Shape := ⟨2, ![128, 64]⟩
abbrev S64 : Shape := ⟨1, ![64]⟩
abbrev S32x64 : Shape := ⟨2, ![32, 64]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩
abbrev S64x1 : Shape := ⟨2, ![64, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1000000x64 : Shape := ⟨2, ![1000000, 64]⟩
abbrev S20000x32 : Shape := ⟨2, ![20000, 32]⟩
abbrev S20000x64 : Shape := ⟨2, ![20000, 64]⟩
abbrev S20000x1 : Shape := ⟨2, ![20000, 1]⟩

abbrev nBuf : Space → Nat
  | .hbm => 75
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S32x64, .f32⟩
  | .hbm, ⟨7, _⟩ => ⟨S64, .f32⟩
  | .hbm, ⟨8, _⟩ => ⟨S128x1, .f32⟩
  | .hbm, ⟨9, _⟩ => ⟨S1, .f32⟩
  | .hbm, ⟨10, _⟩ => ⟨S64, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S100000x128, .f32⟩
  | .hbm, ⟨27, _⟩ => ⟨S1000000x1, .i32⟩
  | .hbm, ⟨28, _⟩ => ⟨S100000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S100000x1, .f32⟩
  | .hbm, ⟨36, _⟩ => ⟨S1x64, .f32⟩
  | .hbm, ⟨37, _⟩ => ⟨S1x64, .f32⟩
  | .hbm, ⟨38, _⟩ => ⟨S1x1, .f32⟩
  | .hbm, ⟨39, _⟩ => ⟨S1x64, .f32⟩
  | .hbm, ⟨40, _⟩ => ⟨S1x64, .f32⟩
  | .hbm, ⟨41, _⟩ => ⟨S64x1, .f32⟩
  | .hbm, ⟨42, _⟩ => ⟨S64x1, .f32⟩
  | .hbm, ⟨43, _⟩ => ⟨S100000x64, .f32⟩
  | .hbm, ⟨44, _⟩ => ⟨S1000000x64, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S1x64, .f32⟩
  | .hbm, ⟨62, _⟩ => ⟨S_, .f32⟩
  | .hbm, ⟨63, _⟩ => ⟨S1x64, .f32⟩
  | .hbm, ⟨64, _⟩ => ⟨S1x64, .f32⟩
  | .hbm, ⟨65, _⟩ => ⟨S_, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S_, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S20000x32, .f32⟩
  | .local _ .vmem, ⟨12, _⟩ => ⟨S20000x32, .f32⟩
  | .local _ .vmem, ⟨13, _⟩ => ⟨S32x64, .f32⟩
  | .local _ .vmem, ⟨14, _⟩ => ⟨S1x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S64x1, .f32⟩
  | .local _ .vmem, ⟨22, _⟩ => ⟨S64x1, .f32⟩
  | .local _ .vmem, ⟨23, _⟩ => ⟨S1x1, .f32⟩
  | .local _ .vmem, ⟨24, _⟩ => ⟨S20000x64, .f32⟩
  | .local _ .vmem, ⟨25, _⟩ => ⟨S20000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S64_S1x64 : S64.ShapeCasts S1x64
  shapeCasts_S1_S1x1 : S1.ShapeCasts S1x1
  slices_S128x1_S64x1_0_0 : S128x1.Slices ![0, 0] S64x1
  slices_S128x1_S64x1_64_0 : S128x1.Slices ![64, 0] S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S20000x32_S20000x32_0_0 : ∀ a, (![0, 0] : Fin 2 → Nat) a + S20000x32.size a ≤ S20000x32.size a
  h_S20000x32 : 0 < S20000x32.numel
  inb_S32x64_S32x64_0_0 : ∀ a, (![0, 0] : Fin 2 → Nat) a + S32x64.size a ≤ S32x64.size a
  h_S32x64 : 0 < S32x64.numel
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  broadcasts_S20000x1_S20000x64 : S20000x1.Broadcasts S20000x64
  bcast_S_S100000x64 : S_.BroadcastsInDim S100000x64 (![] : Fin 0 → Fin S100000x64.rank)
  shapeCasts_S5000x64_S5000x64 : S5000x64.ShapeCasts S5000x64
  reduces_S5000x64_S64 : S5000x64.Reduces [0] S64
  bcast_S_S1x64 : S_.BroadcastsInDim S1x64 (![] : Fin 0 → Fin S1x64.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S5000x128_S128x64_S5000x64_1_0_0_1_n_n_wf : DotDims.WF S5000x128 S128x64 S5000x64 [1] [0] [0] [1] [] []
  dot_S20000x32_S32x64_S20000x64_1_0_0_1_n_n_wf : DotDims.WF S20000x32 S32x64 S20000x64 [1] [0] [0] [1] [] []
  gather_S100000x64_S1000000x1_S1000000x64_1_0_n_n_0_1_164_wf : GatherDims.WF S100000x64 S1000000x1 S1000000x64 [1] [0] [] [0] [] 1 ![1, 64]
  dot_S20000x64_S64x1_S20000x1_1_0_0_1_n_n_wf : DotDims.WF S20000x64 S64x1 S20000x1 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S1000000x32.size a
  hwx1_0 : ∀ i : grid1.Coords, EltTy.bits .f32 = 32 ∨ (Rect.block (s := S1000000x32) S20000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S1000000x64.size a
  hwx1_3 : ∀ i : grid1.Coords, EltTy.bits .f32 = 32 ∨ (Rect.block (s := S1000000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S1000000x64.size a
  hwx2_0 : ∀ i : grid2.Coords, EltTy.bits .f32 = 32 ∨ (Rect.block (s := S1000000x64) S20000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x64.size a ≤ S1000000x64.size a
  hwx2_1 : ∀ i : grid2.Coords, EltTy.bits .f32 = 32 ∨ (Rect.block (s := S1000000x64) S20000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x64.size a ≤ S1000000x64.size a
  hwx2_5 : ∀ i : grid2.Coords, EltTy.bits .f32 = 32 ∨ (Rect.block (s := S1000000x64) S20000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S20000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S20000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40_0) S1x64.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40_1) S1x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v39) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v23) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x32 : Shape := ⟨2, ![1000000, 32]⟩
abbrev S128x64 : Shape := ⟨2, ![128, 64]⟩
abbrev S64 : Shape := ⟨1, ![64]⟩
abbrev S32x64 : Shape := ⟨2, ![32, 64]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1000000x64 : Shape := ⟨2, ![1000000, 64]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S1000000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S32x64, .f32⟩
  | .hbm, ⟨7, _⟩ => ⟨S64, .f32⟩
  | .hbm, ⟨8, _⟩ => ⟨S128x1, .f32⟩
  | .hbm, ⟨9, _⟩ => ⟨S1, .f32⟩
  | .hbm, ⟨10, _⟩ => ⟨S64, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S100000x128, .f32⟩
  | .hbm, ⟨27, _⟩ => ⟨S1000000x1, .i32⟩
  | .hbm, ⟨28, _⟩ => ⟨S100000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1000000x64, .f32⟩
  | .hbm, ⟨48, _⟩ => ⟨S1x64, .f32⟩
  | .hbm, ⟨49, _⟩ => ⟨S1000000x64, .f32⟩
  | .hbm, ⟨50, _⟩ => ⟨S1000000x64, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S1000000x128, .f32⟩
  | .hbm, ⟨61, _⟩ => ⟨S1000000x1, .f32⟩
  | .hbm, ⟨62, _⟩ => ⟨S1x1, .f32⟩
  | .hbm, ⟨63, _⟩ => ⟨S1000000x1, .f32⟩
  | .hbm, ⟨64, _⟩ => ⟨S1000000x1, .f32⟩
  | .hbm, ⟨65, _⟩ => ⟨S1000000x1, .f32⟩
  | .hbm, ⟨66, _⟩ => ⟨S1000000x1, .f32⟩
  | .hbm, ⟨67, _⟩ => ⟨S_, .f32⟩
  | .hbm, ⟨68, _⟩ => ⟨S1000000x1, .f32⟩
  | .hbm, ⟨69, _⟩ => ⟨S1000000x1, .f32⟩
  | .hbm, ⟨70, _⟩ => ⟨S_, .f32⟩
  | .hbm, ⟨71, _⟩ => ⟨S1000000x1, .f32⟩
  | .hbm, ⟨72, _⟩ => ⟨S1000000x1, .f32⟩
  | .hbm, ⟨73, _⟩ => ⟨S1000000x64, .f32⟩
  | .hbm, ⟨74, _⟩ => ⟨S1000000x64, .f32⟩
  | .hbm, ⟨75, _⟩ => ⟨S_, .f32⟩
  | .hbm, ⟨76, _⟩ => ⟨S100000x64, .f32⟩
  | .hbm, ⟨77, _⟩ => ⟨S_, .i32⟩
  | .hbm, ⟨78, _⟩ => ⟨S1000000, .i32⟩
  | .hbm, ⟨79, _⟩ => ⟨S1000000, .i1⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S1000000, .i32⟩
  | .hbm, ⟨84, _⟩ => ⟨S1000000x1, .i32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S_, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call0_cst : Ref sig .tc := ⟨.hbm, 118, rfl⟩
abbrev main_call0_v0 : Ref sig .tc := ⟨.hbm, 119, rfl⟩
abbrev main_v88 : Ref sig .tc := ⟨.hbm, 120, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1000000x64_0_1 : S1x64.BroadcastsInDim S1000000x64 (![0, 1] : Fin 2 → Fin S1000000x64.rank)
  concatenates_S1000000x64_S1000000x64_S1000000x128_d1 : Shape.Concatenates [S1000000x64, S1000000x64] S1000000x128 1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  dot_S1000000x32_S32x64_S1000000x64_1_0_0_1_n_n_wf : DotDims.WF S1000000x32 S32x64 S1000000x64 [1] [0] [0] [1] [] []
  gather_S100000x64_S1000000x1_S1000000x64_1_0_n_n_0_1_164_wf : GatherDims.WF S100000x64 S1000000x1 S1000000x64 [1] [0] [] [0] [] 1 ![1, 64]
  dot_S1000000x128_S128x1_S1000000x1_1_0_0_1_n_n_wf : DotDims.WF S1000000x128 S128x1 S1000000x1 [1] [0] [0] [1] [] []
  scatter_S100000x64_S1000000x1_S1000000x64_1_0_0_1_wf : ScatterDims.WF S100000x64 S1000000x1 S1000000x64 [1] [0] [0] 1

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KRun.lean ====
/-
  The idealized kernel's run with its RESULT named: every weakly fair execution of @main terminates, nothing faults,
  the arguments end as launched, and the returned buffer ends at the last boundary's contents — the fold of the
  host stretches and the five regions' write-backs from the launch memory.  @main is launched as its nine segments
  (four host stretches, five regions); the last thread state holds every unscoped buffer at the last boundary's
  contents, and the postcondition reads the returned buffer and the twelve arguments off it.
-/
import proofs.«160100_j24051816857687_1_alg».proof.Proof.KernelIdealFrameP

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the returned buffer at the last boundary's contents. -/
theorem run_result : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.KRun

end
-- ==== Proof.Spec.lean ====
/-
  The mathematics of the five device stages, each as ONE whole-array function of its operand arrays over the
  extended reals, index by index.  No program is imported here: the shapes are literal, indices are built from
  coordinates by `ix2`, and the three float literals the programs share stay as their 32-bit words.

  * `nodeOut`   : out[r, f]  = (Σ_k (agg[r,k] / max(cnt[r,0], 1)) · W_l[k,f] + b_l[0,f]) + Σ_k x[r,k] · W_r[k,f]
  * `edgeEmb`   : e[n, f]    = Σ_k edge_attr[n,k] · W_e[k,f] + b_e[0,f]
  * `attn`      : c[n, f]    = logistic((Σ_k oc[n,k]·w1[k,0] + Σ_k e[n,k]·w2[k,0]) + b[0,0]) · e[n,f]
  * `colSum`, `colSumSq` : the column sums of o and of o², accumulated block of 5000 rows by block
  * `normRelu`  : y[r, f]    = max(n + n, 0) with n = (γ[0,f] · (o[r,f] − μ[0,f])) · s[0,f] + β[0,f]
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev Arr2 (a b : Nat) : Type := (⟨2, ![a, b]⟩ : Shape).Idx → EReal

/-- The f32 word of 1.0 read as an extended real. -/
abbrev oneW : EReal := Ideal.ofBits .f32 0x3F800000#32
/-- The f32 word of 0.0 read as an extended real. -/
abbrev zeroW : EReal := Ideal.ofBits .f32 0x00000000#32

/-- Row `b·5000 + r` of a 100000-row array, from the block number and the row inside the block. -/
abbrev rowOf (b : Fin 20) (r : Fin 5000) : Fin 100000 := ⟨b.val * 5000 + r.val, by omega⟩

/-- The node transform: the mean-aggregated features through `W_l`, plus the bias, plus the node's own features through `W_r`. -/
def nodeOut (agg : Arr2 100000 128) (cnt : Arr2 100000 1) (x : Arr2 100000 128) (Wl : Arr2 128 64) (bl : Arr2 1 64)
    (Wr : Arr2 128 64) : Arr2 100000 64 := fun i =>
  ((∑ k : Fin 128, Ideal.div (agg (ix2 (i 0) k)) (max (cnt (ix2 (i 0) 0)) oneW) * Wl (ix2 k (i 1))) + bl (ix2 0 (i 1)))
    + ∑ k : Fin 128, x (ix2 (i 0) k) * Wr (ix2 k (i 1))

/-- The edge embedding: the edge attributes through `W_e`, plus the bias. -/
def edgeEmb (ea : Arr2 1000000 32) (We : Arr2 32 64) (be : Arr2 1 64) : Arr2 1000000 64 := fun i =>
  (∑ k : Fin 32, ea (ix2 (i 0) k) * We (ix2 k (i 1))) + be (ix2 0 (i 1))

/-- The attention gate times the edge embedding: the score is the two half inner products plus the bias. -/
def attn (oc e : Arr2 1000000 64) (w1 w2 : Arr2 64 1) (b : Arr2 1 1) : Arr2 1000000 64 := fun i =>
  Ideal.logistic (((∑ k : Fin 64, oc (ix2 (i 0) k) * w1 (ix2 k 0)) + ∑ k : Fin 64, e (ix2 (i 0) k) * w2 (ix2 k 0)) + b (ix2 0 0))
    * e i

/-- The column sums, block of 5000 rows by block. -/
def colSum (o : Arr2 100000 64) : Arr2 1 64 := fun i => ∑ b : Fin 20, ∑ r : Fin 5000, o (ix2 (rowOf b r) (i 1))

/-- The column sums of the squares, block of 5000 rows by block. -/
def colSumSq (o : Arr2 100000 64) : Arr2 1 64 := fun i =>
  ∑ b : Fin 20, ∑ r : Fin 5000, o (ix2 (rowOf b r) (i 1)) * o (ix2 (rowOf b r) (i 1))

/-- Normalize, scale, shift, double, and clamp below at zero. -/
def normRelu (o : Arr2 100000 64) (mu s g be : Arr2 1 64) : Arr2 100000 64 := fun i =>
  max (((g (ix2 0 (i 1)) * (o i - mu (ix2 0 (i 1)))) * s (ix2 0 (i 1)) + be (ix2 0 (i 1)))
        + ((g (ix2 0 (i 1)) * (o i - mu (ix2 0 (i 1)))) * s (ix2 0 (i 1)) + be (ix2 0 (i 1)))) zeroW

end Cert.Spec

end
-- ==== Proof.KInt.lean ====
/-
  The integer side of the idealized kernel's host code: the two rows of the [2, E] edge-index array as flat [E]
  vectors, and an [E] index vector as the [E, 1] column a gather or a scatter takes — either with a negative index
  wrapped around by the number of nodes (numpy indexing: `x[idx]`, `.at[idx]`), or as it is (a segment sum's ids).
-/
import proofs.«160100_j24051816857687_1_alg».proof.Proof.Gen.KernelIdeal
import Idealize.ShloMosaic.PureOps.Ideal

noncomputable section

namespace Cert.KernelIdeal.KInt

open Idealize.ShloMosaic Cert.KernelIdeal Cert.KernelIdeal.Facts₀ Cert.KernelIdeal.Facts

/-- Row 0 of the index array (the source node of each edge) as a flat [E] vector. -/
def srcI (ei : (⟨S2x1000000, .i32⟩ : BufTy).Contents (Elt Ideal)) : (⟨S1000000, .i32⟩ : BufTy).Contents (Elt Ideal) :=
  shapeCast _ (extractStridedSlice S1x1000000 ![0, 0] ei slices_S2x1000000_S1x1000000_0_0) shapeCasts_S1x1000000_S1000000
/-- Row 1 of the index array (the target node of each edge) as a flat [E] vector. -/
def dstI (ei : (⟨S2x1000000, .i32⟩ : BufTy).Contents (Elt Ideal)) : (⟨S1000000, .i32⟩ : BufTy).Contents (Elt Ideal) :=
  shapeCast _ (extractStridedSlice S1x1000000 ![1, 0] ei slices_S2x1000000_S1x1000000_1_0) shapeCasts_S1x1000000_S1000000
/-- A negative index wraps around by the number of nodes; then the [E] vector is an [E, 1] column. -/
def wrapCol (v : (⟨S1000000, .i32⟩ : BufTy).Contents (Elt Ideal)) : (⟨S1000000x1, .i32⟩ : BufTy).Contents (Elt Ideal) :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)
/-- The [E] vector as an [E, 1] column, the indices as they are. -/
def rawCol (v : (⟨S1000000, .i32⟩ : BufTy).Contents (Elt Ideal)) : (⟨S1000000x1, .i32⟩ : BufTy).Contents (Elt Ideal) :=
  broadcastInDim S1000000x1 ![0] bcast_S1000000_S1000000x1_0 v

end Cert.KernelIdeal.KInt

end
-- ==== Proof.KChain.lean ====
/-
  The idealized kernel's returned array as ONE function of the twelve argument arrays.  The five device stages are
  taken as hypotheses in the form "the stage's output array is the stage's function (Spec) of its operand arrays as the
  region finds them"; the host stretches between them are read off the fold of host operations.  The composition:

    agg, cnt   the two segment sums over the target node of each edge (a gather of x by the wrapped source index, then
               scatter-adds into zeros by the raw target index)
    out1     = nodeOut agg cnt x W_l b_l W_r
    e        = edgeEmb edge_attr W_e b_e
    contrib  = attn (out1 gathered by the wrapped target index) e W_att[0:64] W_att[64:128] b_att
    out2     = out1 + (contrib scatter-added into zeros by the raw target index)
    mu       = colSum out2 / n,   inv = rsqrt (colSumSq out2 / n − mu · mu + eps)
    result   = normRelu out2 mu inv gamma beta
-/
import proofs.«160100_j24051816857687_1_alg».proof.Proof.KernelIdealFrameP
import proofs.«160100_j24051816857687_1_alg».proof.Proof.Spec
import proofs.«160100_j24051816857687_1_alg».proof.Proof.KInt
import Idealize.ShloMosaic.Lib.StableHlo.Run

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen Cert.KernelIdeal.GenP Cert.KernelIdeal.KInt

/-! ## The stages -/

def aggK (x : (⟨S100000x128, .f32⟩ : BufTy).Contents (Elt Ideal)) (ei : (⟨S2x1000000, .i32⟩ : BufTy).Contents (Elt Ideal)) :
    (⟨S100000x128, .f32⟩ : BufTy).Contents (Elt Ideal) :=
  Host.scatterAdd scatter_S100000x128_S1000000x1_S1000000x128_1_0_0_1
    (broadcastInDim S100000x128 ![] bcast_S_S100000x128 (constant (F := Ideal) S_ .f32 0x00000000#32))
    (rawCol (dstI ei))
    (Host.gather gather_S100000x128_S1000000x1_S1000000x128_1_0_n_n_0_1_1128 x (wrapCol (srcI ei)))

def cntK (ei : (⟨S2x1000000, .i32⟩ : BufTy).Contents (Elt Ideal)) : (⟨S100000x1, .f32⟩ : BufTy).Contents (Elt Ideal) :=
  broadcastInDim S100000x1 ![0] bcast_S100000_S100000x1_0
    (Host.scatterAdd scatter_S100000_S1000000x1_S1000000_n_0_0_1
      (broadcastInDim S100000 ![] bcast_S_S100000 (constant (F := Ideal) S_ .f32 0x00000000#32))
      (rawCol (dstI ei))
      (broadcastInDim S1000000 ![] bcast_S_S1000000 (constant (F := Ideal) S_ .f32 0x3F800000#32)))

def out1K (x : (⟨S100000x128, .f32⟩ : BufTy).Contents (Elt Ideal)) (ei : (⟨S2x1000000, .i32⟩ : BufTy).Contents (Elt Ideal))
    (Wl : (⟨S128x64, .f32⟩ : BufTy).Contents (Elt Ideal)) (bl : (⟨S64, .f32⟩ : BufTy).Contents (Elt Ideal))
    (Wr : (⟨S128x64, .f32⟩ : BufTy).Contents (Elt Ideal)) : (⟨S100000x64, .f32⟩ : BufTy).Contents (Elt Ideal) :=
  Cert.Spec.nodeOut (aggK x ei) (cntK ei) x Wl (shapeCast _ bl shapeCasts_S64_S1x64) Wr

def embK (ea : (⟨S1000000x32, .f32⟩ : BufTy).Contents (Elt Ideal)) (We : (⟨S32x64, .f32⟩ : BufTy).Contents (Elt Ideal))
    (be : (⟨S64, .f32⟩ : BufTy).Contents (Elt Ideal)) : (⟨S1000000x64, .f32⟩ : BufTy).Contents (Elt Ideal) :=
  Cert.Spec.edgeEmb ea We (shapeCast _ be shapeCasts_S64_S1x64)

def contribK (o1 : (⟨S100000x64, .f32⟩ : BufTy).Contents (Elt Ideal)) (ei : (⟨S2x1000000, .i32⟩ : BufTy).Contents (Elt Ideal))
    (e : (⟨S1000000x64, .f32⟩ : BufTy).Contents (Elt Ideal)) (Wa : (⟨S128x1, .f32⟩ : BufTy).Contents (Elt Ideal))
    (ba : (⟨S1, .f32⟩ : BufTy).Contents (Elt Ideal)) : (⟨S1000000x64, .f32⟩ : BufTy).Contents (Elt Ideal) :=
  Cert.Spec.attn (Host.gather gather_S100000x64_S1000000x1_S1000000x64_1_0_n_n_0_1_164 o1 (wrapCol (dstI ei))) e
    (extractStridedSlice S64x1 ![0, 0] Wa slices_S128x1_S64x1_0_0) (extractStridedSlice S64x1 ![64, 0] Wa slices_S128x1_S64x1_64_0)
    (shapeCast _ ba shapeCasts_S1_S1x1)

def out2K (o1 : (⟨S100000x64, .f32⟩ : BufTy).Contents (Elt Ideal)) (ei : (⟨S2x1000000, .i32⟩ : BufTy).Contents (Elt Ideal))
    (ct : (⟨S1000000x64, .f32⟩ : BufTy).Contents (Elt Ideal)) : (⟨S100000x64, .f32⟩ : BufTy).Contents (Elt Ideal) :=
  addf o1 (Host.scatterAdd scatter_S100000x64_S1000000x1_S1000000x64_1_0_0_1
    (broadcastInDim S100000x64 ![] bcast_S_S100000x64 (constant (F := Ideal) S_ .f32 0x00000000#32)) (rawCol (dstI ei)) ct)

def muK (o2 : (⟨S100000x64, .f32⟩ : BufTy).Contents (Elt Ideal)) : (⟨S1x64, .f32⟩ : BufTy).Contents (Elt Ideal) :=
  Host.divf (Cert.Spec.colSum o2) (broadcastInDim S1x64 ![] bcast_S_S1x64 (constant (F := Ideal) S_ .f32 0x47C35000#32))

def invK (o2 : (⟨S100000x64, .f32⟩ : BufTy).Contents (Elt Ideal)) : (⟨S1x64, .f32⟩ : BufTy).Contents (Elt Ideal) :=
  Host.rsqrt (addf (subf (Host.divf (Cert.Spec.colSumSq o2) (broadcastInDim S1x64 ![] bcast_S_S1x64 (constant (F := Ideal) S_ .f32 0x47C35000#32)))
      (mulf (muK o2) (muK o2)))
    (broadcastInDim S1x64 ![] bcast_S_S1x64 (constant (F := Ideal) S_ .f32 0x3727C5AC#32)))

/-- The whole kernel as a function of its twelve arguments. -/
def resK (x : (⟨S100000x128, .f32⟩ : BufTy).Contents (Elt Ideal)) (ei : (⟨S2x1000000, .i32⟩ : BufTy).Contents (Elt Ideal))
    (ea : (⟨S1000000x32, .f32⟩ : BufTy).Contents (Elt Ideal)) (Wl : (⟨S128x64, .f32⟩ : BufTy).Contents (Elt Ideal))
    (bl : (⟨S64, .f32⟩ : BufTy).Contents (Elt Ideal)) (Wr : (⟨S128x64, .f32⟩ : BufTy).Contents (Elt Ideal))
    (We : (⟨S32x64, .f32⟩ : BufTy).Contents (Elt Ideal)) (be : (⟨S64, .f32⟩ : BufTy).Contents (Elt Ideal))
    (Wa : (⟨S128x1, .f32⟩ : BufTy).Contents (Elt Ideal)) (ba : (⟨S1, .f32⟩ : BufTy).Contents (Elt Ideal))
    (ga bt : (⟨S64, .f32⟩ : BufTy).Contents (Elt Ideal)) : (⟨S100000x64, .f32⟩ : BufTy).Contents (Elt Ideal) :=
  let o1 := out1K x ei Wl bl Wr
  let o2 := out2K o1 ei (contribK o1 ei (embK ea We be) Wa ba)
  Cert.Spec.normRelu o2 (muK o2) (invK o2) (shapeCast _ ga shapeCasts_S64_S1x64) (shapeCast _ bt shapeCasts_S64_S1x64)

/-! ## The fold, buffer by buffer -/

/-- What each region's output array ends holding, as a function of the region's operand arrays at entry. -/
structure Regions : Prop where
  r0 : ∀ (V : (c : Dev nD) → (b : Ref sig .tc) → Buf (Elt Ideal) ((c : Thread nD τ).loc b)) (c : Dev nD),
    (dat0 (F := Ideal) V c).arrAt 6 cfg0.N = Cert.Spec.nodeOut (V c (Pipeline.arrRef spec0 0)) (V c (Pipeline.arrRef spec0 1))
      (V c (Pipeline.arrRef spec0 2)) (V c (Pipeline.arrRef spec0 3)) (V c (Pipeline.arrRef spec0 4)) (V c (Pipeline.arrRef spec0 5))
  r1 : ∀ (V : (c : Dev nD) → (b : Ref sig .tc) → Buf (Elt Ideal) ((c : Thread nD τ).loc b)) (c : Dev nD),
    (dat1 (F := Ideal) V c).arrAt 3 cfg1.N = Cert.Spec.edgeEmb (V c (Pipeline.arrRef spec1 0)) (V c (Pipeline.arrRef spec1 1))
      (V c (Pipeline.arrRef spec1 2))
  r2 : ∀ (V : (c : Dev nD) → (b : Ref sig .tc) → Buf (Elt Ideal) ((c : Thread nD τ).loc b)) (c : Dev nD),
    (dat2 (F := Ideal) V c).arrAt 5 cfg2.N = Cert.Spec.attn (V c (Pipeline.arrRef spec2 0)) (V c (Pipeline.arrRef spec2 1))
      (V c (Pipeline.arrRef spec2 2)) (V c (Pipeline.arrRef spec2 3)) (V c (Pipeline.arrRef spec2 4))
  r3s : ∀ (V : (c : Dev nD) → (b : Ref sig .tc) → Buf (Elt Ideal) ((c : Thread nD τ).loc b)) (c : Dev nD),
    (dat3 (F := Ideal) V c).arrAt 1 cfg3.N = Cert.Spec.colSum (V c (Pipeline.arrRef spec3 0))
  r3q : ∀ (V : (c : Dev nD) → (b : Ref sig .tc) → Buf (Elt Ideal) ((c : Thread nD τ).loc b)) (c : Dev nD),
    (dat3 (F := Ideal) V c).arrAt 2 cfg3.N = Cert.Spec.colSumSq (V c (Pipeline.arrRef spec3 0))
  r4 : ∀ (V : (c : Dev nD) → (b : Ref sig .tc) → Buf (Elt Ideal) ((c : Thread nD τ).loc b)) (c : Dev nD),
    (dat4 (F := Ideal) V c).arrAt 5 cfg4.N = Cert.Spec.normRelu (V c (Pipeline.arrRef spec4 0)) (V c (Pipeline.arrRef spec4 1))
      (V c (Pipeline.arrRef spec4 2)) (V c (Pipeline.arrRef spec4 3)) (V c (Pipeline.arrRef spec4 4))

section Fold

variable (m : (ℓ : Loc nD τ sig) → Buf (Elt Ideal) ℓ) (ρ : Dev nD → PrngReg) (c : Dev nD)

/-- The stage values at the launch memory `m` of core `c`. -/
def O1 : (⟨S100000x64, .f32⟩ : BufTy).Contents (Elt Ideal) := out1K (m ((c : Thread nD τ).loc main_arg0)) (m ((c : Thread nD τ).loc main_arg1)) (m ((c : Thread nD τ).loc main_arg3)) (m ((c : Thread nD τ).loc main_arg4)) (m ((c : Thread nD τ).loc main_arg5))
def EM : (⟨S1000000x64, .f32⟩ : BufTy).Contents (Elt Ideal) := embK (m ((c : Thread nD τ).loc main_arg2)) (m ((c : Thread nD τ).loc main_arg6)) (m ((c : Thread nD τ).loc main_arg7))
def CT : (⟨S1000000x64, .f32⟩ : BufTy).Contents (Elt Ideal) := contribK (O1 m c) (m ((c : Thread nD τ).loc main_arg1)) (EM m c) (m ((c : Thread nD τ).loc main_arg8)) (m ((c : Thread nD τ).loc main_arg9))
def O2 : (⟨S100000x64, .f32⟩ : BufTy).Contents (Elt Ideal) := out2K (O1 m c) (m ((c : Thread nD τ).loc main_arg1)) (CT m c)

/-! ### After the first host stretch (region 0's entry) -/

set_option maxHeartbeats 4000000 in
theorem W1_v3 : W1 m ρ c (Proc.devRef .tc main_v3) = dstI (m ((c : Thread nD τ).loc main_arg1)) := by
  show StableHlo.after hostOps0 (W0 m ρ c) (Proc.devRef .tc main_v3) = _
  after_results <;> rfl
set_option maxHeartbeats 4000000 in
theorem W1_v13 : W1 m ρ c (Proc.devRef .tc main_v13) = aggK (m ((c : Thread nD τ).loc main_arg0)) (m ((c : Thread nD τ).loc main_arg1)) := by
  show StableHlo.after hostOps0 (W0 m ρ c) (Proc.devRef .tc main_v13) = _
  after_results <;> rfl
set_option maxHeartbeats 4000000 in
theorem W1_v18 : W1 m ρ c (Proc.devRef .tc main_v18) = cntK (m ((c : Thread nD τ).loc main_arg1)) := by
  show StableHlo.after hostOps0 (W0 m ρ c) (Proc.devRef .tc main_v18) = _
  after_results <;> rfl
set_option maxHeartbeats 4000000 in
theorem W1_v19 : W1 m ρ c (Proc.devRef .tc main_v19) = shapeCast _ (m ((c : Thread nD τ).loc main_arg4)) shapeCasts_S64_S1x64 := by
  show StableHlo.after hostOps0 (W0 m ρ c) (Proc.devRef .tc main_v19) = _
  after_results <;> rfl
set_option maxHeartbeats 4000000 in
theorem W1_v20 : W1 m ρ c (Proc.devRef .tc main_v20) = shapeCast _ (m ((c : Thread nD τ).loc main_arg7)) shapeCasts_S64_S1x64 := by
  show StableHlo.after hostOps0 (W0 m ρ c) (Proc.devRef .tc main_v20) = _
  after_results <;> rfl
set_option maxHeartbeats 4000000 in
theorem W1_v21 : W1 m ρ c (Proc.devRef .tc main_v21) = shapeCast _ (m ((c : Thread nD τ).loc main_arg9)) shapeCasts_S1_S1x1 := by
  show StableHlo.after hostOps0 (W0 m ρ c) (Proc.devRef .tc main_v21) = _
  after_results <;> rfl
set_option maxHeartbeats 4000000 in
theorem W1_v22 : W1 m ρ c (Proc.devRef .tc main_v22) = shapeCast _ (m ((c : Thread nD τ).loc main_arg10)) shapeCasts_S64_S1x64 := by
  show StableHlo.after hostOps0 (W0 m ρ c) (Proc.devRef .tc main_v22) = _
  after_results <;> rfl
set_option maxHeartbeats 4000000 in
theorem W1_v23 : W1 m ρ c (Proc.devRef .tc main_v23) = shapeCast _ (m ((c : Thread nD τ).loc main_arg11)) shapeCasts_S64_S1x64 := by
  show StableHlo.after hostOps0 (W0 m ρ c) (Proc.devRef .tc main_v23) = _
  after_results <;> rfl
set_option maxHeartbeats 4000000 in
theorem W1_v24 : W1 m ρ c (Proc.devRef .tc main_v24) = extractStridedSlice S64x1 ![0, 0] (m ((c : Thread nD τ).loc main_arg8)) slices_S128x1_S64x1_0_0 := by
  show StableHlo.after hostOps0 (W0 m ρ c) (Proc.devRef .tc main_v24) = _
  after_results <;> rfl
set_option maxHeartbeats 4000000 in
theorem W1_v25 : W1 m ρ c (Proc.devRef .tc main_v25) = extractStridedSlice S64x1 ![64, 0] (m ((c : Thread nD τ).loc main_arg8)) slices_S128x1_S64x1_64_0 := by
  show StableHlo.after hostOps0 (W0 m ρ c) (Proc.devRef .tc main_v25) = _
  after_results <;> rfl
set_option maxHeartbeats 4000000 in
theorem W1_arg (k : Ref sig .tc) (hk : k = main_arg0 ∨ k = main_arg2 ∨ k = main_arg3 ∨ k = main_arg5 ∨ k = main_arg6) :
    W1 m ρ c (Proc.devRef .tc k) = m ((c : Thread nD τ).loc k) := by
  rcases hk with rfl | rfl | rfl | rfl | rfl <;>
  · show StableHlo.after hostOps0 (W0 m ρ c) _ = _
    after_results <;> rfl

variable (H : Regions)
include H

/-! ### Region 0's exit -/

theorem W2_v26 : W2 m ρ c (Proc.devRef .tc main_v26) = O1 m c := by
  refine (W2_arr m ρ c 6).trans ((H.r0 (V1 m ρ) c).trans ?_)
  show Cert.Spec.nodeOut (W1 m ρ c (Proc.devRef .tc main_v13)) (W1 m ρ c (Proc.devRef .tc main_v18)) (W1 m ρ c (Proc.devRef .tc main_arg0))
    (W1 m ρ c (Proc.devRef .tc main_arg3)) (W1 m ρ c (Proc.devRef .tc main_v19)) (W1 m ρ c (Proc.devRef .tc main_arg5)) = _
  rw [W1_v13, W1_v18, W1_v19, W1_arg m ρ c main_arg0 (by decide), W1_arg m ρ c main_arg3 (by decide), W1_arg m ρ c main_arg5 (by decide)]
  rfl
theorem W2_v3 : W2 m ρ c (Proc.devRef .tc main_v3) = dstI (m ((c : Thread nD τ).loc main_arg1)) :=
  (W2_of_ne m ρ c main_v3 (by decide)).trans (W1_v3 m ρ c)
theorem W2_v20 : W2 m ρ c (Proc.devRef .tc main_v20) = shapeCast _ (m ((c : Thread nD τ).loc main_arg7)) shapeCasts_S64_S1x64 :=
  (W2_of_ne m ρ c main_v20 (by decide)).trans (W1_v20 m ρ c)
theorem W2_arg2 : W2 m ρ c (Proc.devRef .tc main_arg2) = m ((c : Thread nD τ).loc main_arg2) :=
  (W2_of_ne m ρ c main_arg2 (by decide)).trans (W1_arg m ρ c main_arg2 (by decide))
theorem W2_arg6 : W2 m ρ c (Proc.devRef .tc main_arg6) = m ((c : Thread nD τ).loc main_arg6) :=
  (W2_of_ne m ρ c main_arg6 (by decide)).trans (W1_arg m ρ c main_arg6 (by decide))
theorem W2_v21 : W2 m ρ c (Proc.devRef .tc main_v21) = shapeCast _ (m ((c : Thread nD τ).loc main_arg9)) shapeCasts_S1_S1x1 :=
  (W2_of_ne m ρ c main_v21 (by decide)).trans (W1_v21 m ρ c)
theorem W2_v24 : W2 m ρ c (Proc.devRef .tc main_v24) = extractStridedSlice S64x1 ![0, 0] (m ((c : Thread nD τ).loc main_arg8)) slices_S128x1_S64x1_0_0 :=
  (W2_of_ne m ρ c main_v24 (by decide)).trans (W1_v24 m ρ c)
theorem W2_v25 : W2 m ρ c (Proc.devRef .tc main_v25) = extractStridedSlice S64x1 ![64, 0] (m ((c : Thread nD τ).loc main_arg8)) slices_S128x1_S64x1_64_0 :=
  (W2_of_ne m ρ c main_v25 (by decide)).trans (W1_v25 m ρ c)
theorem W2_v22 : W2 m ρ c (Proc.devRef .tc main_v22) = shapeCast _ (m ((c : Thread nD τ).loc main_arg10)) shapeCasts_S64_S1x64 :=
  (W2_of_ne m ρ c main_v22 (by decide)).trans (W1_v22 m ρ c)
theorem W2_v23 : W2 m ρ c (Proc.devRef .tc main_v23) = shapeCast _ (m ((c : Thread nD τ).loc main_arg11)) shapeCasts_S64_S1x64 :=
  (W2_of_ne m ρ c main_v23 (by decide)).trans (W1_v23 m ρ c)

/-! ### Region 1's exit -/

theorem W3_v27 : W3 m ρ c (Proc.devRef .tc main_v27) = EM m c := by
  refine (W3_arr m ρ c 3).trans ((H.r1 (V2 m ρ) c).trans ?_)
  show Cert.Spec.edgeEmb (W2 m ρ c (Proc.devRef .tc main_arg2)) (W2 m ρ c (Proc.devRef .tc main_arg6)) (W2 m ρ c (Proc.devRef .tc main_v20)) = _
  rw [W2_arg2 m ρ c H, W2_arg6 m ρ c H, W2_v20 m ρ c H]
  rfl
theorem W3_v3 : W3 m ρ c (Proc.devRef .tc main_v3) = dstI (m ((c : Thread nD τ).loc main_arg1)) :=
  (W3_of_ne m ρ c main_v3 (by decide)).trans (W2_v3 m ρ c H)
theorem W3_v21 : W3 m ρ c (Proc.devRef .tc main_v21) = shapeCast _ (m ((c : Thread nD τ).loc main_arg9)) shapeCasts_S1_S1x1 :=
  (W3_of_ne m ρ c main_v21 (by decide)).trans (W2_v21 m ρ c H)
theorem W3_v24 : W3 m ρ c (Proc.devRef .tc main_v24) = extractStridedSlice S64x1 ![0, 0] (m ((c : Thread nD τ).loc main_arg8)) slices_S128x1_S64x1_0_0 :=
  (W3_of_ne m ρ c main_v24 (by decide)).trans (W2_v24 m ρ c H)
theorem W3_v25 : W3 m ρ c (Proc.devRef .tc main_v25) = extractStridedSlice S64x1 ![64, 0] (m ((c : Thread nD τ).loc main_arg8)) slices_S128x1_S64x1_64_0 :=
  (W3_of_ne m ρ c main_v25 (by decide)).trans (W2_v25 m ρ c H)
theorem W3_v22 : W3 m ρ c (Proc.devRef .tc main_v22) = shapeCast _ (m ((c : Thread nD τ).loc main_arg10)) shapeCasts_S64_S1x64 :=
  (W3_of_ne m ρ c main_v22 (by decide)).trans (W2_v22 m ρ c H)
theorem W3_v23 : W3 m ρ c (Proc.devRef .tc main_v23) = shapeCast _ (m ((c : Thread nD τ).loc main_arg11)) shapeCasts_S64_S1x64 :=
  (W3_of_ne m ρ c main_v23 (by decide)).trans (W2_v23 m ρ c H)
theorem W3_v26 : W3 m ρ c (Proc.devRef .tc main_v26) = O1 m c :=
  (W3_of_ne m ρ c main_v26 (by decide)).trans (W2_v26 m ρ c H)

/-! ### After the second host stretch (region 2's entry) -/

theorem W4_v34 : W4 m ρ c (Proc.devRef .tc main_v34)
    = Host.gather gather_S100000x64_S1000000x1_S1000000x64_1_0_n_n_0_1_164 (O1 m c) (wrapCol (dstI (m ((c : Thread nD τ).loc main_arg1)))) := by
  show StableHlo.after hostOps2 (W3 m ρ c) (Proc.devRef .tc main_v34) = _
  after_results
  rw [W3_v26 m ρ c H, W3_v3 m ρ c H]
  rfl
theorem W4_v3 : W4 m ρ c (Proc.devRef .tc main_v3) = dstI (m ((c : Thread nD τ).loc main_arg1)) := by
  refine Eq.trans ?_ (W3_v3 m ρ c H)
  show StableHlo.after hostOps2 (W3 m ρ c) (Proc.devRef .tc main_v3) = W3 m ρ c (Proc.devRef .tc main_v3)
  after_results <;> rfl
theorem W4_v21 : W4 m ρ c (Proc.devRef .tc main_v21) = shapeCast _ (m ((c : Thread nD τ).loc main_arg9)) shapeCasts_S1_S1x1 := by
  refine Eq.trans ?_ (W3_v21 m ρ c H)
  show StableHlo.after hostOps2 (W3 m ρ c) (Proc.devRef .tc main_v21) = W3 m ρ c (Proc.devRef .tc main_v21)
  after_results <;> rfl
theorem W4_v24 : W4 m ρ c (Proc.devRef .tc main_v24) = extractStridedSlice S64x1 ![0, 0] (m ((c : Thread nD τ).loc main_arg8)) slices_S128x1_S64x1_0_0 := by
  refine Eq.trans ?_ (W3_v24 m ρ c H)
  show StableHlo.after hostOps2 (W3 m ρ c) (Proc.devRef .tc main_v24) = W3 m ρ c (Proc.devRef .tc main_v24)
  after_results <;> rfl
theorem W4_v25 : W4 m ρ c (Proc.devRef .tc main_v25) = extractStridedSlice S64x1 ![64, 0] (m ((c : Thread nD τ).loc main_arg8)) slices_S128x1_S64x1_64_0 := by
  refine Eq.trans ?_ (W3_v25 m ρ c H)
  show StableHlo.after hostOps2 (W3 m ρ c) (Proc.devRef .tc main_v25) = W3 m ρ c (Proc.devRef .tc main_v25)
  after_results <;> rfl
theorem W4_v22 : W4 m ρ c (Proc.devRef .tc main_v22) = shapeCast _ (m ((c : Thread nD τ).loc main_arg10)) shapeCasts_S64_S1x64 := by
  refine Eq.trans ?_ (W3_v22 m ρ c H)
  show StableHlo.after hostOps2 (W3 m ρ c) (Proc.devRef .tc main_v22) = W3 m ρ c (Proc.devRef .tc main_v22)
  after_results <;> rfl
theorem W4_v23 : W4 m ρ c (Proc.devRef .tc main_v23) = shapeCast _ (m ((c : Thread nD τ).loc main_arg11)) shapeCasts_S64_S1x64 := by
  refine Eq.trans ?_ (W3_v23 m ρ c H)
  show StableHlo.after hostOps2 (W3 m ρ c) (Proc.devRef .tc main_v23) = W3 m ρ c (Proc.devRef .tc main_v23)
  after_results <;> rfl
theorem W4_v26 : W4 m ρ c (Proc.devRef .tc main_v26) = O1 m c := by
  refine Eq.trans ?_ (W3_v26 m ρ c H)
  show StableHlo.after hostOps2 (W3 m ρ c) (Proc.devRef .tc main_v26) = W3 m ρ c (Proc.devRef .tc main_v26)
  after_results <;> rfl
theorem W4_v27 : W4 m ρ c (Proc.devRef .tc main_v27) = EM m c := by
  refine Eq.trans ?_ (W3_v27 m ρ c H)
  show StableHlo.after hostOps2 (W3 m ρ c) (Proc.devRef .tc main_v27) = W3 m ρ c (Proc.devRef .tc main_v27)
  after_results <;> rfl

/-! ### Region 2's exit -/

theorem W5_v35 : W5 m ρ c (Proc.devRef .tc main_v35) = CT m c := by
  refine (W5_arr m ρ c 5).trans ((H.r2 (V4 m ρ) c).trans ?_)
  show Cert.Spec.attn (W4 m ρ c (Proc.devRef .tc main_v34)) (W4 m ρ c (Proc.devRef .tc main_v27)) (W4 m ρ c (Proc.devRef .tc main_v24))
    (W4 m ρ c (Proc.devRef .tc main_v25)) (W4 m ρ c (Proc.devRef .tc main_v21)) = _
  rw [W4_v34 m ρ c H, W4_v27 m ρ c H, W4_v24 m ρ c H, W4_v25 m ρ c H, W4_v21 m ρ c H]
  rfl
theorem W5_v3 : W5 m ρ c (Proc.devRef .tc main_v3) = dstI (m ((c : Thread nD τ).loc main_arg1)) :=
  (W5_of_ne m ρ c main_v3 (by decide)).trans (W4_v3 m ρ c H)
theorem W5_v22 : W5 m ρ c (Proc.devRef .tc main_v22) = shapeCast _ (m ((c : Thread nD τ).loc main_arg10)) shapeCasts_S64_S1x64 :=
  (W5_of_ne m ρ c main_v22 (by decide)).trans (W4_v22 m ρ c H)
theorem W5_v23 : W5 m ρ c (Proc.devRef .tc main_v23) = shapeCast _ (m ((c : Thread nD τ).loc main_arg11)) shapeCasts_S64_S1x64 :=
  (W5_of_ne m ρ c main_v23 (by decide)).trans (W4_v23 m ρ c H)
theorem W5_v26 : W5 m ρ c (Proc.devRef .tc main_v26) = O1 m c :=
  (W5_of_ne m ρ c main_v26 (by decide)).trans (W4_v26 m ρ c H)

/-! ### After the third host stretch (region 3's entry) -/

theorem W6_v39 : W6 m ρ c (Proc.devRef .tc main_v39) = O2 m c := by
  show StableHlo.after hostOps3 (W5 m ρ c) (Proc.devRef .tc main_v39) = _
  after_results
  rw [W5_v26 m ρ c H, W5_v3 m ρ c H, W5_v35 m ρ c H]
  rfl
theorem W6_v22 : W6 m ρ c (Proc.devRef .tc main_v22) = shapeCast _ (m ((c : Thread nD τ).loc main_arg10)) shapeCasts_S64_S1x64 := by
  refine Eq.trans ?_ (W5_v22 m ρ c H)
  show StableHlo.after hostOps3 (W5 m ρ c) (Proc.devRef .tc main_v22) = W5 m ρ c (Proc.devRef .tc main_v22)
  after_results <;> rfl
theorem W6_v23 : W6 m ρ c (Proc.devRef .tc main_v23) = shapeCast _ (m ((c : Thread nD τ).loc main_arg11)) shapeCasts_S64_S1x64 := by
  refine Eq.trans ?_ (W5_v23 m ρ c H)
  show StableHlo.after hostOps3 (W5 m ρ c) (Proc.devRef .tc main_v23) = W5 m ρ c (Proc.devRef .tc main_v23)
  after_results <;> rfl

/-! ### Region 3's exit -/

theorem W7_v40_0 : W7 m ρ c (Proc.devRef .tc main_v40_0) = Cert.Spec.colSum (O2 m c) := by
  refine (W7_arr m ρ c 1).trans ((H.r3s (V6 m ρ) c).trans ?_)
  show Cert.Spec.colSum (W6 m ρ c (Proc.devRef .tc main_v39)) = _
  rw [W6_v39 m ρ c H]
theorem W7_v40_1 : W7 m ρ c (Proc.devRef .tc main_v40_1) = Cert.Spec.colSumSq (O2 m c) := by
  refine (W7_arr m ρ c 2).trans ((H.r3q (V6 m ρ) c).trans ?_)
  show Cert.Spec.colSumSq (W6 m ρ c (Proc.devRef .tc main_v39)) = _
  rw [W6_v39 m ρ c H]
theorem W7_v22 : W7 m ρ c (Proc.devRef .tc main_v22) = shapeCast _ (m ((c : Thread nD τ).loc main_arg10)) shapeCasts_S64_S1x64 :=
  (W7_of_ne m ρ c main_v22 (by decide)).trans (W6_v22 m ρ c H)
theorem W7_v23 : W7 m ρ c (Proc.devRef .tc main_v23) = shapeCast _ (m ((c : Thread nD τ).loc main_arg11)) shapeCasts_S64_S1x64 :=
  (W7_of_ne m ρ c main_v23 (by decide)).trans (W6_v23 m ρ c H)
theorem W7_v39 : W7 m ρ c (Proc.devRef .tc main_v39) = O2 m c :=
  ((W7_arr m ρ c 0).trans (((dat3 (V6 m ρ) c).arrAt_in 0 rfl _).trans (A_eq3 (V6 m ρ) c 0))).trans (W6_v39 m ρ c H)

/-! ### After the last host stretch (region 4's entry) -/

theorem W8_v42 : W8 m ρ c (Proc.devRef .tc main_v42) = muK (O2 m c) := by
  show StableHlo.after hostOps4 (W7 m ρ c) (Proc.devRef .tc main_v42) = _
  after_results
  rw [W7_v40_0 m ρ c H]
  rfl
theorem W8_v49 : W8 m ρ c (Proc.devRef .tc main_v49) = invK (O2 m c) := by
  show StableHlo.after hostOps4 (W7 m ρ c) (Proc.devRef .tc main_v49) = _
  after_results
  rw [W7_v40_0 m ρ c H, W7_v40_1 m ρ c H]
  rfl
theorem W8_v22 : W8 m ρ c (Proc.devRef .tc main_v22) = shapeCast _ (m ((c : Thread nD τ).loc main_arg10)) shapeCasts_S64_S1x64 := by
  refine Eq.trans ?_ (W7_v22 m ρ c H)
  show StableHlo.after hostOps4 (W7 m ρ c) (Proc.devRef .tc main_v22) = W7 m ρ c (Proc.devRef .tc main_v22)
  after_results <;> rfl
theorem W8_v23 : W8 m ρ c (Proc.devRef .tc main_v23) = shapeCast _ (m ((c : Thread nD τ).loc main_arg11)) shapeCasts_S64_S1x64 := by
  refine Eq.trans ?_ (W7_v23 m ρ c H)
  show StableHlo.after hostOps4 (W7 m ρ c) (Proc.devRef .tc main_v23) = W7 m ρ c (Proc.devRef .tc main_v23)
  after_results <;> rfl
theorem W8_v39 : W8 m ρ c (Proc.devRef .tc main_v39) = O2 m c := by
  refine Eq.trans ?_ (W7_v39 m ρ c H)
  show StableHlo.after hostOps4 (W7 m ρ c) (Proc.devRef .tc main_v39) = W7 m ρ c (Proc.devRef .tc main_v39)
  after_results <;> rfl

/-! ### Region 4's exit: the returned array -/

theorem W9_v50 : W9 m ρ c (Proc.devRef .tc main_v50)
    = resK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 5).trans ((H.r4 (V8 m ρ) c).trans ?_)
  show Cert.Spec.normRelu (W8 m ρ c (Proc.devRef .tc main_v39)) (W8 m ρ c (Proc.devRef .tc main_v42)) (W8 m ρ c (Proc.devRef .tc main_v49))
    (W8 m ρ c (Proc.devRef .tc main_v22)) (W8 m ρ c (Proc.devRef .tc main_v23)) = _
  rw [W8_v39 m ρ c H, W8_v42 m ρ c H, W8_v49 m ρ c H, W8_v22 m ρ c H, W8_v23 m ρ c H]
  rfl

end Fold

end Cert.KernelIdeal.KChain

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.R0Pay.lean ====
/-
  Region 0, the node transform: the body's arithmetic read at one entry.

  A block holds 5000 rows.  Entry (p, q) of the block the body stores is

    (Σ_k (agg[p,k] / max(cnt[p,0], 1)) · W_l[k,q] + b_l[0,q]) + Σ_k x[p,k] · W_r[k,q] :

  the count column is clamped below by the word of 1.0 and copied along the 128 lanes under the division, each of the
  two products into a zero accumulator is the plain sum over the 128 contraction positions, and the bias row is copied
  along the rows.
-/
import proofs.«160100_j24051816857687_1_alg».proof.Proof.Gen.KernelIdeal.Skeleton
import proofs.«160100_j24051816857687_1_alg».proof.Proof.Spec
import proofs.«160100_j24051816857687_1_alg».proof.Proof.LibPlainDot
import proofs.«160100_j24051816857687_1_alg».proof.Proof.LibColumn
import Idealize.ShloMosaic.Lib.Pipeline.Value

noncomputable section

open scoped BigOperators

namespace Cert.KernelIdeal.R0

open Cert.KernelIdeal Cert.KernelIdeal.Gen Idealize.ShloMosaic Idealize.ShloMosaic.ValueIdx

/-- The body's arithmetic as one expression of the six loaded blocks (the named steps substituted). -/
theorem pay_expr (cnt : Vec Ideal S5000x1 .f32) (agg : Vec Ideal S5000x128 .f32) (Wl : Vec Ideal S128x64 .f32)
    (bl : Vec Ideal S1x64 .f32) (x : Vec Ideal S5000x128 .f32) (Wr : Vec Ideal S128x64 .f32) :
    k0_pay1 (F := Ideal) cnt agg Wl bl x Wr =
      addf
        (addf
          (matmul (φ₁ := .f32) (φ₂ := .f32) dot_S5000x128_S128x64_S5000x64_1_0_0_1_n_n none
            (divf (shapeCast S5000x128 agg shapeCasts_S5000x128_S5000x128)
              (broadcastTo S5000x128
                (maximumf (shapeCast S5000x1 cnt shapeCasts_S5000x1_S5000x1)
                  (broadcast S5000x1 (Scalar.ofBits (F := Ideal) .f32 0x3F800000#32)))
                broadcasts_S5000x1_S5000x128))
            Wl (constant (F := Ideal) S5000x64 .f32 0x00000000#32))
          (broadcastTo S5000x64 (shapeCast S1x64 bl shapeCasts_S1x64_S1x64) broadcasts_S1x64_S5000x64))
        (matmul (φ₁ := .f32) (φ₂ := .f32) dot_S5000x128_S128x64_S5000x64_1_0_0_1_n_n none x Wr (constant (F := Ideal) S5000x64 .f32 0x00000000#32)) :=
  rfl

/-- The printed dimension numbers are those of the plain 5000×128 by 128×64 product. -/
theorem dot_plain : dot_S5000x128_S128x64_S5000x64_1_0_0_1_n_n = DotDims.plain 5000 128 64 := rfl

/-- A product of a 5000×128 block with a 128×64 matrix into the zero accumulator, at entry (p, q). -/
theorem product_apply (lhs : FVec Ideal S5000x128 .f32) (rhs : FVec Ideal S128x64 .f32) (p : Fin 5000) (q : Fin 64) :
    matmul (φ₁ := .f32) (φ₂ := .f32) dot_S5000x128_S128x64_S5000x64_1_0_0_1_n_n none lhs rhs (constant (F := Ideal) S5000x64 .f32 0x00000000#32) (ix2 p q)
      = ∑ l : Fin 128, lhs (ix2 p l) * rhs (ix2 l q) := by
  rw [dot_plain]
  exact Cert.LibPlainDot.matmul_zero_apply (M := 5000) (K := 128) (N := 64) none lhs rhs p q

/-- The aggregated features divided by the clamped count, at entry (p, k): the count of row p, at least 1. -/
theorem mean_apply (agg : FVec Ideal S5000x128 .f32) (cnt : FVec Ideal S5000x1 .f32) (p : Fin 5000) (k : Fin 128) :
    divf (shapeCast S5000x128 agg shapeCasts_S5000x128_S5000x128)
        (broadcastTo S5000x128
          (maximumf (shapeCast S5000x1 cnt shapeCasts_S5000x1_S5000x1)
            (broadcast S5000x1 (Scalar.ofBits (F := Ideal) .f32 0x3F800000#32)))
          broadcasts_S5000x1_S5000x128) (ix2 p k)
      = Ideal.div (agg (ix2 p k)) (max (cnt (ix2 p 0)) (Ideal.ofBits .f32 0x3F800000#32)) := by
  rw [divf_apply, shapeCast_self, shapeCast_self, Cert.LibColumn.broadcastTo_a1_ab_apply, maximumf_apply, broadcast_apply]
  rfl

/-- The bias row copied along the rows, at entry (p, q): the bias of column q. -/
theorem bias_apply (bl : FVec Ideal S1x64 .f32) (p : Fin 5000) (q : Fin 64) :
    broadcastTo S5000x64 (shapeCast S1x64 bl shapeCasts_S1x64_S1x64) broadcasts_S1x64_S5000x64 (ix2 p q) = bl (ix2 0 q) := by
  rw [shapeCast_self]
  refine broadcastTo_apply bl broadcasts_S1x64_S5000x64 (ix2 p q) (ix2 0 q) fun ax => ?_
  match ax with
  | ⟨0, _⟩ => rfl
  | ⟨1, _⟩ => rfl

/-- THE BODY'S RESULT AT ENTRY (p, q) of the block, from the six loaded blocks. -/
theorem pay_apply (cnt : Vec Ideal S5000x1 .f32) (agg : Vec Ideal S5000x128 .f32) (Wl : Vec Ideal S128x64 .f32)
    (bl : Vec Ideal S1x64 .f32) (x : Vec Ideal S5000x128 .f32) (Wr : Vec Ideal S128x64 .f32) (p : Fin 5000) (q : Fin 64) :
    k0_pay1 (F := Ideal) cnt agg Wl bl x Wr (ix2 p q)
      = ((∑ k : Fin 128, Ideal.div (agg (ix2 p k)) (max (cnt (ix2 p 0)) (Ideal.ofBits .f32 0x3F800000#32)) * Wl (ix2 k q)) + bl (ix2 0 q))
          + ∑ k : Fin 128, x (ix2 p k) * Wr (ix2 k q) := by
  rw [pay_expr, addf_apply, addf_apply, product_apply, product_apply, bias_apply]
  refine congrArg (· + _) (congrArg (· + _) (Finset.sum_congr rfl fun k _ => ?_))
  rw [mean_apply]

/-- ONE ENTRY OF THE STORED BLOCK IS THE NODE TRANSFORM at the array row `r` that the block's row `p` stands for: it
    is enough that the blocks of the aggregate, the count and the features hold row `r` of their arrays in their row
    `p`, and that the two weight blocks and the bias block agree with their arrays in column `q`. -/
theorem pay_eq_nodeOut (A : Cert.Spec.Arr2 100000 128) (C : Cert.Spec.Arr2 100000 1) (X : Cert.Spec.Arr2 100000 128)
    (WL : Cert.Spec.Arr2 128 64) (BL : Cert.Spec.Arr2 1 64) (WR : Cert.Spec.Arr2 128 64)
    (cnt : Vec Ideal S5000x1 .f32) (agg : Vec Ideal S5000x128 .f32) (wl : Vec Ideal S128x64 .f32)
    (b : Vec Ideal S1x64 .f32) (x : Vec Ideal S5000x128 .f32) (wr : Vec Ideal S128x64 .f32)
    (r : Fin 100000) (p : Fin 5000) (q : Fin 64)
    (hagg : ∀ k : Fin 128, agg (ix2 p k) = A (ix2 r k)) (hcnt : cnt (ix2 p 0) = C (ix2 r 0))
    (hx : ∀ k : Fin 128, x (ix2 p k) = X (ix2 r k)) (hwl : ∀ k : Fin 128, wl (ix2 k q) = WL (ix2 k q))
    (hb : b (ix2 0 q) = BL (ix2 0 q)) (hwr : ∀ k : Fin 128, wr (ix2 k q) = WR (ix2 k q)) :
    k0_pay1 (F := Ideal) cnt agg wl b x wr (ix2 p q) = Cert.Spec.nodeOut A C X WL BL WR (ix2 r q) := by
  rw [pay_apply]
  unfold Cert.Spec.nodeOut
  show _ = ((∑ k : Fin 128, Ideal.div (A (ix2 r k)) (max (C (ix2 r 0)) Cert.Spec.oneW) * WL (ix2 k q)) + BL (ix2 0 q))
              + ∑ k : Fin 128, X (ix2 r k) * WR (ix2 k q)
  rw [hcnt, hb]
  refine congrArg₂ (· + ·) (congrArg (· + _) (Finset.sum_congr rfl fun k _ => ?_)) (Finset.sum_congr rfl fun k _ => ?_)
  · rw [hagg, hwl]
  · rw [hx, hwr]

end Cert.KernelIdeal.R0

end
-- ==== Proof.R0Blocks.lean ====
/-
  Region 0, the node transform: where each window's block sits in its array.

  The grid has 20 points.  At point `t` the blocks of the aggregate, the count and the features, and the block of the
  output, are rows `5000·t … 5000·t + 4999` of their arrays (all columns); the two weight matrices and the bias row are
  read whole at every point.  So row `p` of a row block at point `t` is array row `5000·t + p`, and the 20 output
  blocks tile the 100000 rows: the point whose block holds row `r` is `r / 5000`.
-/
import proofs.«160100_j24051816857687_1_alg».proof.Proof.Gen.KernelIdeal.Points
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.TcCoe Idealize.SL.Sem
open Idealize.ShloMosaic.ValueIdx

/-- The zero offsets of a whole-block access, as the constant function. -/
theorem zero_offsets : (![0, 0] : Fin 2 → Nat) = fun _ => 0 := funext fun a => by fin_cases a <;> rfl

/-- The printed index maps over the 20 grid points: a row window's block index is (t, 0), a whole window's is (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ t.val < 20 :=
  (by decide +kernel : ∀ t : Fin grid0.N, _)

/-- Every one of the 20 row blocks of the output is some point's. -/
theorem idx_onto : ∀ b : Fin 20, ∃ t : Fin cfg0.N, win0_6.index t = ![b.val, 0] :=
  (by decide +kernel : ∀ b : Fin 20, ∃ t : Fin grid0.N, win0_6.index t = ![b.val, 0])

/-! ## The input blocks read at an entry -/

/-- Row `p` of the aggregate's block at point `t` is row `5000·t + p` of the array. -/
theorem read_agg (A : S100000x128.Idx → Elt Ideal .f32) (t : Fin cfg0.N) (p : Fin 5000) (k : Fin 128) (r : Fin 100000)
    (hr : r.val = t.val * 5000 + p.val) :
    ((cfg0.win 0).blk t).view.read (Elt Ideal) A (ix2 p k) = A (ix2 r k) := by
  obtain ⟨⟨e0, e1⟩, -⟩ := idx_facts t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of the count's block at point `t` is row `5000·t + p` of the count column. -/
theorem read_cnt (C : S100000x1.Idx → Elt Ideal .f32) (t : Fin cfg0.N) (p : Fin 5000) (u : Fin 1) (r : Fin 100000)
    (hr : r.val = t.val * 5000 + p.val) :
    ((cfg0.win 1).blk t).view.read (Elt Ideal) C (ix2 p u) = C (ix2 r u) := by
  obtain ⟨-, ⟨e0, e1⟩, -⟩ := idx_facts t
  show C (((cfg0.win 1).blk t).view.emb (ix2 p u)) = C (ix2 r u)
  refine congrArg C (funext fun a => Fin.ext ?_)
  match a with
  | ⟨0, _⟩ => show win0_1.index t (0 : Fin 2) * 5000 + 1 * p.val = r.val; omega
  | ⟨1, _⟩ => show win0_1.index t (1 : Fin 2) * 1 + 1 * u.val = u.val; omega

/-- Row `p` of the features' block at point `t` is row `5000·t + p` of the array. -/
theorem read_x (X : S100000x128.Idx → Elt Ideal .f32) (t : Fin cfg0.N) (p : Fin 5000) (k : Fin 128) (r : Fin 100000)
    (hr : r.val = t.val * 5000 + p.val) :
    ((cfg0.win 2).blk t).view.read (Elt Ideal) X (ix2 p k) = X (ix2 r k) := by
  obtain ⟨-, -, ⟨e0, e1⟩, -⟩ := idx_facts t
  show X (((cfg0.win 2).blk t).view.emb (ix2 p k)) = X (ix2 r k)
  refine congrArg X (funext fun a => Fin.ext ?_)
  match a with
  | ⟨0, _⟩ => show win0_2.index t (0 : Fin 2) * 5000 + 1 * p.val = r.val; omega
  | ⟨1, _⟩ => show win0_2.index t (1 : Fin 2) * 128 + 1 * k.val = k.val; omega

/-- The first weight matrix is read whole at every point. -/
theorem read_wl (W : S128x64.Idx → Elt Ideal .f32) (t : Fin cfg0.N) (k : Fin 128) (q : Fin 64) :
    ((cfg0.win 3).blk t).view.read (Elt Ideal) W (ix2 k q) = W (ix2 k q) := by
  obtain ⟨-, -, -, ⟨e0, e1⟩, -⟩ := idx_facts t
  show W (((cfg0.win 3).blk t).view.emb (ix2 k q)) = W (ix2 k q)
  refine congrArg W (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

/-- The bias row is read whole at every point. -/
theorem read_bl (B : S1x64.Idx → Elt Ideal .f32) (t : Fin cfg0.N) (u : Fin 1) (q : Fin 64) :
    ((cfg0.win 4).blk t).view.read (Elt Ideal) B (ix2 u q) = B (ix2 u q) := by
  obtain ⟨-, -, -, -, ⟨e0, e1⟩, -⟩ := idx_facts t
  show B (((cfg0.win 4).blk t).view.emb (ix2 u q)) = B (ix2 u q)
  refine congrArg B (funext fun a => Fin.ext ?_)
  match a with
  | ⟨0, _⟩ => show win0_4.index t (0 : Fin 2) * 1 + 1 * u.val = u.val; omega
  | ⟨1, _⟩ => show win0_4.index t (1 : Fin 2) * 64 + 1 * q.val = q.val; omega

/-- The second weight matrix is read whole at every point. -/
theorem read_wr (W : S128x64.Idx → Elt Ideal .f32) (t : Fin cfg0.N) (k : Fin 128) (q : Fin 64) :
    ((cfg0.win 5).blk t).view.read (Elt Ideal) W (ix2 k q) = W (ix2 k q) := by
  obtain ⟨-, -, -, -, -, ⟨e0, e1⟩, -⟩ := idx_facts t
  show W (((cfg0.win 5).blk t).view.emb (ix2 k q)) = W (ix2 k q)
  refine congrArg W (funext fun a => Fin.ext ?_)
  match a with
  | ⟨0, _⟩ => show win0_5.index t (0 : Fin 2) * 128 + 1 * k.val = k.val; omega
  | ⟨1, _⟩ => show win0_5.index t (1 : Fin 2) * 64 + 1 * q.val = q.val; omega

/-! ## The output blocks -/

/-- Entry (p, q) of the output's block at point `t` is entry (5000·t + p, q) of the array. -/
theorem out_emb (t : Fin cfg0.N) (p : Fin 5000) (q : Fin 64) (r : Fin 100000) (hr : r.val = t.val * 5000 + p.val) :
    ((cfg0.win 6).blk t).view.emb (ix2 p q) = ix2 r q := by
  obtain ⟨-, -, -, -, -, -, ⟨e0, e1⟩, -⟩ := idx_facts t
  refine funext fun a => Fin.ext ?_
  match a with
  | ⟨0, _⟩ => show win0_6.index t (0 : Fin 2) * 5000 + 1 * p.val = r.val; omega
  | ⟨1, _⟩ => show win0_6.index t (1 : Fin 2) * 64 + 1 * q.val = q.val; omega

/-- An index of the output array is in point `t`'s block iff each coordinate is in the block's range on its axis. -/
theorem mem_blk (t : Fin cfg0.N) (i : S100000x64.Idx) :
    i ∈ ((cfg0.win 6).blk t).view.set ↔
      ∀ a : Fin 2, win0_6.index t a * S5000x64.size a ≤ (i a).val ∧ (i a).val < win0_6.index t a * S5000x64.size a + S5000x64.size a := by
  show i ∈ ((View.whole main_v26).slice (win0_6.rect t)).set ↔ _
  rw [View.set_slice_whole, Rect.mem_set_unit]
  exact Iff.rfl

/-- THE COVER: every entry of the output array is in the block of the point `row / 5000`, and every point writes back. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

end Cert.KernelIdeal.R0

end
-- ==== Proof.R0Final.lean ====
/-
  Region 0, the node transform: the output array after the region.

  At every grid point the body stores, in each entry (p, q) of the output's block, the node transform of row
  `5000·t + p` (the row blocks hold exactly that row; the weights and the bias are whole), which is the entry of the
  whole-array function `Spec.nodeOut` that the block's place in the array names.  The 20 blocks tile the array, so after
  the region the output array is `Spec.nodeOut` of the six operand arrays as the region found them.
-/
import proofs.«160100_j24051816857687_1_alg».proof.Proof.KernelIdealFrameP
import proofs.«160100_j24051816857687_1_alg».proof.Proof.Spec
import proofs.«160100_j24051816857687_1_alg».proof.Proof.R0Pay
import proofs.«160100_j24051816857687_1_alg».proof.Proof.R0Blocks
import Idealize.ShloMosaic.Lib.Pipeline.Value

noncomputable section

namespace Cert.KernelIdeal.R0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- WHAT POINT `t` WRITES BACK is block `t` of the node transform of the operand arrays as the region finds them. -/
theorem flushed_eq (c : Dev nD) (t : Fin cfg0.N) :
    (dat0 (F := Ideal) V c).flushed 6 t
      = ((cfg0.win 6).blk t).view.read (Elt Ideal)
          (Cert.Spec.nodeOut (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))) := by
  show (cfg0.win 6).cut (grid0.coords t) ((dat0 (F := Ideal) V c).after 6 t) = _
  rw [after0_6]
  unfold out0_6
  rw [View.canon_unit_zero zero_offsets]
  simp only [View.ld_unit_zero (S := S5000x1) zero_offsets, View.ld_unit_zero (S := S5000x128) zero_offsets,
    View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  have ht : t.val < 20 := (idx_facts t).2.2.2.2.2.2.2
  have hp : p.val < 5000 := p.isLt
  obtain ⟨r, hr⟩ : ∃ r : Fin 100000, r.val = t.val * 5000 + p.val := ⟨⟨t.val * 5000 + p.val, by omega⟩, rfl⟩
  show k0_pay1 (F := Ideal) (iblk0 V c 1 t) (iblk0 V c 0 t) (iblk0 V c 3 t) (iblk0 V c 4 t) (iblk0 V c 2 t) (iblk0 V c 5 t) (ix2 p q)
      = Cert.Spec.nodeOut (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (((cfg0.win 6).blk t).view.emb (ix2 p q))
  rw [out_emb t p q r hr]
  exact pay_eq_nodeOut (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (iblk0 V c 1 t) (iblk0 V c 0 t) (iblk0 V c 3 t) (iblk0 V c 4 t) (iblk0 V c 2 t) (iblk0 V c 5 t) r p q
    (fun k => read_agg (V c (Pipeline.arrRef spec0 0)) t p k r hr)
    (read_cnt (V c (Pipeline.arrRef spec0 1)) t p 0 r hr)
    (fun k => read_x (V c (Pipeline.arrRef spec0 2)) t p k r hr)
    (fun k => read_wl (V c (Pipeline.arrRef spec0 3)) t k q)
    (read_bl (V c (Pipeline.arrRef spec0 4)) t 0 q)
    (fun k => read_wr (V c (Pipeline.arrRef spec0 5)) t k q)

/-- THE OUTPUT ARRAY AFTER THE REGION is the node transform of the six operand arrays as the region finds them: the
    20 blocks tile its 100000 rows. -/
theorem final (c : Dev nD) :
    (dat0 (F := Ideal) V c).arrAt 6 cfg0.N
      = Cert.Spec.nodeOut (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => flushed_eq V c t) cover

end Cert.KernelIdeal.R0

end
-- ==== Proof.R1Pay.lean ====
/-
  The edge-embedding body at one entry.

  The body multiplies its 20000×32 block of edge attributes by the whole 32×64 weight matrix (a matrix product
  into a zero accumulator) and adds the one bias row, broadcast down the rows.  Read at row p and column q of the
  block this is the sum over l of attr (p, l) · W (l, q), plus bias (0, q).
-/
import proofs.«160100_j24051816857687_1_alg».proof.Proof.Gen.KernelIdeal.Skeleton
import proofs.«160100_j24051816857687_1_alg».proof.Proof.LibPlainDot
import Idealize.ShloMosaic.Lib.ValueLayout

noncomputable section

open scoped BigOperators

namespace Cert.KernelIdeal.R1

open Idealize.ShloMosaic Idealize.ShloMosaic.ValueIdx

/-- The body's dimension numbers are those of the plain M×K by K×N product. -/
theorem dot_plain : dot_S20000x32_S32x64_S20000x64_1_0_0_1_n_n = DotDims.plain 20000 32 64 := rfl

/-- The body's stored value at entry (p, q) of the block. -/
theorem pay_apply (x0 : Vec Ideal S20000x32 .f32) (x1 : Vec Ideal S32x64 .f32) (x2 : Vec Ideal S1x64 .f32)
    (p : Fin 20000) (q : Fin 64) :
    Gen.k1_pay1 (F := Ideal) x0 x1 x2 (ix2 p q)
      = (∑ l : Fin 32, x0 (ix2 p l) * x1 (ix2 l q)) + x2 (ix2 (0 : Fin 1) q) := by
  unfold Gen.k1_pay1
  refine (addf_apply _ _ _).trans ?_
  refine congrArg₂ (· + ·) ?_ ?_
  · exact Cert.LibPlainDot.matmul_zero_apply none x0 x1 p q
  · refine (broadcastTo_1b_ab_apply _ _ p q).trans ?_
    rw [shapeCast_self]

end Cert.KernelIdeal.R1

end
-- ==== Proof.R1Final.lean ====
/-
  The edge embedding, from blocks to the whole array.

  The grid has 50 points; point t stages rows 20000·t … 20000·t + 19999 of the edge attributes, the whole weight
  matrix and the whole bias row, and writes back rows 20000·t … 20000·t + 19999 of the output.  Each written block
  is the same block of ONE whole-array function (the edge attributes through the weights, plus the bias), and the
  50 blocks tile the 1000000 rows, so the output array ends holding that function.
-/
import proofs.«160100_j24051816857687_1_alg».proof.Proof.KernelIdealFrameP
import proofs.«160100_j24051816857687_1_alg».proof.Proof.Spec
import proofs.«160100_j24051816857687_1_alg».proof.Proof.R1Pay
import Idealize.ShloMosaic.Lib.Pipeline.Value

noncomputable section

open scoped BigOperators

namespace Cert.KernelIdeal.R1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the attribute window and the output window sit at row block t, the weight
    and bias windows at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the stored block against one entry of the whole-array function: when the attribute block holds
    rows 20000·t + p of the attribute array and the other two blocks are the whole weight and bias arrays, entry
    (p, q) of the body's value is entry (20000·t + p, q) of the edge embedding. -/
theorem point_eq (x0 : Vec Ideal S20000x32 .f32) (x1 : Vec Ideal S32x64 .f32) (x2 : Vec Ideal S1x64 .f32)
    (A0 : Spec.Arr2 1000000 32) (A1 : Spec.Arr2 32 64) (A2 : Spec.Arr2 1 64) (tv : Nat) (ht : tv < 50)
    (h0 : ∀ (p : Fin 20000) (l : Fin 32), x0 (ix2 p l) = A0 (ix2 (⟨tv * 20000 + p.val, by omega⟩ : Fin 1000000) l))
    (h1 : x1 = A1) (h2 : x2 = A2)
    (j : S20000x64.Idx) (i : S1000000x64.Idx) (hi0 : (i 0).val = tv * 20000 + (j 0).val) (hi1 : (i 1).val = (j 1).val) :
    Gen.k1_pay1 (F := Ideal) x0 x1 x2 j = Spec.edgeEmb A0 A1 A2 i := by
  obtain ⟨p, q, rfl⟩ : ∃ (p : Fin 20000) (q : Fin 64), j = ix2 p q := ⟨j 0, j 1, eq_ix2 j⟩
  have hrow : tv * 20000 + p.val < 1000000 := by have := p.isLt; omega
  obtain ⟨r, q', rfl⟩ : ∃ (r : Fin 1000000) (q' : Fin 64), i = ix2 r q' := ⟨i 0, i 1, eq_ix2 i⟩
  obtain rfl : q = q' := (Fin.ext hi1).symm
  obtain rfl : r = ⟨tv * 20000 + p.val, hrow⟩ := Fin.ext hi0
  rw [pay_apply]
  subst h1 h2
  show _ = (∑ k : Fin 32, A0 (ix2 _ k) * x1 (ix2 k q)) + x2 (ix2 0 q)
  refine congrArg₂ (· + ·) (Finset.sum_congr rfl fun l _ => ?_) rfl
  rw [h0]

/-- The attribute window's block at point t is rows 20000·t … of the attribute array. -/
theorem attr_block (c : Dev nD) (t : Fin cfg1.N) (ht : t.val < 50) (p : Fin 20000) (l : Fin 32) :
    (iblk1 V c 0 t : Vec Ideal S20000x32 .f32) (ix2 p l)
      = (V c (Pipeline.arrRef spec1 0) : Spec.Arr2 1000000 32) (ix2 (⟨t.val * 20000 + p.val, by omega⟩ : Fin 1000000) l) := by
  obtain ⟨e0, e1, -⟩ := index_facts t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 20000 + 1 * p.val = t.val * 20000 + p.val; omega
  | ⟨1, _⟩ => show win1_0.index t (1 : Fin 2) * 32 + 1 * l.val = l.val; omega

/-- The weight window's block at every point is the whole weight array. -/
theorem weight_block (c : Dev nD) (t : Fin cfg1.N) :
    (iblk1 V c 1 t : Vec Ideal S32x64 .f32) = (V c (Pipeline.arrRef spec1 1) : Spec.Arr2 32 64) := by
  obtain ⟨-, -, e0, e1, -⟩ := index_facts t
  unfold iblk1
  funext y
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 32 + 1 * (y 0).val = (y 0).val; omega
  | ⟨1, _⟩ => show win1_1.index t (1 : Fin 2) * 64 + 1 * (y 1).val = (y 1).val; omega

/-- The bias window's block at every point is the whole bias row. -/
theorem bias_block (c : Dev nD) (t : Fin cfg1.N) :
    (iblk1 V c 2 t : Vec Ideal S1x64 .f32) = (V c (Pipeline.arrRef spec1 2) : Spec.Arr2 1 64) := by
  obtain ⟨-, -, -, -, e0, e1, -⟩ := index_facts t
  unfold iblk1
  funext y
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- What point t writes back is block t of the edge embedding of the arrays as the region finds them. -/
theorem flushed_eq (c : Dev nD) (t : Fin cfg1.N) :
    (dat1 (F := Ideal) V c).flushed 3 t = ((cfg1.win 3).blk t).view.read (Elt Ideal)
      (Spec.edgeEmb (V c (Pipeline.arrRef spec1 0)) (V c (Pipeline.arrRef spec1 1)) (V c (Pipeline.arrRef spec1 2))) := by
  have ht : t.val < 50 := by have := t.isLt; have hN : cfg1.N = 50 := N_1; omega
  obtain ⟨-, -, -, -, -, -, e0, e1⟩ := index_facts t
  show (cfg1.win 3).cut (grid1.coords t) ((dat1 (F := Ideal) V c).after 3 t) = _
  rw [after1_3]
  unfold out1_3
  rw [View.canon_unit_zero zero_offsets]
  simp only [View.ld_unit_zero (S := S20000x32) zero_offsets, View.ld_unit_zero (S := S32x64) zero_offsets,
    View.ld_unit_zero (S := S1x64) zero_offsets]
  funext j
  rw [View.read_apply]
  refine point_eq (iblk1 V c 0 t) (iblk1 V c 1 t) (iblk1 V c 2 t) _ _ _ t.val ht (attr_block V c t ht)
    (weight_block V c t) (bias_block V c t) j _ ?_ ?_
  · show win1_3.index t (0 : Fin 2) * 20000 + 1 * (j 0).val = t.val * 20000 + (j 0).val; omega
  · show win1_3.index t (1 : Fin 2) * 64 + 1 * (j 1).val = (j 1).val; omega

/-- An index of the output array is in point t's block iff each coordinate is in the block's range on its axis. -/
theorem mem_block (t : Fin cfg1.N) (i : S1000000x64.Idx) :
    i ∈ ((cfg1.win 3).blk t).view.set ↔ ∀ a : Fin 2, win1_3.index t a * S20000x64.size a ≤ (i a).val
      ∧ (i a).val < win1_3.index t a * S20000x64.size a + S20000x64.size a := by
  show i ∈ ((View.whole main_v27).slice (win1_3.rect t)).set ↔ _
  rw [View.set_slice_whole, Rect.mem_set_unit]
  exact Iff.rfl

/-- The 50 blocks tile the rows: row r lies in the block of point r / 20000. -/
theorem covered (i : S1000000x64.Idx) :
    ∃ t : Fin cfg1.N, (cfg1.win 3).flush t = true ∧ i ∈ ((cfg1.win 3).blk t).view.set := by
  have hi0 : (i 0).val < 1000000 := (i 0).isLt
  have hi1 : (i 1).val < 64 := (i 1).isLt
  have hN : cfg1.N = 50 := N_1
  let t : Fin cfg1.N := ⟨(i 0).val / 20000, by omega⟩
  have htv : t.val = (i 0).val / 20000 := rfl
  obtain ⟨-, -, -, -, -, -, e0, e1⟩ := index_facts t
  refine ⟨t, flush1_3 t, ?_⟩
  rw [mem_block]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 64 ≤ (i 1).val ∧ (i 1).val < win1_3.index t (1 : Fin 2) * 64 + 64; omega

/-- The output array after the region: the edge embedding of the three operand arrays as the region finds them. -/
theorem final (c : Dev nD) : (GenP.dat1 (F := Ideal) V c).arrAt 3 cfg1.N
    = Cert.Spec.edgeEmb (V c (Pipeline.arrRef spec1 0)) (V c (Pipeline.arrRef spec1 1)) (V c (Pipeline.arrRef spec1 2)) :=
  (dat1 (F := Ideal) V c).arrAt_eq_of_cover 3 _ (fun t _ => flushed_eq V c t) covered

end Cert.KernelIdeal.R1

end
-- ==== Proof.R2Pay.lean ====
/-
  The attention stage's arithmetic at one entry of a block.

  For a block of 20000 rows, the body forms a score per row — the inner product of the row of the first block
  with the first weight column, plus the inner product of the row of the second block with the second weight
  column, plus the bias —, passes it through the logistic function, and multiplies every entry of the second
  block's row by that gate.  Read at row p and lane q this is one closed expression of the loaded values.
-/
import proofs.«160100_j24051816857687_1_alg».proof.Proof.Gen.KernelIdeal.Skeleton
import proofs.«160100_j24051816857687_1_alg».proof.Proof.LibPlainDot
import proofs.«160100_j24051816857687_1_alg».proof.Proof.LibColumn
import proofs.«160100_j24051816857687_1_alg».proof.Proof.Spec
import Idealize.ShloMosaic.Lib.Pipeline.Value

noncomputable section

open scoped BigOperators

namespace Cert.KernelIdeal.R2

open Cert.KernelIdeal Cert.KernelIdeal.Gen Idealize.ShloMosaic Idealize.ShloMosaic.ValueIdx

/-- The dimension numbers of the body's two products are those of a plain 20000×64 by 64×1 product. -/
theorem dot_eq_plain : dot_S20000x64_S64x1_S20000x1_1_0_0_1_n_n = DotDims.plain 20000 64 1 := rfl

/-- A 1×1 array broadcast down a column of `a` rows reads, at every row, its single entry. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- One half score: a 20000×64 block times a 64×1 column into the zero accumulator, read at row `p`. -/
theorem halfScore_apply (x : FVec Ideal S20000x64 .f32) (w : FVec Ideal S64x1 .f32) (p : Fin 20000) :
    FloatOps.matmul dot_S20000x64_S64x1_S20000x1_1_0_0_1_n_n none
        (shapeCast S20000x64 x shapeCasts_S20000x64_S20000x64) (shapeCast S64x1 w shapeCasts_S64x1_S64x1)
        (constant (F := Ideal) S20000x1 .f32 0x00000000#32) (ix2 p (0 : Fin 1))
      = ∑ k : Fin 64, x (ix2 p k) * w (ix2 k (0 : Fin 1)) := by
  rw [shapeCast_self, shapeCast_self, dot_eq_plain]
  exact Cert.LibPlainDot.matmul_zero_apply none x w p 0

/-- The body's stored value at row `p`, lane `q`: the gate of row `p` times the second block's entry. -/
theorem pay_apply (v0 : FVec Ideal S20000x64 .f32) (v2 : FVec Ideal S64x1 .f32) (v5 : FVec Ideal S20000x64 .f32)
    (v7 : FVec Ideal S64x1 .f32) (v11 : FVec Ideal S1x1 .f32) (v16 : FVec Ideal S20000x64 .f32)
    (p : Fin 20000) (q : Fin 64) :
    k2_pay1 (F := Ideal) v0 v2 v5 v7 v11 v16 (ix2 p q)
      = Ideal.logistic (((∑ k : Fin 64, v0 (ix2 p k) * v2 (ix2 k (0 : Fin 1)))
            + ∑ k : Fin 64, v5 (ix2 p k) * v7 (ix2 k (0 : Fin 1))) + v11 (ix2 (0 : Fin 1) (0 : Fin 1)))
          * v16 (ix2 p q) := by
  unfold k2_pay1
  exact congrArg₂ (· * ·)
    ((Cert.LibColumn.broadcastTo_a1_ab_apply _ broadcasts_S20000x1_S20000x64 p q).trans
      (congrArg Ideal.logistic
        (congrArg₂ (· + ·)
          (congrArg₂ (· + ·) (halfScore_apply v0 v2 p) (halfScore_apply v5 v7 p))
          (((broadcastTo_11_a1_apply _ broadcasts_S1x1_S20000x1 p (0 : Fin 1))).trans
            (congrFun (shapeCast_self v11 shapeCasts_S1x1_S1x1) _)))))
    (congrFun (shapeCast_self v16 shapeCasts_S20000x64_S20000x64) (ix2 p q))

/-- Both offsets of a whole-block access are zero. -/
theorem hz : (![0, 0] : Fin 2 → Nat) = fun _ => 0 := funext fun a => by fin_cases a <;> rfl

/-- Row `T·20000 + p` of a million-row array: row `p` of the `T`-th block of 20000 rows. -/
abbrev rowAt (T : ℕ) (hT : T < 50) (p : Fin 20000) : Fin 1000000 := ⟨T * 20000 + p.val, by omega⟩

/-- What the body's one store leaves in the output block, from the five loaded blocks (the second one is loaded twice). -/
abbrev stored (x0 x1 : Vec Ideal S20000x64 .f32) (x2 x3 : Vec Ideal S64x1 .f32) (x4 : Vec Ideal S1x1 .f32) :
    Vec Ideal S20000x64 .f32 :=
  View.canon [⟨Rect.unit (s := S20000x64) ![0, 0] S20000x64.size inb_S20000x64_S20000x64_0_0,
    k2_pay1 (View.ld x0 (Rect.unit (s := S20000x64) ![0, 0] S20000x64.size inb_S20000x64_S20000x64_0_0))
      (View.ld x2 (Rect.unit (s := S64x1) ![0, 0] S64x1.size inb_S64x1_S64x1_0_0))
      (View.ld x1 (Rect.unit (s := S20000x64) ![0, 0] S20000x64.size inb_S20000x64_S20000x64_0_0))
      (View.ld x3 (Rect.unit (s := S64x1) ![0, 0] S64x1.size inb_S64x1_S64x1_0_0))
      (View.ld x4 (Rect.unit (s := S1x1) ![0, 0] S1x1.size inb_S1x1_S1x1_0_0))
      (View.ld x1 (Rect.unit (s := S20000x64) ![0, 0] S20000x64.size inb_S20000x64_S20000x64_0_0))⟩]

/-- If the two row blocks are rows `T·20000 …` of two arrays and the three small blocks are whole arrays, the stored block
    is the same rows of the attention stage's whole-array function. -/
theorem stored_apply (x0 x1 : Vec Ideal S20000x64 .f32) (x2 x3 : Vec Ideal S64x1 .f32) (x4 : Vec Ideal S1x1 .f32)
    (A0 A1 : Cert.Spec.Arr2 1000000 64) (w1 w2 : Cert.Spec.Arr2 64 1) (b : Cert.Spec.Arr2 1 1) (T : ℕ) (hT : T < 50)
    (h0 : ∀ (p : Fin 20000) (k : Fin 64), x0 (ix2 p k) = A0 (ix2 (rowAt T hT p) k))
    (h1 : ∀ (p : Fin 20000) (k : Fin 64), x1 (ix2 p k) = A1 (ix2 (rowAt T hT p) k))
    (h2 : x2 = w1) (h3 : x3 = w2) (h4 : x4 = b) (p : Fin 20000) (q : Fin 64) :
    stored x0 x1 x2 x3 x4 (ix2 p q) = Cert.Spec.attn A0 A1 w1 w2 b (ix2 (rowAt T hT p) q) := by
  unfold stored
  rw [View.canon_unit_zero hz]
  simp only [View.ld_unit_zero (S := S20000x64) hz, View.ld_unit_zero (S := S64x1) hz, View.ld_unit_zero (S := S1x1) hz]
  rw [pay_apply]
  unfold Cert.Spec.attn
  subst h2 h3 h4
  simp only [h0, h1]

end Cert.KernelIdeal.R2

end
-- ==== Proof.R2Final.lean ====
/-
  The attention stage as a whole-array function.

  The stage runs over 50 grid points; point t reads rows 20000·t … 20000·t + 19999 of the two million-row operands,
  the two weight columns and the bias whole, and writes the same rows of the result.  Each point's written block is
  those rows of the one function `Cert.Spec.attn` of the operand arrays, and the 50 blocks tile the rows, so the result
  array ends as that function.
-/
import proofs.«160100_j24051816857687_1_alg».proof.Proof.KernelIdealFrameP
import proofs.«160100_j24051816857687_1_alg».proof.Proof.Spec
import proofs.«160100_j24051816857687_1_alg».proof.Proof.R2Pay
import Idealize.ShloMosaic.Lib.Pipeline.Value

noncomputable section

open scoped BigOperators

namespace Cert.KernelIdeal.R2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The grid has 50 points. -/
theorem N_eq : cfg2.N = 50 := N_2

/-- The printed index maps, decided over the 50 points: the three row windows sit at block row `t`, column block 0;
    the three small windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `20000·t …` of its array. -/
theorem rows0 (c : Dev nD) (t : Fin cfg2.N) (ht : t.val < 50) (p : Fin 20000) (k : Fin 64) :
    (iblk2 V c 0 t : Vec Ideal S20000x64 .f32) (ix2 p k)
      = (V c (Pipeline.arrRef spec2 0) : Cert.Spec.Arr2 1000000 64) (ix2 (rowAt t.val ht p) k) := by
  obtain ⟨e0, e1, -⟩ := idx_facts t
  show V c (Pipeline.arrRef spec2 0) (((cfg2.win 0).blk t).view.emb (ix2 p k)) = _
  refine congrArg (V c (Pipeline.arrRef spec2 0)) ?_
  funext a; apply Fin.ext
  match a with
  | ⟨0, _⟩ => show win2_0.index t (0 : Fin 2) * 20000 + 1 * p.val = t.val * 20000 + p.val; omega
  | ⟨1, _⟩ => show win2_0.index t (1 : Fin 2) * 64 + 1 * k.val = k.val; omega

/-- Window 1's block at point `t` is rows `20000·t …` of its array. -/
theorem rows1 (c : Dev nD) (t : Fin cfg2.N) (ht : t.val < 50) (p : Fin 20000) (k : Fin 64) :
    (iblk2 V c 1 t : Vec Ideal S20000x64 .f32) (ix2 p k)
      = (V c (Pipeline.arrRef spec2 1) : Cert.Spec.Arr2 1000000 64) (ix2 (rowAt t.val ht p) k) := by
  obtain ⟨-, -, e0, e1, -⟩ := idx_facts t
  show V c (Pipeline.arrRef spec2 1) (((cfg2.win 1).blk t).view.emb (ix2 p k)) = _
  refine congrArg (V c (Pipeline.arrRef spec2 1)) ?_
  funext a; apply Fin.ext
  match a with
  | ⟨0, _⟩ => show win2_1.index t (0 : Fin 2) * 20000 + 1 * p.val = t.val * 20000 + p.val; omega
  | ⟨1, _⟩ => show win2_1.index t (1 : Fin 2) * 64 + 1 * k.val = k.val; omega

/-- Window 2's block is its whole array (the first weight column). -/
theorem whole2 (c : Dev nD) (t : Fin cfg2.N) :
    (iblk2 V c 2 t : Vec Ideal S64x1 .f32) = (V c (Pipeline.arrRef spec2 2) : Cert.Spec.Arr2 64 1) := by
  obtain ⟨-, -, -, -, e0, e1, -⟩ := idx_facts t
  funext y
  show V c (Pipeline.arrRef spec2 2) (((cfg2.win 2).blk t).view.emb y) = V c (Pipeline.arrRef spec2 2) y
  refine congrArg (V c (Pipeline.arrRef spec2 2)) ?_
  funext a; apply Fin.ext
  match a with
  | ⟨0, _⟩ => show win2_2.index t (0 : Fin 2) * 64 + 1 * (y 0).val = (y 0).val; omega
  | ⟨1, _⟩ => show win2_2.index t (1 : Fin 2) * 1 + 1 * (y 1).val = (y 1).val; omega

/-- Window 3's block is its whole array (the second weight column). -/
theorem whole3 (c : Dev nD) (t : Fin cfg2.N) :
    (iblk2 V c 3 t : Vec Ideal S64x1 .f32) = (V c (Pipeline.arrRef spec2 3) : Cert.Spec.Arr2 64 1) := by
  obtain ⟨-, -, -, -, -, -, e0, e1, -⟩ := idx_facts t
  funext y
  show V c (Pipeline.arrRef spec2 3) (((cfg2.win 3).blk t).view.emb y) = V c (Pipeline.arrRef spec2 3) y
  refine congrArg (V c (Pipeline.arrRef spec2 3)) ?_
  funext a; apply Fin.ext
  match a with
  | ⟨0, _⟩ => show win2_3.index t (0 : Fin 2) * 64 + 1 * (y 0).val = (y 0).val; omega
  | ⟨1, _⟩ => show win2_3.index t (1 : Fin 2) * 1 + 1 * (y 1).val = (y 1).val; omega

/-- Window 4's block is its whole array (the bias). -/
theorem whole4 (c : Dev nD) (t : Fin cfg2.N) :
    (iblk2 V c 4 t : Vec Ideal S1x1 .f32) = (V c (Pipeline.arrRef spec2 4) : Cert.Spec.Arr2 1 1) := by
  obtain ⟨-, -, -, -, -, -, -, -, e0, e1, -⟩ := idx_facts t
  funext y
  show V c (Pipeline.arrRef spec2 4) (((cfg2.win 4).blk t).view.emb y) = V c (Pipeline.arrRef spec2 4) y
  refine congrArg (V c (Pipeline.arrRef spec2 4)) ?_
  funext a; apply Fin.ext
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- The whole-array result of the stage, from the operand arrays as the region finds them. -/
abbrev G (c : Dev nD) : Cert.Spec.Arr2 1000000 64 :=
  Cert.Spec.attn (V c (Pipeline.arrRef spec2 0)) (V c (Pipeline.arrRef spec2 1)) (V c (Pipeline.arrRef spec2 2))
    (V c (Pipeline.arrRef spec2 3)) (V c (Pipeline.arrRef spec2 4))

/-- What point `t` writes back is block `t` of the whole-array result. -/
theorem flushed_eq (c : Dev nD) (t : Fin cfg2.N) :
    (dat2 V c).flushed 5 t = ((cfg2.win 5).blk t).view.read (Elt Ideal) (G V c) := by
  have ht : t.val < 50 := lt_of_lt_of_eq t.isLt N_eq
  obtain ⟨-, -, -, -, -, -, -, -, -, -, e0, e1⟩ := idx_facts t
  show (cfg2.win 5).cut (grid2.coords t) ((dat2 V c).after 5 t) = _
  rw [after2_5]
  funext j
  obtain ⟨p, q, rfl⟩ : ∃ (p : Fin 20000) (q : Fin 64), j = ix2 p q := ⟨j 0, j 1, eq_ix2 j⟩
  show stored (iblk2 V c 0 t) (iblk2 V c 1 t) (iblk2 V c 2 t) (iblk2 V c 3 t) (iblk2 V c 4 t) (ix2 p q)
    = G V c (((cfg2.win 5).blk t).view.emb (ix2 p q))
  refine (stored_apply (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) t.val ht
    (rows0 V c t ht) (rows1 V c t ht) (whole2 V c t) (whole3 V c t) (whole4 V c t) p q).trans ?_
  refine congrArg (G V c) ?_
  funext a; apply Fin.ext
  match a with
  | ⟨0, _⟩ => show t.val * 20000 + p.val = win2_5.index t (0 : Fin 2) * 20000 + 1 * p.val; omega
  | ⟨1, _⟩ => show q.val = win2_5.index t (1 : Fin 2) * 64 + 1 * q.val; omega

/-- An index of the result array is in point `t`'s block iff each coordinate is in the block's range on its axis. -/
theorem mem_blk (t : Fin cfg2.N) (i : S1000000x64.Idx) :
    i ∈ ((cfg2.win 5).blk t).view.set ↔ ∀ a : Fin 2, win2_5.index t a * S20000x64.size a ≤ (i a).val
      ∧ (i a).val < win2_5.index t a * S20000x64.size a + S20000x64.size a := by
  show i ∈ ((View.whole main_v35).slice (win2_5.rect t)).set ↔ _
  rw [View.set_slice_whole, Rect.mem_set_unit]
  exact Iff.rfl

/-- Every index of the result array lies in the block of the point numbered by its row divided by 20000. -/
theorem cover (i : S1000000x64.Idx) :
    ∃ t : Fin cfg2.N, (cfg2.win 5).flush t = true ∧ i ∈ ((cfg2.win 5).blk t).view.set := by
  have hi0 : (i 0).val < 1000000 := (i 0).isLt
  have hi1 : (i 1).val < 64 := (i 1).isLt
  have hlt : (i 0).val / 20000 < cfg2.N := by rw [N_eq]; omega
  refine ⟨⟨(i 0).val / 20000, hlt⟩, flush2_5 _, ?_⟩
  obtain ⟨-, -, -, -, -, -, -, -, -, -, e0, e1⟩ := idx_facts ⟨(i 0).val / 20000, hlt⟩
  rw [mem_blk]
  intro a
  match a with
  | ⟨0, _⟩ =>
    show win2_5.index ⟨(i 0).val / 20000, hlt⟩ (0 : Fin 2) * 20000 ≤ (i 0).val
      ∧ (i 0).val < win2_5.index ⟨(i 0).val / 20000, hlt⟩ (0 : Fin 2) * 20000 + 20000
    rw [e0]; show (i 0).val / 20000 * 20000 ≤ (i 0).val ∧ (i 0).val < (i 0).val / 20000 * 20000 + 20000; omega
  | ⟨1, _⟩ =>
    show win2_5.index ⟨(i 0).val / 20000, hlt⟩ (1 : Fin 2) * 64 ≤ (i 1).val
      ∧ (i 1).val < win2_5.index ⟨(i 0).val / 20000, hlt⟩ (1 : Fin 2) * 64 + 64
    rw [e1]; omega

/-- The result array after the stage is the attention function of the operand arrays as the region finds them. -/
theorem final (c : Dev nD) :
    (dat2 (F := Ideal) V c).arrAt 5 cfg2.N
      = Cert.Spec.attn (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 (G V c) (fun t _ => flushed_eq V c t) cover

end Cert.KernelIdeal.R2

end
-- ==== Proof.R3Pay.lean ====
/-
  The statistics stage, one grid point at a time: what the body's two accumulating stores hold, column by column,
  over the extended reals.  The sum store holds the running row `a` plus, at column `f`, the sum over the 5000 rows
  of the block; the sum-of-squares store holds `a` plus the sum of the squares.  The reset stores hold zero.
  Then the arithmetic of accumulating over the twenty row blocks (a sum over the blocks up to block `n`: its first
  value, its step, its last value; the extended reals are a commutative additive monoid, so nothing needs
  finiteness), and the two joined: one grid point takes the row up to block `n` to the row up to block `n + 1`.
-/
import proofs.«160100_j24051816857687_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.R3

open Idealize.ShloMosaic Idealize.ShloMosaic.ValueIdx Cert.KernelIdeal Cert.KernelIdeal.Gen

/-- The reduction along the rows reads, for column `f` and row `r`, the block at `(r, f)`. -/
theorem lift_eq (f : Fin 64) (r : Fin 5000) : reduces_S5000x64_S64.lift (ix1 f) r = ix2 r f := by
  funext a
  apply Fin.ext
  match a with
  | ⟨0, _⟩ => rfl
  | ⟨1, _⟩ => rfl

/-- The column sums of a block of 5000 rows, laid out as one row of 64 columns: at column `f` the sum over the rows. -/
theorem colReduce_apply (y : FVec Ideal S5000x64 .f32) (f : Fin 64) :
    shapeCast S1x64 (multiReduction .add [0] S64 y 0x00000000#32 reduces_S5000x64_S64 (.inl rfl) rfl) shapeCasts_S64_S1x64
        (ix2 (0 : Fin 1) f) = ∑ r : Fin 5000, y (ix2 r f) :=
  (shapeCast_a_1a_apply _ _ (0 : Fin 1) f).trans
    ((Ideal.multiReduction_add_single y _ reduces_S5000x64_S64 _ _ (ix1 f)).trans
      (Finset.sum_congr rfl fun r _ => congrArg y (lift_eq f r)))

/-- The sum store: the running row plus the block's column sums. -/
theorem pay4_apply (x : Vec Ideal S5000x64 .f32) (a : Vec Ideal S1x64 .f32) (f : Fin 64) :
    k3_pay4 (F := Ideal) x a (ix2 (0 : Fin 1) f) = a (ix2 (0 : Fin 1) f) + ∑ r : Fin 5000, x (ix2 r f) := by
  unfold k3_pay4 k3_pay3
  dsimp only
  rw [addf_apply, shapeCast_self, shapeCast_self, colReduce_apply]

/-- The sum-of-squares store: the running row plus the column sums of the block's squares. -/
theorem pay5_apply (x : Vec Ideal S5000x64 .f32) (a : Vec Ideal S1x64 .f32) (f : Fin 64) :
    k3_pay5 (F := Ideal) x a (ix2 (0 : Fin 1) f)
      = a (ix2 (0 : Fin 1) f) + ∑ r : Fin 5000, x (ix2 r f) * x (ix2 r f) := by
  unfold k3_pay5 k3_pay3
  dsimp only
  rw [addf_apply, shapeCast_self, shapeCast_self, colReduce_apply]
  rfl

/-- The reset of the sum row stores zero in every column. -/
theorem pay1_apply (j : S1x64.Idx) : k3_pay1 (F := Ideal) j = 0 := by
  unfold k3_pay1 broadcast
  exact Ideal.ofBits_zero_f32

/-- The reset of the sum-of-squares row stores zero in every column. -/
theorem pay2_apply (j : S1x64.Idx) : k3_pay2 (F := Ideal) j = 0 := by
  unfold k3_pay2 broadcast
  exact Ideal.ofBits_zero_f32

/-! ## The accumulation over the blocks -/

/-- The sum of `g` over the blocks `0, …, n`. -/
def upTo (g : Fin 20 → EReal) (n : ℕ) : EReal := ∑ b ∈ Finset.univ.filter (fun b : Fin 20 => b.val ≤ n), g b

/-- Up to block 0 it is block 0's value. -/
theorem upTo_zero (g : Fin 20 → EReal) : upTo g 0 = g 0 := by
  have e : Finset.univ.filter (fun b : Fin 20 => b.val ≤ 0) = {(0 : Fin 20)} := by
    ext b
    simp only [Finset.mem_filter, Finset.mem_univ, true_and, Finset.mem_singleton, Fin.ext_iff, Fin.val_zero]
    omega
  rw [upTo, e, Finset.sum_singleton]

/-- One more block adds that block's value. -/
theorem upTo_succ (g : Fin 20 → EReal) (n : ℕ) (h : n + 1 < 20) : upTo g (n + 1) = upTo g n + g ⟨n + 1, h⟩ := by
  have e : Finset.univ.filter (fun b : Fin 20 => b.val ≤ n + 1)
      = insert (⟨n + 1, h⟩ : Fin 20) (Finset.univ.filter (fun b : Fin 20 => b.val ≤ n)) := by
    ext b
    simp only [Finset.mem_filter, Finset.mem_univ, true_and, Finset.mem_insert, Fin.ext_iff]
    omega
  have hn : (⟨n + 1, h⟩ : Fin 20) ∉ Finset.univ.filter (fun b : Fin 20 => b.val ≤ n) := by
    simp only [Finset.mem_filter, Finset.mem_univ, true_and]
    omega
  unfold upTo
  rw [e, Finset.sum_insert hn, add_comm]

/-- Up to the last block it is the sum over all twenty. -/
theorem upTo_last (g : Fin 20 → EReal) : upTo g 19 = ∑ b : Fin 20, g b := by
  unfold upTo
  rw [Finset.filter_true_of_mem (fun b _ => by omega)]

/-- Row `b·5000 + r` of the 100000 rows: row `r` of block `b`. -/
abbrev row (b : Fin 20) (r : Fin 5000) : Fin 100000 := ⟨b.val * 5000 + r.val, by omega⟩

/-- Block `b`'s share of column `f`'s sum. -/
def blockSum (o : (⟨2, ![100000, 64]⟩ : Shape).Idx → EReal) (f : Fin 64) (b : Fin 20) : EReal :=
  ∑ r : Fin 5000, o (ix2 (row b r) f)

/-- Block `b`'s share of column `f`'s sum of squares. -/
def blockSumSq (o : (⟨2, ![100000, 64]⟩ : Shape).Idx → EReal) (f : Fin 64) (b : Fin 20) : EReal :=
  ∑ r : Fin 5000, o (ix2 (row b r) f) * o (ix2 (row b r) f)

/-- The row of column sums over the blocks `0, …, n`. -/
def sumRow (o : (⟨2, ![100000, 64]⟩ : Shape).Idx → EReal) (n : ℕ) : (⟨2, ![1, 64]⟩ : Shape).Idx → EReal :=
  fun i => upTo (blockSum o (i 1)) n

/-- The row of column sums of squares over the blocks `0, …, n`. -/
def sumSqRow (o : (⟨2, ![100000, 64]⟩ : Shape).Idx → EReal) (n : ℕ) : (⟨2, ![1, 64]⟩ : Shape).Idx → EReal :=
  fun i => upTo (blockSumSq o (i 1)) n

/-! ## One grid point of the accumulation -/

/-- The first point: zero plus block 0's column sums is the row of column sums up to block 0. -/
theorem first_sum (x : Vec Ideal S5000x64 .f32) (o : (⟨2, ![100000, 64]⟩ : Shape).Idx → EReal)
    (hx : ∀ (r : Fin 5000) (f : Fin 64), x (ix2 r f) = o (ix2 (row 0 r) f)) :
    k3_pay4 (F := Ideal) x (k3_pay1 (F := Ideal)) = sumRow o 0 := by
  funext j
  obtain ⟨u, f, rfl⟩ : ∃ (u : Fin 1) (f : Fin 64), j = ix2 u f := ⟨j 0, j 1, eq_ix2 j⟩
  obtain rfl : u = 0 := Subsingleton.elim _ _
  rw [pay4_apply, pay1_apply, zero_add]
  show _ = upTo (blockSum o f) 0
  rw [upTo_zero]
  unfold blockSum
  exact Finset.sum_congr rfl fun r _ => hx r f

/-- A later point: the row up to block `n` plus block `n + 1`'s column sums is the row up to block `n + 1`. -/
theorem next_sum (x : Vec Ideal S5000x64 .f32) (a : Vec Ideal S1x64 .f32) (o : (⟨2, ![100000, 64]⟩ : Shape).Idx → EReal)
    (n : ℕ) (h : n + 1 < 20) (hx : ∀ (r : Fin 5000) (f : Fin 64), x (ix2 r f) = o (ix2 (row ⟨n + 1, h⟩ r) f))
    (ha : a = sumRow o n) : k3_pay4 (F := Ideal) x a = sumRow o (n + 1) := by
  subst ha
  funext j
  obtain ⟨u, f, rfl⟩ : ∃ (u : Fin 1) (f : Fin 64), j = ix2 u f := ⟨j 0, j 1, eq_ix2 j⟩
  obtain rfl : u = 0 := Subsingleton.elim _ _
  rw [pay4_apply]
  show upTo (blockSum o f) n + _ = upTo (blockSum o f) (n + 1)
  rw [upTo_succ _ n h]
  unfold blockSum
  exact congrArg (upTo (blockSum o f) n + ·) (Finset.sum_congr rfl fun r _ => hx r f)

/-- The first point, for the squares. -/
theorem first_sumSq (x : Vec Ideal S5000x64 .f32) (o : (⟨2, ![100000, 64]⟩ : Shape).Idx → EReal)
    (hx : ∀ (r : Fin 5000) (f : Fin 64), x (ix2 r f) = o (ix2 (row 0 r) f)) :
    k3_pay5 (F := Ideal) x (k3_pay2 (F := Ideal)) = sumSqRow o 0 := by
  funext j
  obtain ⟨u, f, rfl⟩ : ∃ (u : Fin 1) (f : Fin 64), j = ix2 u f := ⟨j 0, j 1, eq_ix2 j⟩
  obtain rfl : u = 0 := Subsingleton.elim _ _
  rw [pay5_apply, pay2_apply, zero_add]
  show _ = upTo (blockSumSq o f) 0
  rw [upTo_zero]
  unfold blockSumSq
  exact Finset.sum_congr rfl fun r _ => by rw [hx r f]

/-- A later point, for the squares. -/
theorem next_sumSq (x : Vec Ideal S5000x64 .f32) (a : Vec Ideal S1x64 .f32) (o : (⟨2, ![100000, 64]⟩ : Shape).Idx → EReal)
    (n : ℕ) (h : n + 1 < 20) (hx : ∀ (r : Fin 5000) (f : Fin 64), x (ix2 r f) = o (ix2 (row ⟨n + 1, h⟩ r) f))
    (ha : a = sumSqRow o n) : k3_pay5 (F := Ideal) x a = sumSqRow o (n + 1) := by
  subst ha
  funext j
  obtain ⟨u, f, rfl⟩ : ∃ (u : Fin 1) (f : Fin 64), j = ix2 u f := ⟨j 0, j 1, eq_ix2 j⟩
  obtain rfl : u = 0 := Subsingleton.elim _ _
  rw [pay5_apply]
  show upTo (blockSumSq o f) n + _ = upTo (blockSumSq o f) (n + 1)
  rw [upTo_succ _ n h]
  unfold blockSumSq
  exact congrArg (upTo (blockSumSq o f) n + ·) (Finset.sum_congr rfl fun r _ => by rw [hx r f])

end Cert.KernelIdeal.R3

end
-- ==== Proof.R3Pieces.lean ====
/-
  The statistics stage's body, case by case, as values: what each of the two accumulator rows holds after the body,
  for any float values.  At a later grid point the body leaves, in the row holding `a`, the accumulating store's
  payload over the input block and `a`; at the first grid point it first stores the zero row, reads it back, and
  leaves the same payload over the input block and the zero row.
-/
import proofs.«160100_j24051816857687_1_alg».proof.Proof.KernelIdealFrameP
import Idealize.ShloMosaic.Lib.Pipeline.Value

set_option maxRecDepth 16384

noncomputable section

namespace Cert.KernelIdeal.R3

open Idealize.ShloMosaic Idealize.ShloMosaic.TcCoe Idealize.ShloMosaic.Tactic Idealize.SL.Sem
open Cert.KernelIdeal Cert.KernelIdeal.Gen Cert.KernelIdeal.GenP

variable {F : FTy → Type} [FloatOps F]

/-- The zero offsets of a whole-block access, as a constant function. -/
theorem hz : (![0, 0] : Fin 2 → Nat) = fun _ => 0 := funext fun a => by fin_cases a <;> rfl

/-- A later point, the sum row: the accumulating store over the block and what the row held. -/
theorem out_B_1 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond3_0 i) (x : Vec F S5000x64 .f32) (xo1 xo2 : Vec F S1x64 .f32) :
    out3_B_1 c i a1 h1 a2 h2 a3 h3 hc x xo1 xo2 = k3_pay4 x xo1 := by
  unfold out3_B_1
  rw [View.read_writes_eq_canon _ _ _ (cover3_B_1 c i a1 h1 a2 h2 a3 h3 hc x xo1 xo2)]
  unfold kernelRun3_B
  dsimp only
  rw [View.canon_unit_zero hz]
  simp only [View.readAt_eq_ld, h1.read_unread, h2.read_unread, View.ld_unit_zero (S := S5000x64) hz,
    View.ld_unit_zero (S := S1x64) hz]

/-- A later point, the sum-of-squares row. -/
theorem out_B_2 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond3_0 i) (x : Vec F S5000x64 .f32) (xo1 xo2 : Vec F S1x64 .f32) :
    out3_B_2 c i a1 h1 a2 h2 a3 h3 hc x xo1 xo2 = k3_pay5 x xo2 := by
  unfold out3_B_2
  rw [View.read_writes_eq_canon _ _ _ (cover3_B_2 c i a1 h1 a2 h2 a3 h3 hc x xo1 xo2)]
  unfold kernelRun3_B
  dsimp only
  rw [View.canon_unit_zero hz]
  simp only [View.readAt_eq_ld, h1.read_unread, h3.read_unread, View.ld_unit_zero (S := S5000x64) hz,
    View.ld_unit_zero (S := S1x64) hz]

/-- The first point, the sum row: the zero row is stored, read back, and accumulated onto. -/
theorem out_A_1 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond3_0 i) (x : Vec F S5000x64 .f32) :
    out3_A_1 c i a1 h1 a2 h2 a3 h3 hc x = k3_pay4 x (k3_pay1 (F := F)) := by
  unfold out3_A_1
  rw [View.read_writes_eq_canon _ _ _ (cover3_A_1 c i a1 h1 a2 h2 a3 h3 hc x)]
  unfold kernelRun3_A
  dsimp only
  sl_unfold_words
  rw [View.canon_cons_unit_zero (S := S1x64) hz, View.readCov_unit_zero (S := S1x64) _ hz]
  simp only [View.readAt_eq_ld, h1.read_unread, View.ld_unit_zero (S := S5000x64) hz]

/-- The first point, the sum-of-squares row. -/
theorem out_A_2 (c : Dev nD) (i : grid3.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond3_0 i) (x : Vec F S5000x64 .f32) :
    out3_A_2 c i a1 h1 a2 h2 a3 h3 hc x = k3_pay5 x (k3_pay2 (F := F)) := by
  unfold out3_A_2
  rw [View.read_writes_eq_canon _ _ _ (cover3_A_2 c i a1 h1 a2 h2 a3 h3 hc x)]
  unfold kernelRun3_A
  dsimp only
  sl_unfold_words
  rw [View.canon_cons_unit_zero (S := S1x64) hz, View.readCov_unit_zero (S := S1x64) _ hz]
  simp only [View.readAt_eq_ld, h1.read_unread, View.ld_unit_zero (S := S5000x64) hz]

end Cert.KernelIdeal.R3

end
-- ==== Proof.R3Final.lean ====
/-
  The statistics stage as a whole: for any contents `V` of the buffers when the stage is entered, its two result
  rows end at the column sums, and the column sums of the squares, of the stage's input array `o`.

  The input window's block at grid point `t` is rows `5000·t, …, 5000·t + 4999` of `o`.  Both result rows keep ONE
  block for the whole grid, carried from point to point: after point `n` the sum row holds, at column `f`, the sum of
  `o[b·5000 + r, f]` over the blocks `b ≤ n` and the rows `r` of a block (by induction on the point: the first point
  starts from the zero row, a later one from what the point before left).  Only the last point writes the rows back,
  and its block is the whole result array, so the arrays end at the sums over all twenty blocks.
-/
import proofs.«160100_j24051816857687_1_alg».proof.Proof.KernelIdealFrameP
import proofs.«160100_j24051816857687_1_alg».proof.Proof.Spec
import proofs.«160100_j24051816857687_1_alg».proof.Proof.R3Pay
import proofs.«160100_j24051816857687_1_alg».proof.Proof.R3Pieces
import Idealize.ShloMosaic.Lib.Pipeline.Value

set_option maxRecDepth 16384

noncomputable section

open scoped BigOperators

namespace Cert.KernelIdeal.R3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The stage's input array as it is found when the stage is entered. -/
abbrev inp (c : Dev nD) : (⟨2, ![100000, 64]⟩ : Shape).Idx → EReal := V c (Pipeline.arrRef spec3 0)

/-! ## The input window's block at a point -/

/-- The input window's block index at point `t` is `(t, 0)`. -/
theorem idx_facts : ∀ t : Fin grid3.N, win3_0.index t (0 : Fin 2) = t.val ∧ win3_0.index t (1 : Fin 2) = 0 := by
  decide +kernel

/-- Row `r`, column `f` of the block at point `t` is row `5000·t + r`, column `f` of the input array. -/
theorem iblk_apply (c : Dev nD) (t : Fin cfg3.N) (ht : t.val < 20) (r : Fin 5000) (f : Fin 64) :
    (iblk3 (F := Ideal) V c 0 t : Vec Ideal S5000x64 .f32) (ix2 r f) = inp V c (ix2 (row ⟨t.val, ht⟩ r) f) := by
  unfold iblk3
  rw [View.read_apply]
  show V c (Pipeline.arrRef spec3 0) _ = V c (Pipeline.arrRef spec3 0) _
  congr 1
  funext a
  apply Fin.ext
  match a with
  | ⟨0, _⟩ =>
    show win3_0.index t 0 * 5000 + 1 * r.val = t.val * 5000 + r.val
    rw [(idx_facts t).1]; omega
  | ⟨1, _⟩ =>
    show win3_0.index t 1 * 64 + 1 * f.val = f.val
    rw [(idx_facts t).2]; omega

/-! ## The two rows after each point -/

/-- After point `n` the two rows hold the column sums, and the column sums of squares, over the blocks `0, …, n`. -/
theorem outsAt_eq (c : Dev nD) : ∀ (n : ℕ) (h : n < cfg3.N),
    outsAt3 (F := Ideal) V c n h = (sumRow (inp V c) n, sumSqRow (inp V c) n)
  | 0, h => by
    rw [outsAt3_A V c ⟨0, h⟩ rfl]
    refine Prod.ext ?_ ?_
    · dsimp only
      rw [out_A_1 (F := Ideal) c (grid3.coords ⟨0, h⟩) (ms3_0 ⟨0, h⟩) (hs3_0 ⟨0, h⟩) (ms3_1 ⟨0, h⟩) (hs3_1 ⟨0, h⟩)
        (ms3_2 ⟨0, h⟩) (hs3_2 ⟨0, h⟩) ((hcond3_0 ⟨0, h⟩).mpr rfl) (iblk3 V c 0 ⟨0, h⟩)]
      exact first_sum (iblk3 V c 0 ⟨0, h⟩) (inp V c) (fun r f => iblk_apply V c ⟨0, h⟩ (by show (0 : ℕ) < 20; omega) r f)
    · dsimp only
      rw [out_A_2 (F := Ideal) c (grid3.coords ⟨0, h⟩) (ms3_0 ⟨0, h⟩) (hs3_0 ⟨0, h⟩) (ms3_1 ⟨0, h⟩) (hs3_1 ⟨0, h⟩)
        (ms3_2 ⟨0, h⟩) (hs3_2 ⟨0, h⟩) ((hcond3_0 ⟨0, h⟩).mpr rfl) (iblk3 V c 0 ⟨0, h⟩)]
      exact first_sumSq (iblk3 V c 0 ⟨0, h⟩) (inp V c) (fun r f => iblk_apply V c ⟨0, h⟩ (by show (0 : ℕ) < 20; omega) r f)
  | n + 1, h => by
    have hN : cfg3.N = 20 := N_3
    have hn : n + 1 < 20 := by omega
    have hB : ¬(⟨n + 1, h⟩ : Fin cfg3.N).val % 20 = 0 := by dsimp only; omega
    have ih := outsAt_eq c n (Nat.lt_of_succ_lt h)
    rw [outsAt3_B V c ⟨n + 1, h⟩ hB]
    refine Prod.ext ?_ ?_
    · dsimp only
      rw [out_B_1 (F := Ideal) c (grid3.coords ⟨n + 1, h⟩) (ms3_0 ⟨n + 1, h⟩) (hs3_0 ⟨n + 1, h⟩) (ms3_1 ⟨n + 1, h⟩)
        (hs3_1 ⟨n + 1, h⟩) (ms3_2 ⟨n + 1, h⟩) (hs3_2 ⟨n + 1, h⟩) (fun hh => hB ((hcond3_0 ⟨n + 1, h⟩).mp hh))
        (iblk3 V c 0 ⟨n + 1, h⟩)]
      exact next_sum (iblk3 V c 0 ⟨n + 1, h⟩) _ (inp V c) n hn (fun r f => iblk_apply V c ⟨n + 1, h⟩ hn r f)
        (congrArg Prod.fst ih)
    · dsimp only
      rw [out_B_2 (F := Ideal) c (grid3.coords ⟨n + 1, h⟩) (ms3_0 ⟨n + 1, h⟩) (hs3_0 ⟨n + 1, h⟩) (ms3_1 ⟨n + 1, h⟩)
        (hs3_1 ⟨n + 1, h⟩) (ms3_2 ⟨n + 1, h⟩) (hs3_2 ⟨n + 1, h⟩) (fun hh => hB ((hcond3_0 ⟨n + 1, h⟩).mp hh))
        (iblk3 V c 0 ⟨n + 1, h⟩)]
      exact next_sumSq (iblk3 V c 0 ⟨n + 1, h⟩) _ (inp V c) n hn (fun r f => iblk_apply V c ⟨n + 1, h⟩ hn r f)
        (congrArg Prod.snd ih)

/-! ## The result arrays -/

/-- The rows over all twenty blocks are the stage's two target functions of the input array. -/
theorem sumRow_last (o : (⟨2, ![100000, 64]⟩ : Shape).Idx → EReal) : sumRow o 19 = Cert.Spec.colSum o := by
  funext i
  show upTo (blockSum o (i 1)) 19 = _
  rw [upTo_last]
  rfl

theorem sumSqRow_last (o : (⟨2, ![100000, 64]⟩ : Shape).Idx → EReal) : sumSqRow o 19 = Cert.Spec.colSumSq o := by
  funext i
  show upTo (blockSumSq o (i 1)) 19 = _
  rw [upTo_last]
  rfl

/-- The last grid point: the only one that writes the rows back. -/
def last : Fin cfg3.N := ⟨19, by rw [show cfg3.N = 20 from N_3]; decide⟩

/-- The one write-back of the sum row, at the last point, writes the column sums: the row's block is the whole array. -/
theorem flushed_sum (c : Dev nD) (t : Fin cfg3.N) (hf : (cfg3.win 1).flush t = true) :
    (dat3 (F := Ideal) V c).flushed 1 t = ((cfg3.win 1).blk t).view.read (Elt Ideal) (Cert.Spec.colSum (inp V c)) := by
  have hN : cfg3.N = 20 := N_3
  have h19 : t.val = 19 := by have := (flush3_1 t).mp hf; have := t.isLt; omega
  obtain rfl : t = last := Fin.ext h19
  show (cfg3.win 1).cut (grid3.coords last) ((dat3 V c).after 1 last) = _
  rw [after3_1, outsAt_eq]
  dsimp only
  rw [show last.val = 19 from rfl, sumRow_last]
  have hz' : (fun a => win3_1.index last a * main_v40_0.ty.shape.size a) = fun _ => 0 :=
    funext fun a => by fin_cases a <;> decide +kernel
  exact (Memref.read_access_unit_zero (Elt Ideal) main_v40_0 hz' (fun a => by rw [congrFun hz' a]; simp)
    (Cert.Spec.colSum (inp V c))).symm

/-- The one write-back of the sum-of-squares row. -/
theorem flushed_sumSq (c : Dev nD) (t : Fin cfg3.N) (hf : (cfg3.win 2).flush t = true) :
    (dat3 (F := Ideal) V c).flushed 2 t = ((cfg3.win 2).blk t).view.read (Elt Ideal) (Cert.Spec.colSumSq (inp V c)) := by
  have hN : cfg3.N = 20 := N_3
  have h19 : t.val = 19 := by have := (flush3_2 t).mp hf; have := t.isLt; omega
  obtain rfl : t = last := Fin.ext h19
  show (cfg3.win 2).cut (grid3.coords last) ((dat3 V c).after 2 last) = _
  rw [after3_2, outsAt_eq]
  dsimp only
  rw [show last.val = 19 from rfl, sumSqRow_last]
  have hz' : (fun a => win3_2.index last a * main_v40_1.ty.shape.size a) = fun _ => 0 :=
    funext fun a => by fin_cases a <;> decide +kernel
  exact (Memref.read_access_unit_zero (Elt Ideal) main_v40_1 hz' (fun a => by rw [congrFun hz' a]; simp)
    (Cert.Spec.colSumSq (inp V c))).symm

/-- The sum array ends at the column sums of the input array. -/
theorem final_sum (c : Dev nD) :
    (dat3 (F := Ideal) V c).arrAt 1 cfg3.N = Cert.Spec.colSum (V c (Pipeline.arrRef spec3 0)) :=
  (dat3 V c).arrAt_eq_of_cover 1 (Cert.Spec.colSum (inp V c)) (flushed_sum V c) fun i =>
    ⟨last, (flush3_1 last).mpr rfl, by
      show i ∈ ((View.whole main_v40_0).slice (win3_1.rect last)).set
      rw [View.set_slice_whole, Rect.mem_set_unit]
      intro a
      have h0 : (i 0 : Nat) < 1 := (i 0).isLt
      have h1 : (i 1 : Nat) < 64 := (i 1).isLt
      match a with
      | ⟨0, _⟩ =>
        show win3_1.index last 0 * win3_1.size 0 ≤ (i 0 : Nat)
          ∧ (i 0 : Nat) < win3_1.index last 0 * win3_1.size 0 + win3_1.xsize (grid3.coords last) 0
        rw [show win3_1.index last 0 * win3_1.size 0 = 0 from by decide +kernel,
          show win3_1.xsize (grid3.coords last) 0 = 1 from by decide +kernel]
        omega
      | ⟨1, _⟩ =>
        show win3_1.index last 1 * win3_1.size 1 ≤ (i 1 : Nat)
          ∧ (i 1 : Nat) < win3_1.index last 1 * win3_1.size 1 + win3_1.xsize (grid3.coords last) 1
        rw [show win3_1.index last 1 * win3_1.size 1 = 0 from by decide +kernel,
          show win3_1.xsize (grid3.coords last) 1 = 64 from by decide +kernel]
        omega⟩

/-- The sum-of-squares array ends at the column sums of the squares of the input array. -/
theorem final_sumsq (c : Dev nD) :
    (dat3 (F := Ideal) V c).arrAt 2 cfg3.N = Cert.Spec.colSumSq (V c (Pipeline.arrRef spec3 0)) :=
  (dat3 V c).arrAt_eq_of_cover 2 (Cert.Spec.colSumSq (inp V c)) (flushed_sumSq V c) fun i =>
    ⟨last, (flush3_2 last).mpr rfl, by
      show i ∈ ((View.whole main_v40_1).slice (win3_2.rect last)).set
      rw [View.set_slice_whole, Rect.mem_set_unit]
      intro a
      have h0 : (i 0 : Nat) < 1 := (i 0).isLt
      have h1 : (i 1 : Nat) < 64 := (i 1).isLt
      match a with
      | ⟨0, _⟩ =>
        show win3_2.index last 0 * win3_2.size 0 ≤ (i 0 : Nat)
          ∧ (i 0 : Nat) < win3_2.index last 0 * win3_2.size 0 + win3_2.xsize (grid3.coords last) 0
        rw [show win3_2.index last 0 * win3_2.size 0 = 0 from by decide +kernel,
          show win3_2.xsize (grid3.coords last) 0 = 1 from by decide +kernel]
        omega
      | ⟨1, _⟩ =>
        show win3_2.index last 1 * win3_2.size 1 ≤ (i 1 : Nat)
          ∧ (i 1 : Nat) < win3_2.index last 1 * win3_2.size 1 + win3_2.xsize (grid3.coords last) 1
        rw [show win3_2.index last 1 * win3_2.size 1 = 0 from by decide +kernel,
          show win3_2.xsize (grid3.coords last) 1 = 64 from by decide +kernel]
        omega⟩

end Cert.KernelIdeal.R3

end
-- ==== Proof.R4Pay.lean ====
/-
  The normalize-and-clamp body at one entry.

  The body reads a 5000×64 block o and four 1×64 rows γ, μ, s, β, each broadcast down the rows, and stores
  max(n + n, 0) with n = (γ · (o − μ)) · s + β.  Read at row p and column q of the block every broadcast row is
  read at (0, q).
-/
import proofs.«160100_j24051816857687_1_alg».proof.Proof.Gen.KernelIdeal.Skeleton
import Idealize.ShloMosaic.Lib.ValueLayout
import Idealize.ShloMosaic.Lib.Pipeline.Value

noncomputable section

open scoped BigOperators

namespace Cert.KernelIdeal.R4

open Idealize.ShloMosaic Idealize.ShloMosaic.ValueIdx

/-- A 1×64 row broadcast down 5000 rows, read at (p, q), is the row at (0, q). -/
theorem row_apply (v : Vec Ideal S1x64 .f32) (h1 : S1x64.ShapeCasts S1x64) (h2 : S1x64.Broadcasts S5000x64)
    (p : Fin 5000) (q : Fin 64) :
    broadcastTo S5000x64 (shapeCast S1x64 v h1) h2 (ix2 p q) = v (ix2 (0 : Fin 1) q) := by
  rw [shapeCast_self]
  exact broadcastTo_1b_ab_apply v _ p q

/-- A reshape to the same shape changes nothing. -/
theorem same_shape (o : Vec Ideal S5000x64 .f32) (h : S5000x64.ShapeCasts S5000x64) : shapeCast S5000x64 o h = o :=
  shapeCast_self _ _

/-- The body's stored value at entry (p, q) of the block. -/
theorem pay_apply (g : Vec Ideal S1x64 .f32) (o : Vec Ideal S5000x64 .f32) (mu s be : Vec Ideal S1x64 .f32)
    (p : Fin 5000) (q : Fin 64) :
    Gen.k4_pay1 (F := Ideal) g o mu s be (ix2 p q)
      = max (((g (ix2 (0 : Fin 1) q) * (o (ix2 p q) - mu (ix2 (0 : Fin 1) q))) * s (ix2 (0 : Fin 1) q) + be (ix2 (0 : Fin 1) q))
          + ((g (ix2 (0 : Fin 1) q) * (o (ix2 p q) - mu (ix2 (0 : Fin 1) q))) * s (ix2 (0 : Fin 1) q) + be (ix2 (0 : Fin 1) q)))
          (Ideal.ofBits .f32 0x00000000#32 : EReal) := by
  unfold Gen.k4_pay1
  show max (((broadcastTo S5000x64 (shapeCast S1x64 g _) _ (ix2 p q)
        * (shapeCast S5000x64 o _ (ix2 p q) - broadcastTo S5000x64 (shapeCast S1x64 mu _) _ (ix2 p q)))
        * broadcastTo S5000x64 (shapeCast S1x64 s _) _ (ix2 p q)
        + broadcastTo S5000x64 (shapeCast S1x64 be _) _ (ix2 p q))
      + ((broadcastTo S5000x64 (shapeCast S1x64 g _) _ (ix2 p q)
        * (shapeCast S5000x64 o _ (ix2 p q) - broadcastTo S5000x64 (shapeCast S1x64 mu _) _ (ix2 p q)))
        * broadcastTo S5000x64 (shapeCast S1x64 s _) _ (ix2 p q)
        + broadcastTo S5000x64 (shapeCast S1x64 be _) _ (ix2 p q)))
      (Ideal.ofBits .f32 0x00000000#32 : EReal) = _
  rw [row_apply g, row_apply mu, row_apply s, row_apply be, same_shape]

end Cert.KernelIdeal.R4

end
-- ==== Proof.R4Final.lean ====
/-
  Normalize, scale, shift, double and clamp: from blocks to the whole array.

  The grid has 20 points; point t stages rows 5000·t … 5000·t + 4999 of o and the four whole 1×64 rows μ, s, γ, β,
  and writes back rows 5000·t … 5000·t + 4999 of the output.  Each written block is the same block of ONE
  whole-array function, and the 20 blocks tile the 100000 rows, so the output array ends holding that function.
-/
import proofs.«160100_j24051816857687_1_alg».proof.Proof.KernelIdealFrameP
import proofs.«160100_j24051816857687_1_alg».proof.Proof.Spec
import proofs.«160100_j24051816857687_1_alg».proof.Proof.R4Pay
import Idealize.ShloMosaic.Lib.Pipeline.Value

noncomputable section

open scoped BigOperators

namespace Cert.KernelIdeal.R4

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the window of o and the output window sit at row block t, the four row
    windows at block (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- One entry of the stored block against one entry of the whole-array function: when the block of o holds rows
    5000·t + p of the array o and the four row blocks are the whole rows, entry (p, q) of the body's value is entry
    (5000·t + p, q) of the normalized, doubled and clamped array. -/
theorem point_eq (xg : Vec Ideal S1x64 .f32) (xo : Vec Ideal S5000x64 .f32) (xm xs xb : Vec Ideal S1x64 .f32)
    (O : Spec.Arr2 100000 64) (M S G B : Spec.Arr2 1 64) (tv : Nat) (ht : tv < 20)
    (ho : ∀ (p : Fin 5000) (q : Fin 64), xo (ix2 p q) = O (ix2 (⟨tv * 5000 + p.val, by omega⟩ : Fin 100000) q))
    (hm : xm = M) (hs : xs = S) (hg : xg = G) (hb : xb = B)
    (j : S5000x64.Idx) (i : S100000x64.Idx) (hi0 : (i 0).val = tv * 5000 + (j 0).val) (hi1 : (i 1).val = (j 1).val) :
    Gen.k4_pay1 (F := Ideal) xg xo xm xs xb j = Spec.normRelu O M S G B i := by
  obtain ⟨p, q, rfl⟩ : ∃ (p : Fin 5000) (q : Fin 64), j = ix2 p q := ⟨j 0, j 1, eq_ix2 j⟩
  have hrow : tv * 5000 + p.val < 100000 := by have := p.isLt; omega
  obtain ⟨r, q', rfl⟩ : ∃ (r : Fin 100000) (q' : Fin 64), i = ix2 r q' := ⟨i 0, i 1, eq_ix2 i⟩
  obtain rfl : q = q' := (Fin.ext hi1).symm
  obtain rfl : r = ⟨tv * 5000 + p.val, hrow⟩ := Fin.ext hi0
  rw [pay_apply, ho]
  subst hm hs hg hb
  rfl

/-- The block of o at point t is rows 5000·t … of the array o. -/
theorem o_block (c : Dev nD) (t : Fin cfg4.N) (ht : t.val < 20) (p : Fin 5000) (q : Fin 64) :
    (iblk4 V c 0 t : Vec Ideal S5000x64 .f32) (ix2 p q)
      = (V c (Pipeline.arrRef spec4 0) : Spec.Arr2 100000 64) (ix2 (⟨t.val * 5000 + p.val, by omega⟩ : Fin 100000) q) := by
  obtain ⟨e0, e1, -⟩ := index_facts t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * q.val = q.val; omega

/-- The block of the row μ at every point is the whole row. -/
theorem mu_block (c : Dev nD) (t : Fin cfg4.N) :
    (iblk4 V c 1 t : Vec Ideal S1x64 .f32) = (V c (Pipeline.arrRef spec4 1) : Spec.Arr2 1 64) := by
  obtain ⟨-, -, e0, e1, -⟩ := index_facts t
  unfold iblk4
  funext y
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 1 + 1 * (y 0).val = (y 0).val; omega
  | ⟨1, _⟩ => show win4_1.index t (1 : Fin 2) * 64 + 1 * (y 1).val = (y 1).val; omega

/-- The block of the row s at every point is the whole row. -/
theorem s_block (c : Dev nD) (t : Fin cfg4.N) :
    (iblk4 V c 2 t : Vec Ideal S1x64 .f32) = (V c (Pipeline.arrRef spec4 2) : Spec.Arr2 1 64) := by
  obtain ⟨-, -, -, -, e0, e1, -⟩ := index_facts t
  unfold iblk4
  funext y
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The block of the row γ at every point is the whole row. -/
theorem gamma_block (c : Dev nD) (t : Fin cfg4.N) :
    (iblk4 V c 3 t : Vec Ideal S1x64 .f32) = (V c (Pipeline.arrRef spec4 3) : Spec.Arr2 1 64) := by
  obtain ⟨-, -, -, -, -, -, e0, e1, -⟩ := index_facts t
  unfold iblk4
  funext y
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- The block of the row β at every point is the whole row. -/
theorem beta_block (c : Dev nD) (t : Fin cfg4.N) :
    (iblk4 V c 4 t : Vec Ideal S1x64 .f32) = (V c (Pipeline.arrRef spec4 4) : Spec.Arr2 1 64) := by
  obtain ⟨-, -, -, -, -, -, -, -, e0, e1, -⟩ := index_facts t
  unfold iblk4
  funext y
  rw [View.read_apply]
  show V c (Pipeline.arrRef spec4 4) _ = V c (Pipeline.arrRef spec4 4) _
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- What point t writes back is block t of the normalized, doubled and clamped array of the arrays as the region
    finds them. -/
theorem flushed_eq (c : Dev nD) (t : Fin cfg4.N) :
    (dat4 (F := Ideal) V c).flushed 5 t = ((cfg4.win 5).blk t).view.read (Elt Ideal)
      (Spec.normRelu (V c (Pipeline.arrRef spec4 0)) (V c (Pipeline.arrRef spec4 1)) (V c (Pipeline.arrRef spec4 2))
        (V c (Pipeline.arrRef spec4 3)) (V c (Pipeline.arrRef spec4 4))) := by
  have ht : t.val < 20 := by have := t.isLt; have hN : cfg4.N = 20 := N_4; omega
  obtain ⟨-, -, -, -, -, -, -, -, -, -, e0, e1⟩ := index_facts t
  show (cfg4.win 5).cut (grid4.coords t) ((dat4 (F := Ideal) V c).after 5 t) = _
  rw [after4_5]
  unfold out4_5
  rw [View.canon_unit_zero zero_offsets]
  simp only [View.ld_unit_zero (S := S5000x64) zero_offsets, View.ld_unit_zero (S := S1x64) zero_offsets]
  funext j
  rw [View.read_apply]
  refine point_eq (iblk4 V c 3 t) (iblk4 V c 0 t) (iblk4 V c 1 t) (iblk4 V c 2 t) (iblk4 V c 4 t) _ _ _ _ _ t.val ht
    (o_block V c t ht) (mu_block V c t) (s_block V c t) (gamma_block V c t) (beta_block V c t) j _ ?_ ?_
  · show win4_5.index t (0 : Fin 2) * 5000 + 1 * (j 0).val = t.val * 5000 + (j 0).val; omega
  · show win4_5.index t (1 : Fin 2) * 64 + 1 * (j 1).val = (j 1).val; omega

/-- An index of the output array is in point t's block iff each coordinate is in the block's range on its axis. -/
theorem mem_block (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v50).slice (win4_5.rect t)).set ↔ _
  rw [View.set_slice_whole, Rect.mem_set_unit]
  exact Iff.rfl

/-- The 20 blocks tile the rows: row r lies in the block of point r / 5000. -/
theorem covered (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  let t : Fin cfg4.N := ⟨(i 0).val / 5000, by omega⟩
  have htv : t.val = (i 0).val / 5000 := rfl
  obtain ⟨-, -, -, -, -, -, -, -, -, -, e0, e1⟩ := index_facts t
  refine ⟨t, flush4_5 t, ?_⟩
  rw [mem_block]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The output array after the region: the normalized, scaled, shifted, doubled and clamped array of the five operand
    arrays as the region finds them. -/
theorem final (c : Dev nD) : (GenP.dat4 (F := Ideal) V c).arrAt 5 cfg4.N
    = Cert.Spec.normRelu (V c (Pipeline.arrRef spec4 0)) (V c (Pipeline.arrRef spec4 1)) (V c (Pipeline.arrRef spec4 2))
        (V c (Pipeline.arrRef spec4 3)) (V c (Pipeline.arrRef spec4 4)) :=
  (dat4 (F := Ideal) V c).arrAt_eq_of_cover 5 _ (fun t _ => flushed_eq V c t) covered

end Cert.KernelIdeal.R4

end
-- ==== Proof.Consts.lean ====
/-
  The float constants the two programs spell, as the extended reals their 32-bit patterns denote: 0.0, 1.0 and
  100000.0 (the number of nodes, by which both programs divide the column sums).
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `100000.0` denotes the real `100000`. -/
theorem ofBits_n : Ideal.ofBits .f32 0x47C35000#32 = ((100000 : ℝ) : EReal) := by
  simp [Ideal.ofBits, Ideal.ieee, -EReal.coe_mul]; norm_num

end Cert.Consts

end
-- ==== Proof.Algebra.lean ====
/-
  The one law that joins the two programs' batch statistics.  For real numbers o_1 … o_N (N = 100000) with
  S = Σ o_k, Q = Σ o_k² and μ = S / N:
        Q / N − μ · μ  =  (Σ (o_k − μ)²) / N,
  the "mean of squares minus square of mean" form of the variance against its two-pass form.  It is an identity of
  the reals; on the extended reals it holds when every o_k is a real number (a ±∞ entry breaks it), which is where
  the finiteness of the inputs is used.  Also here: a sum over 20 blocks of 5000 rows is the sum over the 100000 rows,
  and the closure of "is a real number" under the operations the stages use.
-/
import proofs.«160100_j24051816857687_1_alg».proof.Proof.Spec
import proofs.«160100_j24051816857687_1_alg».proof.Proof.Consts

noncomputable section

open scoped BigOperators

namespace Cert.Algebra

open Idealize.ShloMosaic Idealize.ShloMosaic.ValueIdx Cert.Spec

/-! ## Real entries -/

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A finite sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Dividing a real by a nonzero real gives a real: `div` off zero is the product with the inverse. -/
theorem div_coe_coe (x y : ℝ) (hy : y ≠ 0) : Ideal.div (x : EReal) (y : EReal) = ((x / y : ℝ) : EReal) := by
  rw [Ideal.div_coe hy, ← EReal.coe_mul]; congr 1; ring
theorem IsReal.div {a b : EReal} (ha : IsReal a) (hb : IsReal b) (h0 : b ≠ 0) : IsReal (Ideal.div a b) := by
  obtain ⟨x, rfl⟩ := ha; obtain ⟨y, rfl⟩ := hb
  have hy : y ≠ 0 := fun e => h0 (by rw [e]; rfl)
  exact ⟨x / y, div_coe_coe x y hy⟩
theorem IsReal.max {a b : EReal} (ha : IsReal a) (hb : IsReal b) : IsReal (max a b) := by
  rcases max_choice a b with h | h <;> rw [h] <;> assumption
theorem IsReal.logistic {a : EReal} (ha : IsReal a) : IsReal (Ideal.logistic a) := by
  obtain ⟨x, rfl⟩ := ha; exact ⟨_, Ideal.logistic_coe x⟩

/-! ## Blocks of rows -/

/-- A sum over 20 blocks of 5000 rows is the sum over the 100000 rows. -/
theorem blockSum_eq (f : Fin 100000 → EReal) : (∑ b : Fin 20, ∑ r : Fin 5000, f (rowOf b r)) = ∑ k : Fin 100000, f k := by
  rw [← Finset.sum_product', Finset.univ_product_univ]
  refine Fintype.sum_equiv (finProdFinEquiv (m := 20) (n := 5000)) _ _ fun p => ?_
  refine congrArg f (Fin.ext ?_)
  show p.1.val * 5000 + p.2.val = p.2.val + 5000 * p.1.val
  omega

/-! ## The variance, two ways -/

/-- Over the reals. -/
theorem var_real {ι : Type} [Fintype ι] (o : ι → ℝ) (n : ℝ) (hn : n ≠ 0) (hcard : (Fintype.card ι : ℝ) = n) :
    (∑ i, o i * o i) / n - ((∑ j, o j) / n) * ((∑ j, o j) / n)
      = (∑ i, (o i - (∑ j, o j) / n) * (o i - (∑ j, o j) / n)) / n := by
  have h : (∑ i, (o i - (∑ j, o j) / n) * (o i - (∑ j, o j) / n))
      = (∑ i, o i * o i) - 2 * ((∑ j, o j) / n) * (∑ i, o i) + (Fintype.card ι : ℝ) * (((∑ j, o j) / n) * ((∑ j, o j) / n)) := by
    have : ∀ i, (o i - (∑ j, o j) / n) * (o i - (∑ j, o j) / n)
        = o i * o i - 2 * ((∑ j, o j) / n) * o i + ((∑ j, o j) / n) * ((∑ j, o j) / n) := fun i => by ring
    simp only [this, Finset.sum_add_distrib, Finset.sum_sub_distrib, ← Finset.mul_sum, Finset.sum_const, Finset.card_univ,
      nsmul_eq_mul]
    ring
  rw [h, hcard]
  field_simp
  ring

/-- Over the extended reals, for real entries, with the constants as the programs spell them. -/
theorem var_eq (o : Fin 100000 → EReal) (ho : ∀ k, IsReal (o k)) :
    Ideal.div (∑ k, o k * o k) (Ideal.ofBits .f32 0x47C35000#32)
        - Ideal.div (∑ k, o k) (Ideal.ofBits .f32 0x47C35000#32) * Ideal.div (∑ k, o k) (Ideal.ofBits .f32 0x47C35000#32)
      = Ideal.div (zeroW + ∑ k, (o k - Ideal.div (zeroW + ∑ j, o j) (Ideal.ofBits .f32 0x47C35000#32))
          * (o k - Ideal.div (zeroW + ∑ j, o j) (Ideal.ofBits .f32 0x47C35000#32))) (Ideal.ofBits .f32 0x47C35000#32) := by
  choose a ha using ho
  have hn : (100000 : ℝ) ≠ 0 := by norm_num
  simp only [zeroW, Cert.Consts.ofBits_zero, Cert.Consts.ofBits_n, zero_add, ha, ← EReal.coe_mul, coe_sum, div_coe_coe _ _ hn,
    ← EReal.coe_sub]
  congr 1
  exact var_real a 100000 hn (by simp)

end Cert.Algebra

end
-- ==== Proof.PreFacts.lean ====
/-
  The precondition of the idealized kernel, decoded.  On every device the printed predicate of the twelve
  argument arrays is all ones: a conjunction of eleven "every |x| is below +∞" over the float arrays and of
  "every entry is ≥ 0, signed" over the integer edge-index array.  From it:
    • every entry of each float array the proof uses is a real number (neither infinity);
    • every entry of the row of target nodes is nonnegative, so wrapping a negative index around by the number
      of nodes changes nothing: the wrapped column is the column itself.
  Everything is entry by entry, at a variable index; no array is ever evaluated.
-/
import proofs.«160100_j24051816857687_1_alg».proof.Defs
import proofs.«160100_j24051816857687_1_alg».proof.Proof.Gen.Pre_finite_inputs
import proofs.«160100_j24051816857687_1_alg».proof.Proof.Gen.KernelIdeal
import proofs.«160100_j24051816857687_1_alg».proof.Proof.KInt
import proofs.«160100_j24051816857687_1_alg».proof.Proof.Algebra
import Idealize.ShloMosaic.Lib.ReduceAll
import Idealize.ShloMosaic.Lib.ValueIdx

set_option maxRecDepth 16384

noncomputable section

namespace Cert.PreFacts

open Idealize.ShloMosaic Idealize.ShloMosaic.TcCoe Idealize.SL.Sem
open Cert.Algebra

/-- The shape of a scalar has one index. -/
instance subsingleton_scalar_idx : Subsingleton Cert.Pre_finite_inputs.S_.Idx := ⟨fun a b => funext fun d => d.elim0⟩

/-! ## One entry -/

/-- An extended real whose absolute value max x (−x) is strictly below +∞ is a real number. -/
theorem isReal_of_abs_lt_top (x : EReal)
    (h : Ideal.cmp .olt (max x (-x)) (Ideal.ofBits .f32 0x7F800000#32) = 1#1) : IsReal x := by
  have ht : Ideal.ofBits .f32 0x7F800000#32 = (⊤ : EReal) := by simp [Ideal.ofBits, Ideal.ieee]
  rw [ht] at h
  induction x using EReal.rec with
  | bot => exact absurd h (by simp [Ideal.cmp])
  | coe r => exact ⟨r, rfl⟩
  | top => exact absurd h (by simp [Ideal.cmp])

/-! ## One array -/

/-- `jnp.all(|a| < +inf)` equal to one: every entry of the float array `a` is a real number. -/
theorem all_real {s : Shape} {axes : List (Fin s.rank)} (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (h : Host.reduce IntOp.andi (cmpf .olt (Host.absf a) (broadcastInDim s ![] hb (constant Cert.Pre_finite_inputs.S_ .f32 0x7F800000#32)))
          (constantI Cert.Pre_finite_inputs.S_ 1 1#1) hr hu ValueIdx.ix0 = 1#1) (i : s.Idx) : IsReal (a i) :=
  isReal_of_abs_lt_top (a i) (Host.reduce_andi_all _ _ hr hu ValueIdx.ix0 h i)

/-- `jnp.all(a >= 0)` equal to one: every entry of the integer array `a` is nonnegative, read signed. -/
theorem all_nonneg {s : Shape} {axes : List (Fin s.rank)} (hb : Cert.Pre_finite_inputs.S_.BroadcastsInDim s (![] : Fin 0 → Fin s.rank))
    (hr : s.ReducesTo axes Cert.Pre_finite_inputs.S_) (hu : 0 < Cert.Pre_finite_inputs.S_.numel)
    (a : IVec s 32)
    (h : Host.reduce IntOp.andi (cmpi .sge a (broadcastInDim s ![] hb (constantI Cert.Pre_finite_inputs.S_ 32 0#32)))
          (constantI Cert.Pre_finite_inputs.S_ 1 1#1) hr hu ValueIdx.ix0 = 1#1) (i : s.Idx) : 0 ≤ (a i).toInt := by
  have e : IntOp.cmpi .sge (a i) (0#32) = 1#1 := Host.reduce_andi_all _ _ hr hu ValueIdx.ix0 h i
  rw [IntOp.cmpi_sge] at e
  exact e

/-! ## The index column -/

section Column

open Cert.KernelIdeal Cert.KernelIdeal.KInt

/-- Every entry of the row of target nodes is an entry of the edge-index array (a slice, then a reshape, only
    re-index), so it is nonnegative when all of those are. -/
theorem dstI_nonneg (ei : (⟨S2x1000000, .i32⟩ : BufTy).Contents (Elt Ideal)) (hei : ∀ k, 0 ≤ (ei k).toInt)
    (j : S1000000.Idx) : 0 ≤ (dstI ei j).toInt := by
  unfold dstI shapeCast extractStridedSlice
  exact hei _

/-- On a vector of nonnegative indices the wrap-around of negative ones does nothing: `select (v < 0) (v + N) v`
    is `v`, entry by entry, so the wrapped column is the column as it is. -/
theorem wrapCol_eq_rawCol (v : (⟨S1000000, .i32⟩ : BufTy).Contents (Elt Ideal)) (hv : ∀ j, 0 ≤ (v j).toInt) :
    wrapCol v = rawCol v := by
  unfold wrapCol rawCol
  refine congrArg _ (funext fun j => ?_)
  rw [ValueIdx.select_apply]
  have hc : ¬ IntOp.cmpi .slt (v j) (0#32) = 1#1 := by
    rw [IntOp.cmpi_slt]
    have h0 : (0#32 : BitVec 32).toInt = 0 := by decide
    have := hv j
    omega
  have hz : cmpi .slt v (broadcastInDim S1000000 ![] Facts₀.bcast_S_S1000000 (constantI S_ 32 0#32)) j = 0#1 :=
    ValueIdx.eq_zero_of_ne_one hc
  rw [hz, ValueIdx.select_zero]

end Column

/-! ## The precondition, conjunct by conjunct -/

section Decode

variable [Cert.Pre_finite_inputs.Facts]
variable (m : (ℓ : Loc Cert.KernelIdeal.nD Cert.KernelIdeal.τ Cert.KernelIdeal.sig) → Buf (Elt Ideal) ℓ)

/-- The precondition on device `c`: every entry of each of the eleven float arrays is a real number, and every
    entry of the integer array is nonnegative. -/
theorem decode (h : Cert.Pre_KernelIdeal m) (c : Dev Cert.KernelIdeal.nD) :
    (∀ i, IsReal (m ((c.tc : Thread _ _).loc Cert.KernelIdeal.main_arg0) i))
    ∧ (∀ i, 0 ≤ (m ((c.tc : Thread _ _).loc Cert.KernelIdeal.main_arg1) i).toInt)
    ∧ (∀ i, IsReal (m ((c.tc : Thread _ _).loc Cert.KernelIdeal.main_arg2) i))
    ∧ (∀ i, IsReal (m ((c.tc : Thread _ _).loc Cert.KernelIdeal.main_arg3) i))
    ∧ (∀ i, IsReal (m ((c.tc : Thread _ _).loc Cert.KernelIdeal.main_arg4) i))
    ∧ (∀ i, IsReal (m ((c.tc : Thread _ _).loc Cert.KernelIdeal.main_arg5) i))
    ∧ (∀ i, IsReal (m ((c.tc : Thread _ _).loc Cert.KernelIdeal.main_arg6) i))
    ∧ (∀ i, IsReal (m ((c.tc : Thread _ _).loc Cert.KernelIdeal.main_arg7) i))
    ∧ (∀ i, IsReal (m ((c.tc : Thread _ _).loc Cert.KernelIdeal.main_arg8) i))
    ∧ (∀ i, IsReal (m ((c.tc : Thread _ _).loc Cert.KernelIdeal.main_arg9) i))
    ∧ (∀ i, IsReal (m ((c.tc : Thread _ _).loc Cert.KernelIdeal.main_arg10) i))
    ∧ (∀ i, IsReal (m ((c.tc : Thread _ _).loc Cert.KernelIdeal.main_arg11) i)) := by
  have e := congrFun (h c) ValueIdx.ix0
  dsimp only [Cert.Pre_finite_inputs.fn, Cert.Pre_finite_inputs.fn_part1, Cert.Pre_finite_inputs.fn_part2,
    Cert.Pre_finite_inputs.fn_part3] at e
  -- the conjunction is nested to the left, the integer conjunct last
  obtain ⟨e, h1⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_real _ _ _ _ h0, all_nonneg _ _ _ _ h1, all_real _ _ _ _ h2, all_real _ _ _ _ h3, all_real _ _ _ _ h4,
    all_real _ _ _ _ h5, all_real _ _ _ _ h6, all_real _ _ _ _ h7, all_real _ _ _ _ h8, all_real _ _ _ _ h9,
    all_real _ _ _ _ h10, all_real _ _ _ _ h11⟩

/-- (1) Every entry of each of the nine float inputs the proof uses — the node features, the edge attributes, the
    three weight matrices with their biases, the attention vector and its bias — is a real number. -/
theorem real_inputs (h : Cert.Pre_KernelIdeal m) (c : Dev Cert.KernelIdeal.nD) :
    (∀ i, IsReal (m ((c.tc : Thread _ _).loc Cert.KernelIdeal.main_arg0) i))
    ∧ (∀ i, IsReal (m ((c.tc : Thread _ _).loc Cert.KernelIdeal.main_arg2) i))
    ∧ (∀ i, IsReal (m ((c.tc : Thread _ _).loc Cert.KernelIdeal.main_arg3) i))
    ∧ (∀ i, IsReal (m ((c.tc : Thread _ _).loc Cert.KernelIdeal.main_arg4) i))
    ∧ (∀ i, IsReal (m ((c.tc : Thread _ _).loc Cert.KernelIdeal.main_arg5) i))
    ∧ (∀ i, IsReal (m ((c.tc : Thread _ _).loc Cert.KernelIdeal.main_arg6) i))
    ∧ (∀ i, IsReal (m ((c.tc : Thread _ _).loc Cert.KernelIdeal.main_arg7) i))
    ∧ (∀ i, IsReal (m ((c.tc : Thread _ _).loc Cert.KernelIdeal.main_arg8) i))
    ∧ (∀ i, IsReal (m ((c.tc : Thread _ _).loc Cert.KernelIdeal.main_arg9) i)) := by
  obtain ⟨h0, -, h2, h3, h4, h5, h6, h7, h8, h9, -, -⟩ := decode m h c
  exact ⟨h0, h2, h3, h4, h5, h6, h7, h8, h9⟩

/-- (2) The target-node indices are nonnegative, so their wrapped column is their column. -/
theorem wrap_eq_raw (h : Cert.Pre_KernelIdeal m) (c : Dev Cert.KernelIdeal.nD) :
    Cert.KernelIdeal.KInt.wrapCol (Cert.KernelIdeal.KInt.dstI (m ((c.tc : Thread _ _).loc Cert.KernelIdeal.main_arg1)))
      = Cert.KernelIdeal.KInt.rawCol (Cert.KernelIdeal.KInt.dstI (m ((c.tc : Thread _ _).loc Cert.KernelIdeal.main_arg1))) :=
  wrapCol_eq_rawCol _ (dstI_nonneg _ (decode m h c).2.1)

end Decode

end Cert.PreFacts

end
-- ==== Proof.BridgeNode.lean ====
/-
  The reference's first two stages against the kernel program's, at the ideal values and for all argument arrays.

  Both programs compute the per-node aggregate and count by the same host operations; the reference then clamps the
  count VECTOR below by 1, spreads it along a column and the 128 lanes, divides, multiplies by `W_l` as a dot
  product, adds the bias spread along the rows, and adds the dot product of the features with `W_r`.  Entry by entry
  that is the node transform of the specification, where the clamp is taken on the count column.  The edge embedding is
  a dot product plus a bias row on both sides.
-/
import proofs.«160100_j24051816857687_1_alg».proof.Proof.KChain
import proofs.«160100_j24051816857687_1_alg».proof.Proof.ReferenceReadP
import Idealize.ShloMosaic.Lib.Pipeline.Value
import Idealize.ShloMosaic.Lib.ValueIdx

noncomputable section

open scoped BigOperators

namespace Cert.Bridge

open Idealize.ShloMosaic Idealize.ShloMosaic.ValueIdx
open Cert.ReferenceIdeal.ReadP Cert.KernelIdeal.KChain

/-- A length-a vector viewed as a 1×a row reads, at (u, q), the vector at q, whatever the unit coordinate u. -/
theorem row_apply {α : Type} {a : ℕ} (v : (⟨1, ![a]⟩ : Shape).Idx → α) (h : (⟨1, ![a]⟩ : Shape).ShapeCasts ⟨2, ![1, a]⟩)
    (u : Fin 1) (q : Fin a) : shapeCast ⟨2, ![1, a]⟩ v h (ix2 u q) = v (ix1 q) :=
  shapeCast_apply v h _ _ (by
    have hu : u.val = 0 := by omega
    rw [Shape.rowMajor_val_two, Shape.rowMajor_val_one]
    show q.val = u.val * a + q.val
    rw [hu, Nat.zero_mul, Nat.zero_add])

/-! ## The node transform -/

/-- The two programs form the per-node sum of the neighbours' features by the same operations: a gather of the rows
    by the wrapped source index, then a scatter-add into zeros by the target index. -/
theorem agg_eq (x : (⟨Cert.ReferenceIdeal.S100000x128, .f32⟩ : BufTy).Contents (Elt Ideal))
    (ei : (⟨Cert.ReferenceIdeal.S2x1000000, .i32⟩ : BufTy).Contents (Elt Ideal)) :
    val_main_v13 (F := Ideal) x ei = aggK x ei := rfl

/-- The count column at row r is the count vector at r: the number of edges whose target is r, as a scatter-add of
    ones into zeros. -/
theorem cnt_apply (ei : (⟨Cert.ReferenceIdeal.S2x1000000, .i32⟩ : BufTy).Contents (Elt Ideal)) (r : Fin 100000) (u : Fin 1) :
    cntK ei (ix2 r u) = val_main_v17 (F := Ideal) ei (ix1 r) := by
  unfold cntK
  show broadcastInDim _ _ _ (val_main_v17 (F := Ideal) ei) (ix2 r u) = _
  generalize val_main_v17 (F := Ideal) ei = y
  exact broadcastInDim_apply _ _ y (ix2 r u) (ix1 r) (fun a => match a with
    | ⟨0, _⟩ => by show r.val = if (100000 : Nat) = 1 then 0 else r.val; rw [if_neg (by decide)])

/-- The reference's mean of the neighbours' features at (r, k): the sum divided by the count of row r, at least 1 —
    the clamp taken on the count vector is the clamp taken on the count column, entry by entry. -/
theorem mean_ref (x : (⟨Cert.ReferenceIdeal.S100000x128, .f32⟩ : BufTy).Contents (Elt Ideal))
    (ei : (⟨Cert.ReferenceIdeal.S2x1000000, .i32⟩ : BufTy).Contents (Elt Ideal)) (r : Fin 100000) (k : Fin 128) :
    val_main_v22 (F := Ideal) x ei (ix2 r k)
      = Ideal.div (aggK x ei (ix2 r k)) (max (cntK ei (ix2 r 0)) Cert.Spec.oneW) := by
  have hi : idx_main_v20 (idx_main_v21 (ix2 r k)) = ix1 r := funext fun a => match a with | ⟨0, _⟩ => rfl
  rw [val_main_v22_apply, val_main_v21_apply, val_main_v20_apply, val_main_v19_apply, val_main_v18_apply,
    val_main_cst_3_apply, cnt_apply ei r 0, agg_eq, hi]
  rfl

/-- THE REFERENCE'S NODE TRANSFORM IS THE KERNEL PROGRAM'S: the mean-aggregated features through `W_l`, plus the bias,
    plus the node's own features through `W_r`, entry by entry. -/
theorem out1_eq (x : (⟨Cert.ReferenceIdeal.S100000x128, .f32⟩ : BufTy).Contents (Elt Ideal))
    (ei : (⟨Cert.ReferenceIdeal.S2x1000000, .i32⟩ : BufTy).Contents (Elt Ideal))
    (Wl : (⟨Cert.ReferenceIdeal.S128x64, .f32⟩ : BufTy).Contents (Elt Ideal))
    (bl : (⟨Cert.ReferenceIdeal.S64, .f32⟩ : BufTy).Contents (Elt Ideal))
    (Wr : (⟨Cert.ReferenceIdeal.S128x64, .f32⟩ : BufTy).Contents (Elt Ideal)) :
    val_main_v28 (F := Ideal) x ei Wl bl Wr = out1K x ei Wl bl Wr := by
  funext i
  obtain ⟨r, q, rfl⟩ : ∃ (r : Fin 100000) (q : Fin 64), i = ix2 r q := ⟨i 0, i 1, eq_ix2 i⟩
  have hl : ∀ k : Fin 128, lidx_main_v23 (ix2 r q) k = ix2 r k :=
    fun k => funext fun a => match a with | ⟨0, _⟩ => rfl | ⟨1, _⟩ => rfl
  have hr : ∀ k : Fin 128, ridx_main_v23 (ix2 r q) k = ix2 k q :=
    fun k => funext fun a => match a with | ⟨0, _⟩ => rfl | ⟨1, _⟩ => rfl
  have hl' : ∀ k : Fin 128, lidx_main_v27 (ix2 r q) k = ix2 r k :=
    fun k => funext fun a => match a with | ⟨0, _⟩ => rfl | ⟨1, _⟩ => rfl
  have hr' : ∀ k : Fin 128, ridx_main_v27 (ix2 r q) k = ix2 k q :=
    fun k => funext fun a => match a with | ⟨0, _⟩ => rfl | ⟨1, _⟩ => rfl
  have hb : idx_main_v24 (idx_main_v25 (ix2 r q)) = ix1 q := funext fun a => match a with | ⟨0, _⟩ => rfl
  rw [val_main_v28_apply, val_main_v26_apply, val_main_v23_apply, val_main_v25_apply, val_main_v24_apply,
    val_main_v27_apply, hb]
  unfold out1K Cert.Spec.nodeOut
  show ((∑ k : Fin 128, val_main_v22 (F := Ideal) x ei (lidx_main_v23 (ix2 r q) k) * Wl (ridx_main_v23 (ix2 r q) k))
          + bl (ix1 q))
        + ∑ k : Fin 128, x (lidx_main_v27 (ix2 r q) k) * Wr (ridx_main_v27 (ix2 r q) k)
      = ((∑ k : Fin 128, Ideal.div (aggK x ei (ix2 r k)) (max (cntK ei (ix2 r 0)) Cert.Spec.oneW) * Wl (ix2 k q))
          + shapeCast _ bl _ (ix2 0 q))
        + ∑ k : Fin 128, x (ix2 r k) * Wr (ix2 k q)
  have e1 : ∀ k : Fin 128, val_main_v22 (F := Ideal) x ei (lidx_main_v23 (ix2 r q) k) * Wl (ridx_main_v23 (ix2 r q) k)
      = Ideal.div (aggK x ei (ix2 r k)) (max (cntK ei (ix2 r 0)) Cert.Spec.oneW) * Wl (ix2 k q) :=
    fun k => by rw [hl, hr, mean_ref]
  have e2 : ∀ k : Fin 128, x (lidx_main_v27 (ix2 r q) k) * Wr (ridx_main_v27 (ix2 r q) k) = x (ix2 r k) * Wr (ix2 k q) :=
    fun k => by rw [hl', hr']
  rw [row_apply, Finset.sum_congr rfl (fun k _ => e1 k), Finset.sum_congr rfl (fun k _ => e2 k)]

/-! ## The edge embedding -/

/-- THE REFERENCE'S EDGE EMBEDDING IS THE KERNEL PROGRAM'S: the edge attributes through `W_e`, plus the bias. -/
theorem emb_eq (ea : (⟨Cert.ReferenceIdeal.S1000000x32, .f32⟩ : BufTy).Contents (Elt Ideal))
    (We : (⟨Cert.ReferenceIdeal.S32x64, .f32⟩ : BufTy).Contents (Elt Ideal))
    (be : (⟨Cert.ReferenceIdeal.S64, .f32⟩ : BufTy).Contents (Elt Ideal)) :
    val_main_v32 (F := Ideal) ea We be = embK ea We be := by
  funext i
  obtain ⟨n, q, rfl⟩ : ∃ (n : Fin 1000000) (q : Fin 64), i = ix2 n q := ⟨i 0, i 1, eq_ix2 i⟩
  have hl : ∀ k : Fin 32, lidx_main_v29 (ix2 n q) k = ix2 n k :=
    fun k => funext fun a => match a with | ⟨0, _⟩ => rfl | ⟨1, _⟩ => rfl
  have hr : ∀ k : Fin 32, ridx_main_v29 (ix2 n q) k = ix2 k q :=
    fun k => funext fun a => match a with | ⟨0, _⟩ => rfl | ⟨1, _⟩ => rfl
  have hb : idx_main_v30 (idx_main_v31 (ix2 n q)) = ix1 q := funext fun a => match a with | ⟨0, _⟩ => rfl
  rw [val_main_v32_apply, val_main_v29_apply, val_main_v31_apply, val_main_v30_apply, hb]
  unfold embK Cert.Spec.edgeEmb
  show (∑ k : Fin 32, ea (lidx_main_v29 (ix2 n q) k) * We (ridx_main_v29 (ix2 n q) k)) + be (ix1 q)
      = (∑ k : Fin 32, ea (ix2 n k) * We (ix2 k q)) + shapeCast _ be _ (ix2 0 q)
  have e1 : ∀ k : Fin 32, ea (lidx_main_v29 (ix2 n q) k) * We (ridx_main_v29 (ix2 n q) k) = ea (ix2 n k) * We (ix2 k q) :=
    fun k => by rw [hl, hr]
  rw [row_apply, Finset.sum_congr rfl (fun k _ => e1 k)]

end Cert.Bridge

end
-- ==== Proof.BridgeAttn.lean ====
/-
  The attention stage on the reference's side.

  The reference joins, lane-wise, each edge's gathered node output (64 lanes) with the edge embedding (64 lanes),
  multiplies the 128-lane row by the whole weight column, adds the bias, applies 1 / (1 + exp (−s)) spelt out, and
  scales the edge embedding by that gate.  The sum over the 128 joined lanes is the sum over the first 64 (the
  gathered node output against the upper half of the weight column) plus the sum over the last 64 (the edge
  embedding against the lower half); sums of extended reals split this way with no finiteness needed.  The spelt-out
  quotient is the logistic function by definition.  So the reference's stage is the same whole-array function as the
  kernel's, of the reference's own node output and edge embedding.
-/
import proofs.«160100_j24051816857687_1_alg».proof.Proof.KChain
import proofs.«160100_j24051816857687_1_alg».proof.Proof.ReferenceReadP
import proofs.«160100_j24051816857687_1_alg».proof.Proof.Consts
import Idealize.ShloMosaic.Lib.Pipeline.Value

noncomputable section

open scoped BigOperators

namespace Cert.Bridge

open Idealize.ShloMosaic Idealize.ShloMosaic.ValueIdx
open Cert.ReferenceIdeal Cert.ReferenceIdeal.Gen Cert.ReferenceIdeal.ReadP

/-! ## The pieces, over plain arrays -/

section Pieces
variable {α : Type}

/-- A join of two 64-lane arrays along the lanes, read at a lane below 64: the first array. -/
theorem join_lo (a b : S1000000x64.Idx → α) (h : Shape.Concatenates [S1000000x64, S1000000x64] S1000000x128 1)
    (n : Fin 1000000) (k : Fin 64) (j : S1000000x128.Idx) (hj0 : (j 0).val = n.val) (hj1 : (j 1).val = k.val) :
    concatenate S1000000x128 1 [⟨S1000000x64, a⟩, ⟨S1000000x64, b⟩] h j = a (ix2 n k) :=
  concatenate_pair_apply_left 1 a b h j rfl (ix2 n k) fun c => by
    match c with
    | ⟨0, _⟩ => exact hj0.symm
    | ⟨1, _⟩ => exact hj1.symm

/-- A join of two 64-lane arrays along the lanes, read at lane 64 + k: the second array at lane k. -/
theorem join_hi (a b : S1000000x64.Idx → α) (h : Shape.Concatenates [S1000000x64, S1000000x64] S1000000x128 1)
    (n : Fin 1000000) (k : Fin 64) (j : S1000000x128.Idx) (hj0 : (j 0).val = n.val) (hj1 : (j 1).val = 64 + k.val) :
    concatenate S1000000x128 1 [⟨S1000000x64, a⟩, ⟨S1000000x64, b⟩] h j = b (ix2 n k) :=
  concatenate_pair_apply_right 1 a b h j rfl rfl (ix2 n k)
    (fun c => by
      match c with
      | ⟨0, _⟩ => exact fun _ => hj0.symm
      | ⟨1, _⟩ => exact fun hc => absurd rfl hc)
    (by show k.val + 64 = (j 1).val; omega)

/-- The upper half of a 128-entry column, read at entry k: the column at k. -/
theorem upper_apply (w : Cert.KernelIdeal.S128x1.Idx → α) (h : Cert.KernelIdeal.S128x1.Slices ![0, 0] Cert.KernelIdeal.S64x1)
    (k : Fin 64) (i : Cert.KernelIdeal.S128x1.Idx) (hi0 : (i 0).val = k.val) (hi1 : (i 1).val = 0) :
    extractStridedSlice Cert.KernelIdeal.S64x1 ![0, 0] w h (ix2 k (0 : Fin 1)) = w i :=
  extractStridedSlice_apply ![0, 0] w h (ix2 k (0 : Fin 1)) i fun a => by
    match a with
    | ⟨0, _⟩ => show (i 0).val = 0 + k.val; omega
    | ⟨1, _⟩ => show (i 1).val = 0 + 0; omega

/-- The lower half of a 128-entry column, read at entry k: the column at 64 + k. -/
theorem lower_apply (w : Cert.KernelIdeal.S128x1.Idx → α) (h : Cert.KernelIdeal.S128x1.Slices ![64, 0] Cert.KernelIdeal.S64x1)
    (k : Fin 64) (i : Cert.KernelIdeal.S128x1.Idx) (hi0 : (i 0).val = 64 + k.val) (hi1 : (i 1).val = 0) :
    extractStridedSlice Cert.KernelIdeal.S64x1 ![64, 0] w h (ix2 k (0 : Fin 1)) = w i :=
  extractStridedSlice_apply ![64, 0] w h (ix2 k (0 : Fin 1)) i fun a => by
    match a with
    | ⟨0, _⟩ => show (i 0).val = 64 + k.val; omega
    | ⟨1, _⟩ => show (i 1).val = 0 + 0; omega

/-- A one-entry vector viewed as a 1×1 array reads its entry. -/
theorem one_apply (v : Cert.KernelIdeal.S1.Idx → α) (h : Cert.KernelIdeal.S1.ShapeCasts Cert.KernelIdeal.S1x1)
    (i : Cert.KernelIdeal.S1.Idx) :
    shapeCast Cert.KernelIdeal.S1x1 v h (ix2 (0 : Fin 1) (0 : Fin 1)) = v i :=
  shapeCast_apply v h _ i (by
    have hi : (i 0).val < 1 := (i 0).isLt
    rw [Shape.rowMajor_val_two, Shape.rowMajor_val_one]
    show (i 0).val = 0 * 1 + 0
    omega)

end Pieces

/-- The spelt-out quotient with the word of 1.0 is the logistic function. -/
theorem gate_eq (s : EReal) :
    Ideal.div (Ideal.ofBits .f32 0x3F800000#32) (Ideal.ofBits .f32 0x3F800000#32 + Ideal.exp (-s)) = Ideal.logistic s := by
  rw [Cert.Consts.ofBits_one, EReal.coe_one]
  rfl

/-- The score of one row: the two half inner products plus the bias. -/
abbrev score (oc e : Cert.Spec.Arr2 1000000 64) (w1 w2 : Cert.Spec.Arr2 64 1) (b : Cert.Spec.Arr2 1 1) (n : Fin 1000000) : EReal :=
  ((∑ k : Fin 64, oc (ix2 n k) * w1 (ix2 k (0 : Fin 1))) + ∑ k : Fin 64, e (ix2 n k) * w2 (ix2 k (0 : Fin 1)))
    + b (ix2 (0 : Fin 1) (0 : Fin 1))

/-- The attention function at row n, lane q: the gate of the row's score times the edge embedding's entry. -/
theorem attn_apply (oc e : Cert.Spec.Arr2 1000000 64) (w1 w2 : Cert.Spec.Arr2 64 1) (b : Cert.Spec.Arr2 1 1)
    (n : Fin 1000000) (q : Fin 64) :
    Cert.Spec.attn oc e w1 w2 b (ix2 n q) = Ideal.logistic (score oc e w1 w2 b n) * e (ix2 n q) := rfl

/-! ## The reference's stages -/

section Ref
variable (x0 : (⟨S100000x128, .f32⟩ : BufTy).Contents (Elt Ideal)) (x1 : (⟨S2x1000000, .i32⟩ : BufTy).Contents (Elt Ideal))
  (x2 : (⟨S1000000x32, .f32⟩ : BufTy).Contents (Elt Ideal)) (x3 : (⟨S128x64, .f32⟩ : BufTy).Contents (Elt Ideal))
  (x4 : (⟨S64, .f32⟩ : BufTy).Contents (Elt Ideal)) (x5 : (⟨S128x64, .f32⟩ : BufTy).Contents (Elt Ideal))
  (x6 : (⟨S32x64, .f32⟩ : BufTy).Contents (Elt Ideal)) (x7 : (⟨S64, .f32⟩ : BufTy).Contents (Elt Ideal))
  (x8 : (⟨S128x1, .f32⟩ : BufTy).Contents (Elt Ideal)) (x9 : (⟨S1, .f32⟩ : BufTy).Contents (Elt Ideal))

/-- The reference gathers its node output by the same wrapped target-index column as the kernel's program. -/
theorem gathered_eq :
    val_main_v39 (F := Ideal) x0 x1 x3 x4 x5
      = Host.gather Cert.KernelIdeal.gather_S100000x64_S1000000x1_S1000000x64_1_0_n_n_0_1_164
          (val_main_v28 (F := Ideal) x0 x1 x3 x4 x5) (Cert.KernelIdeal.KInt.wrapCol (Cert.KernelIdeal.KInt.dstI x1)) := rfl

/-- The gathered node output, as the kernel's program writes it. -/
abbrev gathered : Cert.Spec.Arr2 1000000 64 :=
  Host.gather Cert.KernelIdeal.gather_S100000x64_S1000000x1_S1000000x64_1_0_n_n_0_1_164
    (val_main_v28 (F := Ideal) x0 x1 x3 x4 x5) (Cert.KernelIdeal.KInt.wrapCol (Cert.KernelIdeal.KInt.dstI x1))

/-- The reference's score of row n (its one product over the 128 joined lanes, plus the bias) is the two half
    inner products plus the bias. -/
theorem score_eq (n : Fin 1000000) :
    val_main_v44 (F := Ideal) x0 x1 x2 x3 x4 x5 x6 x7 x8 x9 (ix2 n (0 : Fin 1))
      = score (gathered x0 x1 x3 x4 x5) (val_main_v32 (F := Ideal) x2 x6 x7)
          (extractStridedSlice Cert.KernelIdeal.S64x1 ![0, 0] x8 Cert.KernelIdeal.Gen.slices_S128x1_S64x1_0_0)
          (extractStridedSlice Cert.KernelIdeal.S64x1 ![64, 0] x8 Cert.KernelIdeal.Gen.slices_S128x1_S64x1_64_0)
          (shapeCast Cert.KernelIdeal.S1x1 x9 Cert.KernelIdeal.Gen.shapeCasts_S1_S1x1) n := by
  rw [val_main_v44_apply, val_main_v43_apply, val_main_v42_apply, val_main_v41_apply]
  show (∑ k : Fin (64 + 64), val_main_v40 (F := Ideal) x0 x1 x2 x3 x4 x5 x6 x7 (lidx_main_v41 (ix2 n (0 : Fin 1)) k)
        * x8 (ridx_main_v41 (ix2 n (0 : Fin 1)) k)) + _ = _
  rw [Fin.sum_univ_add]
  refine congrArg₂ (· + ·) (congrArg₂ (· + ·) (Finset.sum_congr rfl fun k _ => ?_) (Finset.sum_congr rfl fun k _ => ?_)) ?_
  · refine congrArg₂ (· * ·) ?_ ?_
    · unfold val_main_v40
      rw [join_lo _ _ _ n k _ rfl rfl, gathered_eq]
    · exact (upper_apply x8 _ k _ rfl rfl).symm
  · refine congrArg₂ (· * ·) ?_ ?_
    · unfold val_main_v40
      rw [join_hi _ _ _ n k _ rfl rfl]
    · exact (lower_apply x8 _ k _ rfl rfl).symm
  · exact (one_apply x9 _ _).symm

/-- The reference's attention stage is the attention function of its own node output (gathered by the wrapped target
    index) and edge embedding, the two halves of the weight column and the bias. -/
theorem contrib_eq :
    val_main_v52 (F := Ideal) x0 x1 x2 x3 x4 x5 x6 x7 x8 x9
      = Cert.KernelIdeal.KChain.contribK (val_main_v28 (F := Ideal) x0 x1 x3 x4 x5) x1 (val_main_v32 (F := Ideal) x2 x6 x7) x8 x9 := by
  funext i
  obtain ⟨n, q, rfl⟩ : ∃ (n : Fin 1000000) (q : Fin 64), i = ix2 n q := ⟨i 0, i 1, eq_ix2 i⟩
  have h51 : idx_main_v51 (ix2 n q) = ix2 n (0 : Fin 1) :=
    funext fun a => Fin.ext (by match a with | ⟨0, _⟩ => rfl | ⟨1, _⟩ => rfl)
  unfold Cert.KernelIdeal.KChain.contribK
  refine Eq.trans ?_ (attn_apply _ _ _ _ _ n q).symm
  rw [val_main_v52_apply, val_main_v51_apply, h51, val_main_v50_apply, val_main_v49_apply, val_main_cst_7_apply,
    val_main_v48_apply, val_main_v47_apply, val_main_cst_6_apply, val_main_v46_apply, val_main_v45_apply]
  simp only [Ideal.mulf_def, Ideal.hostDivf_def, Ideal.addf_def, Ideal.hostUnary_exp_def, Ideal.hostNegf_def,
    Ideal.negf_def, Ideal.ofBits_def]
  rw [gate_eq, score_eq]

end Ref

end Cert.Bridge

end
-- ==== Proof.BridgeTail.lean ====
/-
  The batch-normalisation tail on the reference's side.  From the array `o` (100000 rows, 64 columns) the reference
  takes, per column `f`, the mean  μ = (0 + Σ_k o[k,f]) / n,  the variance  (0 + Σ_k (o[k,f] − μ)²) / n,  the reciprocal
  square root  s  of the variance plus a small constant, and returns  max(y + y, 0)  with  y = (γ[f]·(o[r,f] − μ))·s + β[f].
  The kernel forms the mean and the variance from the two column sums  Σ o  and  Σ o²  it accumulated block by block:
  μ' = (Σ o)/n  and  (Σ o²)/n − μ'·μ'.  The two means are equal outright; the two variances are equal where every entry
  of `o` is a real number (the variance identity is an identity of the reals).  The small constant and the reciprocal
  square root are the same words on both sides and are never evaluated.
-/
import proofs.«160100_j24051816857687_1_alg».proof.Proof.KChain
import proofs.«160100_j24051816857687_1_alg».proof.Proof.ReferenceReadP
import proofs.«160100_j24051816857687_1_alg».proof.Proof.Algebra
import proofs.«160100_j24051816857687_1_alg».proof.Proof.Consts
import Idealize.ShloMosaic.Lib.ValueLayout
import Idealize.ShloMosaic.Lib.Pipeline.Value

set_option maxRecDepth 16384

noncomputable section

open scoped BigOperators

namespace Cert.Bridge

open Idealize.ShloMosaic Idealize.ShloMosaic.ValueIdx
open Cert.ReferenceIdeal Cert.ReferenceIdeal.ReadP
open Cert.Spec (zeroW Arr2)
open Cert.Algebra (IsReal)

/-- The number of rows, 100000.0, as both programs spell it. -/
abbrev nW : EReal := Ideal.ofBits .f32 0x47C35000#32
/-- The stabiliser added under the reciprocal square root, as both programs spell it. -/
abbrev epsW : EReal := Ideal.ofBits .f32 0x3727C5AC#32

/-! ## The tail as the reference computes it, as a function of `o`, the scale and the shift -/

/-- The column mean: the sum of column `f` from zero, divided by the number of rows. -/
def muR (o : Arr2 100000 64) (f : Fin 64) : EReal := Ideal.div (zeroW + ∑ k : Fin 100000, o (ix2 k f)) nW

/-- The reciprocal standard deviation: the mean of the squared deviations from the column mean, stabilised. -/
def invR (o : Arr2 100000 64) (f : Fin 64) : EReal :=
  Ideal.rsqrt (Ideal.div (zeroW + ∑ k : Fin 100000, (o (ix2 k f) - muR o f) * (o (ix2 k f) - muR o f)) nW + epsW)

/-- The normalised, scaled and shifted entry, doubled and clamped below at zero. -/
def tailR (o : Arr2 100000 64) (g b : (⟨1, ![64]⟩ : Shape).Idx → EReal) (r : Fin 100000) (f : Fin 64) : EReal :=
  max (((g (ix1 f) * (o (ix2 r f) - muR o f)) * invR o f + b (ix1 f))
      + ((g (ix1 f) * (o (ix2 r f) - muR o f)) * invR o f + b (ix1 f))) zeroW

/-! ## Where the reference's layout operations read -/

/-- A per-column vector broadcast along the rows reads, at `(r, f)`, its entry `f`. -/
theorem e66 (r : Fin 100000) (f : Fin 64) : idx_main_v65 (idx_main_v66 (ix2 r f)) = ix1 f :=
  funext fun a => Fin.ext (by match a with | ⟨0, _⟩ => rfl)
theorem e73 (r : Fin 100000) (f : Fin 64) : idx_main_v72 (idx_main_v73 (ix2 r f)) = ix1 f :=
  funext fun a => Fin.ext (by match a with | ⟨0, _⟩ => rfl)
theorem e76 (r : Fin 100000) (f : Fin 64) : idx_main_v75 (idx_main_v76 (ix2 r f)) = ix1 f :=
  funext fun a => Fin.ext (by match a with | ⟨0, _⟩ => rfl)
theorem e82 (r : Fin 100000) (f : Fin 64) : idx_main_v81 (idx_main_v82 (ix2 r f)) = ix1 f :=
  funext fun a => Fin.ext (by match a with | ⟨0, _⟩ => rfl)
theorem e85 (r : Fin 100000) (f : Fin 64) : idx_main_v84 (idx_main_v85 (ix2 r f)) = ix1 f :=
  funext fun a => Fin.ext (by match a with | ⟨0, _⟩ => rfl)
/-- A sum over the rows reads, for column `f` and row `k`, the entry `(k, f)`. -/
theorem e62 (f : Fin 64) (k : Fin 100000) : idx_main_v62 (ix1 f) k = ix2 k f :=
  funext fun a => Fin.ext (by match a with | ⟨0, _⟩ => rfl | ⟨1, _⟩ => rfl)
theorem e69 (f : Fin 64) (k : Fin 100000) : idx_main_v69 (ix1 f) k = ix2 k f :=
  funext fun a => Fin.ext (by match a with | ⟨0, _⟩ => rfl | ⟨1, _⟩ => rfl)

/-! ## The reference's tail, operation by operation, at an index -/

section Reference

variable (x0 : (⟨S100000x128, .f32⟩ : BufTy).Contents (Elt Ideal)) (x1 : (⟨S2x1000000, .i32⟩ : BufTy).Contents (Elt Ideal)) (x2 : (⟨S1000000x32, .f32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S32x64, .f32⟩ : BufTy).Contents (Elt Ideal)) (x7 : (⟨S64, .f32⟩ : BufTy).Contents (Elt Ideal)) (x8 : (⟨S128x1, .f32⟩ : BufTy).Contents (Elt Ideal)) (x9 : (⟨S1, .f32⟩ : BufTy).Contents (Elt Ideal)) (x10 x11 : (⟨S64, .f32⟩ : BufTy).Contents (Elt Ideal))

local notation "O" => val_main_v61 (F := Ideal) x0 x1 x2 x3 x4 x5 x6 x7 x8 x9

/-- The reference's column mean (its sum from zero, divided by the number of rows). -/
theorem mean_apply (f : Fin 64) : val_main_v64 (F := Ideal) x0 x1 x2 x3 x4 x5 x6 x7 x8 x9 (ix1 f) = muR O f := by
  rw [val_main_v64_apply, val_main_v62_apply, val_main_v63_apply, val_main_cst_12_apply, val_main_cst_11_apply]
  unfold muR
  exact congrArg (fun s => Ideal.div (zeroW + s) nW) (Finset.sum_congr rfl fun k _ => congrArg O (e62 f k))

/-- The deviation of an entry from its column's mean. -/
theorem dev_apply (k : Fin 100000) (f : Fin 64) :
    val_main_v67 (F := Ideal) x0 x1 x2 x3 x4 x5 x6 x7 x8 x9 (ix2 k f) = O (ix2 k f) - muR O f := by
  rw [val_main_v67_apply, val_main_v66_apply, val_main_v65_apply, e66, mean_apply]
  rfl

/-- The reference's column variance (the sum of the squared deviations from zero, divided by the number of rows). -/
theorem var_apply (f : Fin 64) : val_main_v71 (F := Ideal) x0 x1 x2 x3 x4 x5 x6 x7 x8 x9 (ix1 f)
    = Ideal.div (zeroW + ∑ k : Fin 100000, (O (ix2 k f) - muR O f) * (O (ix2 k f) - muR O f)) nW := by
  rw [val_main_v71_apply, val_main_v69_apply, val_main_v70_apply, val_main_cst_14_apply, val_main_cst_13_apply]
  refine congrArg (fun s => Ideal.div (zeroW + s) nW) (Finset.sum_congr rfl fun k _ => ?_)
  rw [e69, val_main_v68_apply, dev_apply]
  rfl

/-- The reference's reciprocal standard deviation. -/
theorem inv_apply (f : Fin 64) : val_main_v80 (F := Ideal) x0 x1 x2 x3 x4 x5 x6 x7 x8 x9 (ix1 f) = invR O f := by
  rw [val_main_v80_apply, val_main_v79_apply, var_apply, val_main_v78_apply, val_main_cst_15_apply]
  rfl

/-- The reference's last operation at `(r, f)`, through its operations down to the array `o` the tail starts from. -/
theorem ref_tail (r : Fin 100000) (f : Fin 64) :
    val_main_v88 (F := Ideal) x0 x1 x2 x3 x4 x5 x6 x7 x8 x9 x10 x11 (ix2 r f) = tailR O x10 x11 r f := by
  rw [val_main_v88_apply, val_main_v87_apply, val_main_v86_apply, val_main_v83_apply, val_main_v77_apply,
    val_main_v76_apply, val_main_v75_apply, e76, val_main_v74_apply, val_main_v73_apply, val_main_v72_apply, e73,
    mean_apply, val_main_v82_apply, val_main_v81_apply, e82, inv_apply, val_main_v85_apply, val_main_v84_apply, e85,
    val_main_call0_v0_apply, val_main_call0_cst_apply]
  rfl

end Reference

/-! ## The same tail from the kernel's two block-accumulated column sums -/

/-- Twenty blocks of 5000 rows are the 100000 rows. -/
theorem blocks (o : Arr2 100000 64) (f : Fin 64) :
    (∑ b : Fin 20, ∑ r : Fin 5000, o (ix2 (Cert.Spec.rowOf b r) f)) = ∑ k : Fin 100000, o (ix2 k f) :=
  Cert.Algebra.blockSum_eq fun k => o (ix2 k f)
theorem blocksSq (o : Arr2 100000 64) (f : Fin 64) :
    (∑ b : Fin 20, ∑ r : Fin 5000, o (ix2 (Cert.Spec.rowOf b r) f) * o (ix2 (Cert.Spec.rowOf b r) f))
      = ∑ k : Fin 100000, o (ix2 k f) * o (ix2 k f) :=
  Cert.Algebra.blockSum_eq fun k => o (ix2 k f) * o (ix2 k f)

theorem colSum_apply (o : Arr2 100000 64) (f : Fin 64) :
    Cert.Spec.colSum o (ix2 (0 : Fin 1) f) = ∑ k : Fin 100000, o (ix2 k f) := blocks o f
theorem colSumSq_apply (o : Arr2 100000 64) (f : Fin 64) :
    Cert.Spec.colSumSq o (ix2 (0 : Fin 1) f) = ∑ k : Fin 100000, o (ix2 k f) * o (ix2 k f) := blocksSq o f

/-- A scalar constant broadcast to a row reads as the constant. -/
theorem bc0 (w : BitVec 32) (j : Cert.KernelIdeal.S1x64.Idx) :
    broadcastInDim Cert.KernelIdeal.S1x64 ![] Cert.KernelIdeal.Facts₀.bcast_S_S1x64
        (constant (F := Ideal) Cert.KernelIdeal.S_ .f32 w) j = Ideal.ofBits .f32 w :=
  (broadcastInDim_apply _ Cert.KernelIdeal.Facts₀.bcast_S_S1x64 (constant (F := Ideal) Cert.KernelIdeal.S_ .f32 w) j ix0
    (fun a => a.elim0)).trans rfl

/-- The kernel's column mean: the column sum divided by the number of rows. -/
theorem muK_apply (o : Arr2 100000 64) (f : Fin 64) :
    Cert.KernelIdeal.KChain.muK o (ix2 (0 : Fin 1) f) = Ideal.div (∑ k : Fin 100000, o (ix2 k f)) nW := by
  unfold Cert.KernelIdeal.KChain.muK
  show Ideal.div (Cert.Spec.colSum o (ix2 (0 : Fin 1) f))
    (broadcastInDim Cert.KernelIdeal.S1x64 ![] Cert.KernelIdeal.Facts₀.bcast_S_S1x64
      (constant (F := Ideal) Cert.KernelIdeal.S_ .f32 0x47C35000#32) (ix2 (0 : Fin 1) f)) = _
  rw [bc0, colSum_apply]

/-- The kernel's reciprocal standard deviation: mean of squares minus square of mean, stabilised. -/
theorem invK_apply (o : Arr2 100000 64) (f : Fin 64) :
    Cert.KernelIdeal.KChain.invK o (ix2 (0 : Fin 1) f)
      = Ideal.rsqrt ((Ideal.div (∑ k : Fin 100000, o (ix2 k f) * o (ix2 k f)) nW
          - Ideal.div (∑ k : Fin 100000, o (ix2 k f)) nW * Ideal.div (∑ k : Fin 100000, o (ix2 k f)) nW) + epsW) := by
  unfold Cert.KernelIdeal.KChain.invK
  show Ideal.rsqrt ((Ideal.div (Cert.Spec.colSumSq o (ix2 (0 : Fin 1) f))
      (broadcastInDim Cert.KernelIdeal.S1x64 ![] Cert.KernelIdeal.Facts₀.bcast_S_S1x64
        (constant (F := Ideal) Cert.KernelIdeal.S_ .f32 0x47C35000#32) (ix2 (0 : Fin 1) f))
      - Cert.KernelIdeal.KChain.muK o (ix2 (0 : Fin 1) f) * Cert.KernelIdeal.KChain.muK o (ix2 (0 : Fin 1) f))
    + broadcastInDim Cert.KernelIdeal.S1x64 ![] Cert.KernelIdeal.Facts₀.bcast_S_S1x64
        (constant (F := Ideal) Cert.KernelIdeal.S_ .f32 0x3727C5AC#32) (ix2 (0 : Fin 1) f)) = _
  rw [bc0, bc0, colSumSq_apply, muK_apply]

/-- The two means agree: the reference's sum starts from zero. -/
theorem mu_eq (o : Arr2 100000 64) (f : Fin 64) : Cert.KernelIdeal.KChain.muK o (ix2 (0 : Fin 1) f) = muR o f := by
  rw [muK_apply]
  unfold muR
  simp only [zeroW, Cert.Consts.ofBits_zero, zero_add]

/-- The two variances agree where every entry of the column is a real number. -/
theorem var_col (o : Arr2 100000 64) (ho : ∀ i, IsReal (o i)) (f : Fin 64) :
    Ideal.div (∑ k : Fin 100000, o (ix2 k f) * o (ix2 k f)) nW
        - Ideal.div (∑ k : Fin 100000, o (ix2 k f)) nW * Ideal.div (∑ k : Fin 100000, o (ix2 k f)) nW
      = Ideal.div (zeroW + ∑ k : Fin 100000, (o (ix2 k f) - muR o f) * (o (ix2 k f) - muR o f)) nW :=
  Cert.Algebra.var_eq (fun k => o (ix2 k f)) (fun k => ho _)

theorem inv_eq (o : Arr2 100000 64) (ho : ∀ i, IsReal (o i)) (f : Fin 64) :
    Cert.KernelIdeal.KChain.invK o (ix2 (0 : Fin 1) f) = invR o f := by
  rw [invK_apply, var_col o ho f]
  rfl

/-- The normalising stage applied to the kernel's mean and reciprocal deviation is the reference's tail. -/
theorem ker_tail (o : Arr2 100000 64) (ho : ∀ i, IsReal (o i)) (g b : (⟨1, ![64]⟩ : Shape).Idx → EReal)
    (r : Fin 100000) (f : Fin 64) :
    Cert.Spec.normRelu o (Cert.KernelIdeal.KChain.muK o) (Cert.KernelIdeal.KChain.invK o)
        (shapeCast _ g Cert.KernelIdeal.Facts₀.shapeCasts_S64_S1x64)
        (shapeCast _ b Cert.KernelIdeal.Facts₀.shapeCasts_S64_S1x64) (ix2 r f) = tailR o g b r f := by
  have hg : shapeCast Cert.KernelIdeal.S1x64 g Cert.KernelIdeal.Facts₀.shapeCasts_S64_S1x64 (ix2 (0 : Fin 1) f) = g (ix1 f) :=
    shapeCast_a_1a_apply g _ (0 : Fin 1) f
  have hb : shapeCast Cert.KernelIdeal.S1x64 b Cert.KernelIdeal.Facts₀.shapeCasts_S64_S1x64 (ix2 (0 : Fin 1) f) = b (ix1 f) :=
    shapeCast_a_1a_apply b _ (0 : Fin 1) f
  show max (((shapeCast Cert.KernelIdeal.S1x64 g Cert.KernelIdeal.Facts₀.shapeCasts_S64_S1x64 (ix2 (0 : Fin 1) f)
        * (o (ix2 r f) - Cert.KernelIdeal.KChain.muK o (ix2 (0 : Fin 1) f))) * Cert.KernelIdeal.KChain.invK o (ix2 (0 : Fin 1) f)
        + shapeCast Cert.KernelIdeal.S1x64 b Cert.KernelIdeal.Facts₀.shapeCasts_S64_S1x64 (ix2 (0 : Fin 1) f))
      + ((shapeCast Cert.KernelIdeal.S1x64 g Cert.KernelIdeal.Facts₀.shapeCasts_S64_S1x64 (ix2 (0 : Fin 1) f)
        * (o (ix2 r f) - Cert.KernelIdeal.KChain.muK o (ix2 (0 : Fin 1) f))) * Cert.KernelIdeal.KChain.invK o (ix2 (0 : Fin 1) f)
        + shapeCast Cert.KernelIdeal.S1x64 b Cert.KernelIdeal.Facts₀.shapeCasts_S64_S1x64 (ix2 (0 : Fin 1) f))) zeroW = _
  rw [hg, hb, mu_eq, inv_eq o ho]
  rfl

/-! ## The two sides -/

/-- The reference's returned array is the kernel's normalising stage applied to `o` and to the mean and the reciprocal
    standard deviation the kernel forms from `o`'s two column sums — where every entry of `o` is a real number. -/
theorem tail_eq (x0 : (⟨S100000x128, .f32⟩ : BufTy).Contents (Elt Ideal)) (x1 : (⟨S2x1000000, .i32⟩ : BufTy).Contents (Elt Ideal)) (x2 : (⟨S1000000x32, .f32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S32x64, .f32⟩ : BufTy).Contents (Elt Ideal)) (x7 : (⟨S64, .f32⟩ : BufTy).Contents (Elt Ideal)) (x8 : (⟨S128x1, .f32⟩ : BufTy).Contents (Elt Ideal)) (x9 : (⟨S1, .f32⟩ : BufTy).Contents (Elt Ideal)) (x10 x11 : (⟨S64, .f32⟩ : BufTy).Contents (Elt Ideal))
    (ho : ∀ i, IsReal (val_main_v61 (F := Ideal) x0 x1 x2 x3 x4 x5 x6 x7 x8 x9 i)) :
    val_main_v88 (F := Ideal) x0 x1 x2 x3 x4 x5 x6 x7 x8 x9 x10 x11
      = Cert.Spec.normRelu (val_main_v61 (F := Ideal) x0 x1 x2 x3 x4 x5 x6 x7 x8 x9)
          (Cert.KernelIdeal.KChain.muK (val_main_v61 (F := Ideal) x0 x1 x2 x3 x4 x5 x6 x7 x8 x9))
          (Cert.KernelIdeal.KChain.invK (val_main_v61 (F := Ideal) x0 x1 x2 x3 x4 x5 x6 x7 x8 x9))
          (shapeCast _ x10 Cert.KernelIdeal.Facts₀.shapeCasts_S64_S1x64)
          (shapeCast _ x11 Cert.KernelIdeal.Facts₀.shapeCasts_S64_S1x64) := by
  funext i
  obtain ⟨r, f, rfl⟩ : ∃ (r : Fin 100000) (f : Fin 64), i = ix2 r f := ⟨i 0, i 1, eq_ix2 i⟩
  rw [ref_tail, ker_tail _ ho]

end Cert.Bridge

end
-- ==== Proof.Reals.lean ====
/-
  Real entries stay real through the kernel's stages.

  Every layout operation of the chain (a gather, a broadcast, a reshape, a slice) reads its operand at some index,
  so it keeps "every entry is a real number"; a constant splat of the zero word or of the word of 1.0 is the real 0
  or 1 everywhere; a scatter-add is, entry by entry, the operand's entry plus a finite sum of update entries.  The
  three device stages before the statistics are finite sums of products of reals plus reals; the one division is by
  max(count, 1), which is a real at least 1 and so not zero; the gate is the logistic function of a real.  Hence
  every entry of the array the statistics are taken of is a real number whenever every float argument's entries are.
-/
import proofs.«160100_j24051816857687_1_alg».proof.Proof.KChain
import proofs.«160100_j24051816857687_1_alg».proof.Proof.Algebra
import proofs.«160100_j24051816857687_1_alg».proof.Proof.Consts

noncomputable section

open scoped BigOperators

namespace Cert.KernelIdeal.Reals

open Idealize.ShloMosaic Cert.Algebra

/-! ## Re-indexings and constants keep real entries real -/

section Generic
variable {s t si su : Shape}

/-- A gather reads the operand at some index. -/
theorem gather_real {w : Nat} (d : GatherDims s si t) (x : s.Idx → EReal) (idx : IVec si w) (hx : ∀ i, IsReal (x i)) :
    ∀ j, IsReal (Host.gather d x idx j) := fun j => hx _

/-- A broadcast reads the operand at some index. -/
theorem bcast_real (dims : Fin s.rank → Fin t.rank) (h : s.BroadcastsInDim t dims) (x : s.Idx → EReal)
    (hx : ∀ i, IsReal (x i)) : ∀ j, IsReal (broadcastInDim t dims h x j) := fun j => hx _

/-- A reshape reads the operand at some index. -/
theorem cast_real (x : s.Idx → EReal) (h : s.ShapeCasts t) (hx : ∀ i, IsReal (x i)) :
    ∀ j, IsReal (shapeCast t x h j) := fun j => hx _

/-- A slice reads the operand at some index. -/
theorem slice_real (off : Fin s.rank → Nat) (x : s.Idx → EReal) (h : s.Slices off t) (hx : ∀ i, IsReal (x i)) :
    ∀ j, IsReal (extractStridedSlice t off x h j) := fun j => hx _

/-- The zero word everywhere. -/
theorem zeros_real : ∀ j : s.Idx, IsReal (constant (F := Ideal) s .f32 0x00000000#32 j) := fun j => by
  show IsReal (Ideal.ofBits .f32 0x00000000#32)
  rw [Cert.Consts.ofBits_zero]; exact IsReal.zero

/-- The word of 1.0 everywhere. -/
theorem ones_real : ∀ j : s.Idx, IsReal (constant (F := Ideal) s .f32 0x3F800000#32 j) := fun j => by
  show IsReal (Ideal.ofBits .f32 0x3F800000#32)
  rw [Cert.Consts.ofBits_one]; exact IsReal.coe 1

/-- A scatter-add is, entry by entry, the operand's entry plus a finite sum of update entries. -/
theorem scatterAdd_real {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := fun i => by
  show IsReal (Ideal.hostScatterAdd d x idx upd i)
  unfold Ideal.hostScatterAdd
  exact (hx i).add (IsReal.sum _ _ fun j _ => hu j)

end Generic

/-! ## The three device stages that feed the statistics -/

/-- The divisor max(count, 1) is at least 1, so it is not zero. -/
theorem max_one_ne_zero (a : EReal) : max a Spec.oneW ≠ 0 := by
  have h1 : (0 : EReal) < Spec.oneW := by
    show (0 : EReal) < Ideal.ofBits .f32 0x3F800000#32
    rw [Cert.Consts.ofBits_one]; exact EReal.coe_pos.mpr one_pos
  exact ne_of_gt (lt_of_lt_of_le h1 (le_max_right a Spec.oneW))

theorem one_real : IsReal Spec.oneW := by
  show IsReal (Ideal.ofBits .f32 0x3F800000#32)
  rw [Cert.Consts.ofBits_one]; exact IsReal.coe 1

/-- The node transform: sums of products of reals, a quotient by a nonzero real, plus reals. -/
theorem nodeOut_real (agg : Spec.Arr2 100000 128) (cnt : Spec.Arr2 100000 1) (x : Spec.Arr2 100000 128)
    (Wl : Spec.Arr2 128 64) (bl : Spec.Arr2 1 64) (Wr : Spec.Arr2 128 64)
    (hagg : ∀ i, IsReal (agg i)) (hcnt : ∀ i, IsReal (cnt i)) (hx : ∀ i, IsReal (x i)) (hWl : ∀ i, IsReal (Wl i))
    (hbl : ∀ i, IsReal (bl i)) (hWr : ∀ i, IsReal (Wr i)) : ∀ i, IsReal (Spec.nodeOut agg cnt x Wl bl Wr i) := fun i => by
  unfold Spec.nodeOut
  exact ((IsReal.sum _ _ fun k _ => ((hagg _).div ((hcnt _).max one_real) (max_one_ne_zero _)).mul (hWl _)).add (hbl _)).add
    (IsReal.sum _ _ fun k _ => (hx _).mul (hWr _))

/-- The edge embedding: sums of products of reals plus a real. -/
theorem edgeEmb_real (ea : Spec.Arr2 1000000 32) (We : Spec.Arr2 32 64) (be : Spec.Arr2 1 64)
    (hea : ∀ i, IsReal (ea i)) (hWe : ∀ i, IsReal (We i)) (hbe : ∀ i, IsReal (be i)) :
    ∀ i, IsReal (Spec.edgeEmb ea We be i) := fun i => by
  unfold Spec.edgeEmb
  exact (IsReal.sum _ _ fun k _ => (hea _).mul (hWe _)).add (hbe _)

/-- The attention gate: the logistic function of a real, times a real. -/
theorem attn_real (oc e : Spec.Arr2 1000000 64) (w1 w2 : Spec.Arr2 64 1) (b : Spec.Arr2 1 1)
    (hoc : ∀ i, IsReal (oc i)) (he : ∀ i, IsReal (e i)) (hw1 : ∀ i, IsReal (w1 i)) (hw2 : ∀ i, IsReal (w2 i))
    (hb : ∀ i, IsReal (b i)) : ∀ i, IsReal (Spec.attn oc e w1 w2 b i) := fun i => by
  unfold Spec.attn
  exact ((((IsReal.sum _ _ fun k _ => (hoc _).mul (hw1 _)).add (IsReal.sum _ _ fun k _ => (he _).mul (hw2 _))).add (hb _)).logistic).mul
    (he i)

/-! ## The kernel's stages -/

open Cert.KernelIdeal

/-- The segment sum of the gathered node features. -/
theorem agg_real (x : (⟨S100000x128, .f32⟩ : BufTy).Contents (Elt Ideal)) (ei : (⟨S2x1000000, .i32⟩ : BufTy).Contents (Elt Ideal))
    (hx : ∀ i, IsReal (x i)) : ∀ i, IsReal (KChain.aggK x ei i) := by
  unfold KChain.aggK
  exact scatterAdd_real _ _ _ _ (bcast_real _ _ _ zeros_real) (gather_real _ _ _ hx)

/-- The segment count. -/
theorem cnt_real (ei : (⟨S2x1000000, .i32⟩ : BufTy).Contents (Elt Ideal)) : ∀ i, IsReal (KChain.cntK ei i) := by
  unfold KChain.cntK
  exact bcast_real _ _ _ (scatterAdd_real _ _ _ _ (bcast_real _ _ _ zeros_real) (bcast_real _ _ _ ones_real))

/-- The node transform of the kernel's chain. -/
theorem out1_real (x : (⟨S100000x128, .f32⟩ : BufTy).Contents (Elt Ideal)) (ei : (⟨S2x1000000, .i32⟩ : BufTy).Contents (Elt Ideal))
    (Wl : (⟨S128x64, .f32⟩ : BufTy).Contents (Elt Ideal)) (bl : (⟨S64, .f32⟩ : BufTy).Contents (Elt Ideal))
    (Wr : (⟨S128x64, .f32⟩ : BufTy).Contents (Elt Ideal))
    (hx : ∀ i, IsReal (x i)) (hWl : ∀ i, IsReal (Wl i)) (hbl : ∀ i, IsReal (bl i)) (hWr : ∀ i, IsReal (Wr i)) :
    ∀ i, IsReal (KChain.out1K x ei Wl bl Wr i) := by
  unfold KChain.out1K
  exact nodeOut_real _ _ _ _ _ _ (agg_real x ei hx) (cnt_real ei) hx hWl (cast_real _ _ hbl) hWr

/-- The edge embedding of the kernel's chain. -/
theorem emb_real (ea : (⟨S1000000x32, .f32⟩ : BufTy).Contents (Elt Ideal)) (We : (⟨S32x64, .f32⟩ : BufTy).Contents (Elt Ideal))
    (be : (⟨S64, .f32⟩ : BufTy).Contents (Elt Ideal))
    (hea : ∀ i, IsReal (ea i)) (hWe : ∀ i, IsReal (We i)) (hbe : ∀ i, IsReal (be i)) :
    ∀ i, IsReal (KChain.embK ea We be i) := by
  unfold KChain.embK
  exact edgeEmb_real _ _ _ hea hWe (cast_real _ _ hbe)

/-- The gated contributions of the kernel's chain. -/
theorem contrib_real (o1 : (⟨S100000x64, .f32⟩ : BufTy).Contents (Elt Ideal)) (ei : (⟨S2x1000000, .i32⟩ : BufTy).Contents (Elt Ideal))
    (e : (⟨S1000000x64, .f32⟩ : BufTy).Contents (Elt Ideal)) (Wa : (⟨S128x1, .f32⟩ : BufTy).Contents (Elt Ideal))
    (ba : (⟨S1, .f32⟩ : BufTy).Contents (Elt Ideal))
    (ho1 : ∀ i, IsReal (o1 i)) (he : ∀ i, IsReal (e i)) (hWa : ∀ i, IsReal (Wa i)) (hba : ∀ i, IsReal (ba i)) :
    ∀ i, IsReal (KChain.contribK o1 ei e Wa ba i) := by
  unfold KChain.contribK
  exact attn_real _ _ _ _ _ (gather_real _ _ _ ho1) he (slice_real _ _ _ hWa) (slice_real _ _ _ hWa) (cast_real _ _ hba)

/-- The node features after the gated contributions are added in. -/
theorem out2_stage_real (o1 : (⟨S100000x64, .f32⟩ : BufTy).Contents (Elt Ideal)) (ei : (⟨S2x1000000, .i32⟩ : BufTy).Contents (Elt Ideal))
    (ct : (⟨S1000000x64, .f32⟩ : BufTy).Contents (Elt Ideal)) (ho1 : ∀ i, IsReal (o1 i)) (hct : ∀ i, IsReal (ct i)) :
    ∀ i, IsReal (KChain.out2K o1 ei ct i) := fun i => by
  unfold KChain.out2K
  exact (ho1 i).add (scatterAdd_real _ _ _ _ (bcast_real _ _ _ zeros_real) hct i)

/-- Every entry of the array the statistics are taken of is a real number when every float argument's entries are. -/
theorem out2_real (x : (⟨S100000x128, .f32⟩ : BufTy).Contents (Elt Ideal)) (ei : (⟨S2x1000000, .i32⟩ : BufTy).Contents (Elt Ideal))
    (ea : (⟨S1000000x32, .f32⟩ : BufTy).Contents (Elt Ideal)) (Wl : (⟨S128x64, .f32⟩ : BufTy).Contents (Elt Ideal))
    (bl : (⟨S64, .f32⟩ : BufTy).Contents (Elt Ideal)) (Wr : (⟨S128x64, .f32⟩ : BufTy).Contents (Elt Ideal))
    (We : (⟨S32x64, .f32⟩ : BufTy).Contents (Elt Ideal)) (be : (⟨S64, .f32⟩ : BufTy).Contents (Elt Ideal))
    (Wa : (⟨S128x1, .f32⟩ : BufTy).Contents (Elt Ideal)) (ba : (⟨S1, .f32⟩ : BufTy).Contents (Elt Ideal))
    (hx : ∀ i, IsReal (x i)) (hea : ∀ i, IsReal (ea i)) (hWl : ∀ i, IsReal (Wl i)) (hbl : ∀ i, IsReal (bl i))
    (hWr : ∀ i, IsReal (Wr i)) (hWe : ∀ i, IsReal (We i)) (hbe : ∀ i, IsReal (be i)) (hWa : ∀ i, IsReal (Wa i))
    (hba : ∀ i, IsReal (ba i)) :
    ∀ i, IsReal (KChain.out2K (KChain.out1K x ei Wl bl Wr) ei
      (KChain.contribK (KChain.out1K x ei Wl bl Wr) ei (KChain.embK ea We be) Wa ba) i) :=
  out2_stage_real _ _ _ (out1_real x ei Wl bl Wr hx hWl hbl hWr)
    (contrib_real _ _ _ _ _ (out1_real x ei Wl bl Wr hx hWl hbl hWr) (emb_real ea We be hea hWe hbe) hWa hba)

end Cert.KernelIdeal.Reals

end
-- ==== Proof.Bridge.lean ====
/-
  The two programs compute one function.  On the reference's side the node output, the edge embedding and the gated
  messages are the kernel's stage functions (BridgeNode, BridgeAttn); the last scatter-add is the kernel's once the
  target indices are non-negative (the reference wraps a negative index, the kernel's segment sum reads it as it is:
  with every index ≥ 0 the wrapped column IS the raw column); and the batch-norm tail is the kernel's because every
  entry it averages is a real number (BridgeTail, over the variance identity of Algebra).
-/
import proofs.«160100_j24051816857687_1_alg».proof.Proof.BridgeNode
import proofs.«160100_j24051816857687_1_alg».proof.Proof.BridgeAttn
import proofs.«160100_j24051816857687_1_alg».proof.Proof.BridgeTail
import proofs.«160100_j24051816857687_1_alg».proof.Proof.Reals

noncomputable section

namespace Cert.Bridge

open Idealize.ShloMosaic Cert.Algebra
open Cert.KernelIdeal.KChain Cert.KernelIdeal.KInt

variable (x0 : (⟨Cert.KernelIdeal.S100000x128, .f32⟩ : BufTy).Contents (Elt Ideal))
  (x1 : (⟨Cert.KernelIdeal.S2x1000000, .i32⟩ : BufTy).Contents (Elt Ideal))
  (x2 : (⟨Cert.KernelIdeal.S1000000x32, .f32⟩ : BufTy).Contents (Elt Ideal))
  (x3 : (⟨Cert.KernelIdeal.S128x64, .f32⟩ : BufTy).Contents (Elt Ideal))
  (x4 : (⟨Cert.KernelIdeal.S64, .f32⟩ : BufTy).Contents (Elt Ideal))
  (x5 : (⟨Cert.KernelIdeal.S128x64, .f32⟩ : BufTy).Contents (Elt Ideal))
  (x6 : (⟨Cert.KernelIdeal.S32x64, .f32⟩ : BufTy).Contents (Elt Ideal))
  (x7 : (⟨Cert.KernelIdeal.S64, .f32⟩ : BufTy).Contents (Elt Ideal))
  (x8 : (⟨Cert.KernelIdeal.S128x1, .f32⟩ : BufTy).Contents (Elt Ideal))
  (x9 : (⟨Cert.KernelIdeal.S1, .f32⟩ : BufTy).Contents (Elt Ideal))
  (x10 x11 : (⟨Cert.KernelIdeal.S64, .f32⟩ : BufTy).Contents (Elt Ideal))

/-- The reference's wrapped target-index column is the kernel vocabulary's. -/
theorem wrapped_col_eq : Cert.ReferenceIdeal.ReadP.val_main_v59 (F := Ideal) x1 = wrapCol (dstI x1) := rfl

/-- The node output after the messages are added back: with non-negative target indices the reference's array is
    the kernel's. -/
theorem out2_eq (hw : wrapCol (dstI x1) = rawCol (dstI x1)) :
    Cert.ReferenceIdeal.ReadP.val_main_v61 (F := Ideal) x0 x1 x2 x3 x4 x5 x6 x7 x8 x9
      = out2K (out1K x0 x1 x3 x4 x5) x1 (contribK (out1K x0 x1 x3 x4 x5) x1 (embK x2 x6 x7) x8 x9) := by
  unfold Cert.ReferenceIdeal.ReadP.val_main_v61 Cert.ReferenceIdeal.ReadP.val_main_v60
  rw [contrib_eq, out1_eq, emb_eq, wrapped_col_eq, hw]
  rfl

/-- The whole reference is the whole kernel, for real float inputs and non-negative target indices. -/
theorem result_eq (hw : wrapCol (dstI x1) = rawCol (dstI x1))
    (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (h8 : ∀ i, IsReal (x8 i))
    (h9 : ∀ i, IsReal (x9 i)) :
    Cert.ReferenceIdeal.ReadP.val_main_v88 (F := Ideal) x0 x1 x2 x3 x4 x5 x6 x7 x8 x9 x10 x11
      = resK x0 x1 x2 x3 x4 x5 x6 x7 x8 x9 x10 x11 := by
  have ho : ∀ i, IsReal (Cert.ReferenceIdeal.ReadP.val_main_v61 (F := Ideal) x0 x1 x2 x3 x4 x5 x6 x7 x8 x9 i) := by
    rw [out2_eq x0 x1 x2 x3 x4 x5 x6 x7 x8 x9 hw]
    exact Cert.KernelIdeal.Reals.out2_real x0 x1 x2 x3 x4 x5 x6 x7 x8 x9 h0 h2 h3 h4 h5 h6 h7 h8 h9
  rw [tail_eq x0 x1 x2 x3 x4 x5 x6 x7 x8 x9 x10 x11 ho, out2_eq x0 x1 x2 x3 x4 x5 x6 x7 x8 x9 hw]
  rfl

end Cert.Bridge

end
-- ==== Proof.lean ====
/-
  The five claims about the message-passing layer (mean aggregation over incoming edges, two node projections, an
  edge embedding, a sigmoid attention gate on every edge, the gated messages added back to their target nodes,
  batch normalisation over the nodes, doubling and a clamp at zero).

  * The three frames: each program terminates on every weakly fair execution, faults nowhere and leaves its
    arguments as launched (the two kernels' by their frame certificates, the reference's by its run).
  * `preserves`: the idealisation rewrote nothing.
  * `algebraic`: at exact arithmetic the two programs return the same array, entry by entry, whenever every float
    input is finite and every edge index is non-negative.  The kernel's five device stages are read off its run as
    whole-array functions; its host stretches and the reference's host program are the same gathers and segment sums;
    the attention score's one inner product over 128 columns is the kernel's two over 64; and the kernel's variance
    "mean of squares minus squared mean" is the reference's two-pass variance because every averaged entry is real.
-/
import proofs.«160100_j24051816857687_1_alg».proof.Defs
import proofs.«160100_j24051816857687_1_alg».proof.Proof.Gen.Kernel
import proofs.«160100_j24051816857687_1_alg».proof.Proof.Gen.KernelIdeal
import proofs.«160100_j24051816857687_1_alg».proof.Proof.Gen.ReferenceIdeal
import proofs.«160100_j24051816857687_1_alg».proof.Proof.Gen.Pre_finite_inputs
import proofs.«160100_j24051816857687_1_alg».proof.Proof.KernelFrameP
import proofs.«160100_j24051816857687_1_alg».proof.Proof.KernelIdealFrameP
import proofs.«160100_j24051816857687_1_alg».proof.Proof.ReferenceRunP
import proofs.«160100_j24051816857687_1_alg».proof.Proof.ReferenceReadP
import proofs.«160100_j24051816857687_1_alg».proof.Proof.KRun
import proofs.«160100_j24051816857687_1_alg».proof.Proof.KChain
import proofs.«160100_j24051816857687_1_alg».proof.Proof.R0Final
import proofs.«160100_j24051816857687_1_alg».proof.Proof.R1Final
import proofs.«160100_j24051816857687_1_alg».proof.Proof.R2Final
import proofs.«160100_j24051816857687_1_alg».proof.Proof.R3Final
import proofs.«160100_j24051816857687_1_alg».proof.Proof.R4Final
import proofs.«160100_j24051816857687_1_alg».proof.Proof.PreFacts
import proofs.«160100_j24051816857687_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass applied no rewrite: nothing to preserve. -/
theorem preserves : Cert.preserves_Kernel_KernelIdeal := trivial

/-- The five device stages' output arrays, each the stage's function of its operand arrays. -/
theorem regions : Cert.KernelIdeal.KChain.Regions where
  r0 := Cert.KernelIdeal.R0.final
  r1 := Cert.KernelIdeal.R1.final
  r2 := Cert.KernelIdeal.R2.final
  r3s := Cert.KernelIdeal.R3.final_sum
  r3q := Cert.KernelIdeal.R3.final_sumsq
  r4 := Cert.KernelIdeal.R4.final

/-- Both programs end, from memories agreeing on the arguments, with the same returned array. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.KChain.W9_v50 m ρ c regions), (h c).2⟩)
    (Cert.KernelIdeal.KRun.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7, e8, e9, e10, e11⟩ := hagree c
  obtain ⟨h0, h2, h3, h4, h5, h6, h7, h8, h9⟩ := Cert.PreFacts.real_inputs m hpre c
  show Cert.ReferenceIdeal.ValueP.res_main_v88 m' c = _
  rw [Cert.ReferenceIdeal.ReadP.val_main_v88_eq, e0, e1, e2, e3, e4, e5, e6, e7, e8, e9, e10, e11]
  exact Cert.Bridge.result_eq _ _ _ _ _ _ _ _ _ _ _ _ (Cert.PreFacts.wrap_eq_raw m hpre c) h0 h2 h3 h4 h5 h6 h7 h8 h9

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
